-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v105)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v105) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v115) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x100000 : Shape := ⟨2, ![2, 100000]⟩
abbrev S2x50000 : Shape := ⟨2, ![2, 50000]⟩
abbrev S65536x390 : Shape := ⟨2, ![65536, 390]⟩
abbrev S1195x64 : Shape := ⟨2, ![1195, 64]⟩
abbrev S64x64 : Shape := ⟨2, ![64, 64]⟩
abbrev S64 : Shape := ⟨1, ![64]⟩
abbrev S_ : Shape := ⟨0, ![]⟩
abbrev S65536 : Shape := ⟨1, ![65536]⟩
abbrev S1x100000 : Shape := ⟨2, ![1, 100000]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1195 : Shape := ⟨1, ![1195]⟩
abbrev S1195x1 : Shape := ⟨2, ![1195, 1]⟩
abbrev S390x64 : Shape := ⟨2, ![390, 64]⟩
abbrev S390 : Shape := ⟨1, ![390]⟩
abbrev S390x1 : Shape := ⟨2, ![390, 1]⟩

class Facts : Prop where
  bcast_S_S65536x390 : S_.BroadcastsInDim S65536x390 (![] : Fin 0 → Fin S65536x390.rank)
  reducesTo_S65536x390_S_d0_1 : S65536x390.ReducesTo [0, 1] S_
  h_S_ : 0 < S_.numel
  bcast_S_S1195x64 : S_.BroadcastsInDim S1195x64 (![] : Fin 0 → Fin S1195x64.rank)
  reducesTo_S1195x64_S_d0_1 : S1195x64.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  reducesTo_S65536x390_S65536_d1 : S65536x390.ReducesTo [1] S65536
  bcast_S_S65536 : S_.BroadcastsInDim S65536 (![] : Fin 0 → Fin S65536.rank)
  reducesTo_S65536_S_d0 : S65536.ReducesTo [0] S_
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1195 : S_.BroadcastsInDim S1195 (![] : Fin 0 → Fin S1195.rank)
  bcast_S1195_S1195x1_0 : S1195.BroadcastsInDim S1195x1 (![0] : Fin 1 → Fin S1195x1.rank)
  bcast_S1195x1_S1195x64_0_1 : S1195x1.BroadcastsInDim S1195x64 (![0, 1] : Fin 2 → Fin S1195x64.rank)
  slices_S1195x64_S390x64_805_0 : S1195x64.Slices ![805, 0] S390x64
  bcast_S1x64_S390x64_0_1 : S1x64.BroadcastsInDim S390x64 (![0, 1] : Fin 2 → Fin S390x64.rank)
  bcast_S_S390x64 : S_.BroadcastsInDim S390x64 (![] : Fin 0 → Fin S390x64.rank)
  reducesTo_S390x64_S390_d1 : S390x64.ReducesTo [1] S390
  bcast_S390_S390x1_0 : S390.BroadcastsInDim S390x1 (![0] : Fin 1 → Fin S390x1.rank)
  bcast_S390x1_S390x64_0_1 : S390x1.BroadcastsInDim S390x64 (![0, 1] : Fin 2 → Fin S390x64.rank)
  reducesTo_S390x64_S_d0_1 : S390x64.ReducesTo [0, 1] S_
  gather_S1195x64_S100000x1_S100000x64_1_0_n_n_0_1_164_wf : GatherDims.WF S1195x64 S100000x1 S100000x64 [1] [0] [] [0] [] 1 ![1, 64]
  dot_S100000x64_S64x64_S100000x64_1_0_0_1_n_n_wf : DotDims.WF S100000x64 S64x64 S100000x64 [1] [0] [0] [1] [] []
  scatter_S1195x64_S100000x1_S100000x64_1_0_0_1_wf : ScatterDims.WF S1195x64 S100000x1 S100000x64 [1] [0] [0] 1
  scatter_S1195_S100000x1_S100000_n_0_0_1_wf : ScatterDims.WF S1195 S100000x1 S100000 [] [0] [0] 1
  dot_S390x64_S64x64_S390x64_1_0_0_1_n_n_wf : DotDims.WF S390x64 S64x64 S390x64 [1] [0] [0] [1] [] []

variable [Facts]

def gather_S1195x64_S100000x1_S100000x64_1_0_n_n_0_1_164 : GatherDims S1195x64 S100000x1 S100000x64 where
  offsetDims := [1]
  collapsedSliceDims := [0]
  operandBatchingDims := []
  startIndicesBatchingDims := []
  startIndexMap := [0]
  indexVectorDim := 1
  sliceSizes := ![1, 64]
  wf := gather_S1195x64_S100000x1_S100000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1195x64_S100000x1_S100000x64_1_0_0_1 : ScatterDims S1195x64 S100000x1 S100000x64 where
  updateWindowDims := [1]
  insertedWindowDims := [0]
  scatterDimsToOperandDims := [0]
  indexVectorDim := 1
  wf := scatter_S1195x64_S100000x1_S100000x64_1_0_0_1_wf
def scatter_S1195_S100000x1_S100000_n_0_0_1 : ScatterDims S1195 S100000x1 S100000 where
  updateWindowDims := []
  insertedWindowDims := [0]
  scatterDimsToOperandDims := [0]
  indexVectorDim := 1
  wf := scatter_S1195_S100000x1_S100000_n_0_0_1_wf
def dot_S390x64_S64x64_S390x64_1_0_0_1_n_n : DotDims S390x64 S64x64 S390x64 where
  lhsContracting := [1]
  rhsContracting := [0]
  lhsNonContracting := [0]
  rhsNonContracting := [1]
  lhsBatch := []
  rhsBatch := []
  wf := dot_S390x64_S64x64_S390x64_1_0_0_1_n_n_wf
def fn_part8 {F : FTy → Type} [FloatOps F] (main_arg12 : FVec F S64 .f32) (main_v73 : IVec S_ 1) (main_v143 : FVec F S390x64 .f32) (main_v144 : FVec F S64x64 .f32) : IVec S_ 1 :=
  let main_v145 : FVec F S390x64 .f32 := (fun l r => Host.dotGeneral dot_S390x64_S64x64_S390x64_1_0_0_1_n_n none l r) main_v143 main_v144
  let main_v146 : FVec F S1x64 .f32 := broadcastInDim S1x64 ![1] bcast_S64_S1x64_1 main_arg12
  let main_v147 : FVec F S390x64 .f32 := broadcastInDim S390x64 ![0, 1] bcast_S1x64_S390x64_0_1 main_v146
  let main_v148 : FVec F S390x64 .f32 := addf main_v145 main_v147
  let main_v149 : FVec F S390x64 .f32 := mulf main_v148 main_v148
  let main_cst_45 : FVec F S_ .f32 := constant S_ .f32 0x00000000#32
  let main_v150 : FVec F S390 .f32 := (fun x v => Host.reduceAdd x v reducesTo_S390x64_S390_d1 h_S_) main_v149 main_cst_45
  let main_v151 : FVec F S390x1 .f32 := broadcastInDim S390x1 ![0] bcast_S390_S390x1_0 main_v150
  let main_v152 : FVec F S390x1 .f32 := Host.sqrt main_v151
  let main_v153 : FVec F S390x64 .f32 := broadcastInDim S390x64 ![0, 1] bcast_S390x1_S390x64_0_1 main_v152
  let main_v154 : FVec F S390x64 .f32 := Host.divf main_v148 main_v153
  let main_v155 : FVec F S390x64 .f32 := Host.absf main_v154
  let main_cst_46 : FVec F S_ .f32 := constant S_ .f32 0x7F800000#32
  let main_v156 : FVec F S390x64 .f32 := broadcastInDim S390x64 ![] bcast_S_S390x64 main_cst_46
  let main_v157 : IVec S390x64 1 := cmpf .olt main_v155 main_v156
  let main_c_47 : IVec S_ 1 := constantI S_ 1 1#1
  let main_v158 : IVec S_ 1 := (fun x v => Host.reduce IntOp.andi x v reducesTo_S390x64_S_d0_1 h_S_) main_v157 main_c_47
  let main_v159 : IVec S_ 1 := andi main_v73 main_v158
  main_v159

def fn_part7 {F : FTy → Type} [FloatOps F] (main_arg9 : FVec F S64x64 .f32) (main_arg10 : FVec F S64 .f32) (main_arg11 : FVec F S64x64 .f32) (main_arg12 : FVec F S64 .f32) (main_v73 : IVec S_ 1) (main_v117 : FVec F S1195x64 .f32) (main_v124 : FVec F S1195x1 .f32) : IVec S_ 1 :=
  let main_v125 : FVec F S1195x64 .f32 := broadcastInDim S1195x64 ![0, 1] bcast_S1195x1_S1195x64_0_1 main_v124
  let main_v126 : FVec F S1195x64 .f32 := Host.divf main_v117 main_v125
  let main_v127 : FVec F S1195x64 .f32 := Host.tanh main_v126
  let main_v128 : FVec F S390x64 .f32 := (extractStridedSlice S390x64 ![805, 0] · slices_S1195x64_S390x64_805_0) main_v127
  let main_v129 : FVec F S64x64 .f32 := (transpose S64x64 [1, 0] · transposes_S64x64_S64x64_1_0) main_arg9
  let main_v130 : FVec F S390x64 .f32 := (fun l r => Host.dotGeneral dot_S390x64_S64x64_S390x64_1_0_0_1_n_n none l r) main_v128 main_v129
  let main_v131 : FVec F S1x64 .f32 := broadcastInDim S1x64 ![1] bcast_S64_S1x64_1 main_arg10
  let main_v132 : FVec F S390x64 .f32 := broadcastInDim S390x64 ![0, 1] bcast_S1x64_S390x64_0_1 main_v131
  let main_v133 : FVec F S390x64 .f32 := addf main_v130 main_v132
  let main_cst_41 : FVec F S_ .f32 := constant S_ .f32 0x00000000#32
  let main_v134 : FVec F S390x64 .f32 := broadcastInDim S390x64 ![] bcast_S_S390x64 main_cst_41
  let main_v135 : IVec S390x64 1 := cmpf .ogt main_v133 main_v134
  let main_cst_42 : FVec F S_ .f32 := constant S_ .f32 0x00000000#32
  let main_v136 : FVec F S390x64 .f32 := broadcastInDim S390x64 ![] bcast_S_S390x64 main_cst_42
  let main_v137 : IVec S390x64 1 := cmpf .ogt main_v133 main_v136
  let main_cst_43 : FVec F S_ .f32 := constant S_ .f32 0x00000000#32
  let main_v138 : FVec F S390x64 .f32 := broadcastInDim S390x64 ![] bcast_S_S390x64 main_cst_43
  let main_v139 : FVec F S390x64 .f32 := select main_v137 main_v138 main_v133
  let main_cst_44 : FVec F S_ .f32 := constant S_ .f32 0x3F800000#32
  let main_v140 : FVec F S390x64 .f32 := broadcastInDim S390x64 ![] bcast_S_S390x64 main_cst_44
  let main_v141 : FVec F S390x64 .f32 := Host.expm1 main_v139
  let main_v142 : FVec F S390x64 .f32 := mulf main_v140 main_v141
  let main_v143 : FVec F S390x64 .f32 := select main_v135 main_v133 main_v142
  let main_v144 : FVec F S64x64 .f32 := (transpose S64x64 [1, 0] · transposes_S64x64_S64x64_1_0) main_arg11
  fn_part8 (F := F) main_arg12 main_v73 main_v143 main_v144

def fn_part6 {F : FTy → Type} [FloatOps F] (main_arg7 : FVec F S64x64 .f32) (main_arg8 : FVec F S64 .f32) (main_arg9 : FVec F S64x64 .f32) (main_arg10 : FVec F S64 .f32) (main_arg11 : FVec F S64x64 .f32) (main_arg12 : FVec F S64 .f32) (main_v73 : IVec S_ 1) (main_v75 : IVec S100000 32) (main_v77 : IVec S100000 32) (main_v102 : FVec F S1195x64 .f32) (main_v104 : IVec S100000 1) (main_c_36 : IVec S_ 32) : IVec S_ 1 :=
  let main_v105 : IVec S100000 32 := broadcastInDim S100000 ![] bcast_S_S100000 main_c_36
  let main_v106 : IVec S100000 32 := addi main_v75 main_v105
  let main_v107 : IVec S100000 32 := select main_v104 main_v106 main_v75
  let main_v108 : IVec S100000x1 32 := broadcastInDim S100000x1 ![0] bcast_S100000_S100000x1_0 main_v107
  let main_v109 : FVec F S100000x64 .f32 := (fun x i => Host.gather gather_S1195x64_S100000x1_S100000x64_1_0_n_n_0_1_164 x i) main_v102 main_v108
  let main_v110 : FVec F S64x64 .f32 := (transpose S64x64 [1, 0] · transposes_S64x64_S64x64_1_0) main_arg7
  let main_v111 : FVec F S100000x64 .f32 := (fun l r => Host.dotGeneral dot_S100000x64_S64x64_S100000x64_1_0_0_1_n_n none l r) main_v109 main_v110
  let main_v112 : FVec F S1x64 .f32 := broadcastInDim S1x64 ![1] bcast_S64_S1x64_1 main_arg8
  let main_v113 : FVec F S100000x64 .f32 := broadcastInDim S100000x64 ![0, 1] bcast_S1x64_S100000x64_0_1 main_v112
  let main_v114 : FVec F S100000x64 .f32 := addf main_v111 main_v113
  let main_cst_37 : FVec F S_ .f32 := constant S_ .f32 0x00000000#32
  let main_v115 : FVec F S1195x64 .f32 := broadcastInDim S1195x64 ![] bcast_S_S1195x64 main_cst_37
  let main_v116 : IVec S100000x1 32 := broadcastInDim S100000x1 ![0] bcast_S100000_S100000x1_0 main_v77
  let main_v117 : FVec F S1195x64 .f32 := (fun x i u => Host.scatterAdd scatter_S1195x64_S100000x1_S100000x64_1_0_0_1 x i u) main_v115 main_v116 main_v114
  let main_cst_38 : FVec F S_ .f32 := constant S_ .f32 0x00000000#32
  let main_v118 : FVec F S1195 .f32 := broadcastInDim S1195 ![] bcast_S_S1195 main_cst_38
  let main_v119 : IVec S100000x1 32 := broadcastInDim S100000x1 ![0] bcast_S100000_S100000x1_0 main_v77
  let main_cst_39 : FVec F S_ .f32 := constant S_ .f32 0x3F800000#32
  let main_v120 : FVec F S100000 .f32 := broadcastInDim S100000 ![] bcast_S_S100000 main_cst_39
  let main_v121 : FVec F S1195 .f32 := (fun x i u => Host.scatterAdd scatter_S1195_S100000x1_S100000_n_0_0_1 x i u) main_v118 main_v119 main_v120
  let main_cst_40 : FVec F S_ .f32 := constant S_ .f32 0x3F800000#32
  let main_v122 : FVec F S1195 .f32 := broadcastInDim S1195 ![] bcast_S_S1195 main_cst_40
  let main_v123 : FVec F S1195 .f32 := maximumf main_v121 main_v122
  let main_v124 : FVec F S1195x1 .f32 := broadcastInDim S1195x1 ![0] bcast_S1195_S1195x1_0 main_v123
  fn_part7 (F := F) main_arg9 main_arg10 main_arg11 main_arg12 main_v73 main_v117 main_v124

def fn_part5 {F : FTy → Type} [FloatOps F] (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_v73 : IVec S_ 1) (main_v75 : IVec S100000 32) (main_v77 : IVec S100000 32) (main_v86 : FVec F S100000x64 .f32) : IVec S_ 1 :=
  let main_v87 : FVec F S1x64 .f32 := broadcastInDim S1x64 ![1] bcast_S64_S1x64_1 main_arg6
  let main_v88 : FVec F S100000x64 .f32 := broadcastInDim S100000x64 ![0, 1] bcast_S1x64_S100000x64_0_1 main_v87
  let main_v89 : FVec F S100000x64 .f32 := addf main_v86 main_v88
  let main_cst_31 : FVec F S_ .f32 := constant S_ .f32 0x00000000#32
  let main_v90 : FVec F S1195x64 .f32 := broadcastInDim S1195x64 ![] bcast_S_S1195x64 main_cst_31
  let main_v91 : IVec S100000x1 32 := broadcastInDim S100000x1 ![0] bcast_S100000_S100000x1_0 main_v77
  let main_v92 : FVec F S1195x64 .f32 := (fun x i u => Host.scatterAdd scatter_S1195x64_S100000x1_S100000x64_1_0_0_1 x i u) main_v90 main_v91 main_v89
  let main_cst_32 : FVec F S_ .f32 := constant S_ .f32 0x00000000#32
  let main_v93 : FVec F S1195 .f32 := broadcastInDim S1195 ![] bcast_S_S1195 main_cst_32
  let main_v94 : IVec S100000x1 32 := broadcastInDim S100000x1 ![0] bcast_S100000_S100000x1_0 main_v77
  let main_cst_33 : FVec F S_ .f32 := constant S_ .f32 0x3F800000#32
  let main_v95 : FVec F S100000 .f32 := broadcastInDim S100000 ![] bcast_S_S100000 main_cst_33
  let main_v96 : FVec F S1195 .f32 := (fun x i u => Host.scatterAdd scatter_S1195_S100000x1_S100000_n_0_0_1 x i u) main_v93 main_v94 main_v95
  let main_cst_34 : FVec F S_ .f32 := constant S_ .f32 0x3F800000#32
  let main_v97 : FVec F S1195 .f32 := broadcastInDim S1195 ![] bcast_S_S1195 main_cst_34
  let main_v98 : FVec F S1195 .f32 := maximumf main_v96 main_v97
  let main_v99 : FVec F S1195x1 .f32 := broadcastInDim S1195x1 ![0] bcast_S1195_S1195x1_0 main_v98
  let main_v100 : FVec F S1195x64 .f32 := broadcastInDim S1195x64 ![0, 1] bcast_S1195x1_S1195x64_0_1 main_v99
  let main_v101 : FVec F S1195x64 .f32 := Host.divf main_v92 main_v100
  let main_v102 : FVec F S1195x64 .f32 := Host.tanh main_v101
  let main_c_35 : IVec S_ 32 := constantI S_ 32 0#32
  let main_v103 : IVec S100000 32 := broadcastInDim S100000 ![] bcast_S_S100000 main_c_35
  let main_v104 : IVec S100000 1 := cmpi .slt main_v75 main_v103
  let main_c_36 : IVec S_ 32 := constantI S_ 32 1195#32
  fn_part6 (F := F) main_arg7 main_arg8 main_arg9 main_arg10 main_arg11 main_arg12 main_v73 main_v75 main_v77 main_v102 main_v104 main_c_36

def fn_part4 {F : FTy → Type} [FloatOps F] (main_arg0 : IVec S2x100000 32) (main_arg3 : FVec F S65536x390 .f32) (main_arg4 : FVec F S1195x64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_v63 : IVec S_ 1) (main_v67 : IVec S_ 1) : IVec S_ 1 :=
  let main_v68 : IVec S_ 1 := andi main_v63 main_v67
  let main_cst_26 : FVec F S_ .f32 := constant S_ .f32 0x00000000#32
  let main_v69 : FVec F S65536 .f32 := (fun x v => Host.reduceAdd x v reducesTo_S65536x390_S65536_d1 h_S_) main_arg3 main_cst_26
  let main_cst_27 : FVec F S_ .f32 := constant S_ .f32 0x00000000#32
  let main_v70 : FVec F S65536 .f32 := broadcastInDim S65536 ![] bcast_S_S65536 main_cst_27
  let main_v71 : IVec S65536 1 := cmpf .une main_v69 main_v70
  let main_c_28 : IVec S_ 1 := constantI S_ 1 1#1
  let main_v72 : IVec S_ 1 := (fun x v => Host.reduce IntOp.andi x v reducesTo_S65536_S_d0 h_S_) main_v71 main_c_28
  let main_v73 : IVec S_ 1 := andi main_v68 main_v72
  let main_v74 : IVec S1x100000 32 := (extractStridedSlice S1x100000 ![0, 0] · slices_S2x100000_S1x100000_0_0) main_arg0
  let main_v75 : IVec S100000 32 := shapeCast S100000 main_v74 shapeCasts_S1x100000_S100000
  let main_v76 : IVec S1x100000 32 := (extractStridedSlice S1x100000 ![1, 0] · slices_S2x100000_S1x100000_1_0) main_arg0
  let main_v77 : IVec S100000 32 := shapeCast S100000 main_v76 shapeCasts_S1x100000_S100000
  let main_c_29 : IVec S_ 32 := constantI S_ 32 0#32
  let main_v78 : IVec S100000 32 := broadcastInDim S100000 ![] bcast_S_S100000 main_c_29
  let main_v79 : IVec S100000 1 := cmpi .slt main_v75 main_v78
  let main_c_30 : IVec S_ 32 := constantI S_ 32 1195#32
  let main_v80 : IVec S100000 32 := broadcastInDim S100000 ![] bcast_S_S100000 main_c_30
  let main_v81 : IVec S100000 32 := addi main_v75 main_v80
  let main_v82 : IVec S100000 32 := select main_v79 main_v81 main_v75
  let main_v83 : IVec S100000x1 32 := broadcastInDim S100000x1 ![0] bcast_S100000_S100000x1_0 main_v82
  let main_v84 : FVec F S100000x64 .f32 := (fun x i => Host.gather gather_S1195x64_S100000x1_S100000x64_1_0_n_n_0_1_164 x i) main_arg4 main_v83
  let main_v85 : FVec F S64x64 .f32 := (transpose S64x64 [1, 0] · transposes_S64x64_S64x64_1_0) main_arg5
  let main_v86 : FVec F S100000x64 .f32 := (fun l r => Host.dotGeneral dot_S100000x64_S64x64_S100000x64_1_0_0_1_n_n none l r) main_v84 main_v85
  fn_part5 (F := F) main_arg6 main_arg7 main_arg8 main_arg9 main_arg10 main_arg11 main_arg12 main_v73 main_v75 main_v77 main_v86

def fn_part3 {F : FTy → Type} [FloatOps F] (main_arg0 : IVec S2x100000 32) (main_arg3 : FVec F S65536x390 .f32) (main_arg4 : FVec F S1195x64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg14 : FVec F S64 .f32) (main_arg15 : FVec F S64 .f32) (main_arg16 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg14
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg15
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg16
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg0 main_arg3 main_arg4 main_arg5 main_arg6 main_arg7 main_arg8 main_arg9 main_arg10 main_arg11 main_arg12 main_v63 main_v67

def fn_part2 {F : FTy → Type} [FloatOps F] (main_arg0 : IVec S2x100000 32) (main_arg3 : FVec F S65536x390 .f32) (main_arg4 : FVec F S1195x64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64 .f32) (main_arg16 : FVec F S64 .f32) (main_v33 : IVec S_ 1) : IVec S_ 1 :=
  let main_v34 : FVec F S64 .f32 := Host.absf main_arg10
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg11
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg12
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg13
  let main_cst_18 : FVec F S_ .f32 := constant S_ .f32 0x7F800000#32
  let main_v50 : FVec F S64x64 .f32 := broadcastInDim S64x64 ![] bcast_S_S64x64 main_cst_18
  fn_part3 (F := F) main_arg0 main_arg3 main_arg4 main_arg5 main_arg6 main_arg7 main_arg8 main_arg9 main_arg10 main_arg11 main_arg12 main_arg14 main_arg15 main_arg16 main_v48 main_v49 main_v50

def fn_part1 {F : FTy → Type} [FloatOps F] (main_arg0 : IVec S2x100000 32) (main_arg3 : FVec F S65536x390 .f32) (main_arg4 : FVec F S1195x64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64 .f32) (main_arg16 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg0 main_arg3 main_arg4 main_arg5 main_arg6 main_arg7 main_arg8 main_arg9 main_arg10 main_arg11 main_arg12 main_arg13 main_arg14 main_arg15 main_arg16 main_v33

def fn {F : FTy → Type} [FloatOps F] (main_arg0 : IVec S2x100000 32) (main_arg1 : IVec S2x50000 32) (main_arg2 : IVec S2x50000 32) (main_arg3 : FVec F S65536x390 .f32) (main_arg4 : FVec F S1195x64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) (main_arg13 : FVec F S64x64 .f32) (main_arg14 : FVec F S64 .f32) (main_arg15 : FVec F S64 .f32) (main_arg16 : FVec F S64 .f32) : IVec S_ 1 :=
  let main_v0 : FVec F S65536x390 .f32 := Host.absf main_arg3
  let main_cst : FVec F S_ .f32 := constant S_ .f32 0x7F800000#32
  let main_v1 : FVec F S65536x390 .f32 := broadcastInDim S65536x390 ![] bcast_S_S65536x390 main_cst
  let main_v2 : IVec S65536x390 1 := cmpf .olt main_v0 main_v1
  let main_c : IVec S_ 1 := constantI S_ 1 1#1
  let main_v3 : IVec S_ 1 := (fun x v => Host.reduce IntOp.andi x v reducesTo_S65536x390_S_d0_1 h_S_) main_v2 main_c
  let main_v4 : FVec F S1195x64 .f32 := Host.absf main_arg4
  let main_cst_0 : FVec F S_ .f32 := constant S_ .f32 0x7F800000#32
  let main_v5 : FVec F S1195x64 .f32 := broadcastInDim S1195x64 ![] bcast_S_S1195x64 main_cst_0
  let main_v6 : IVec S1195x64 1 := cmpf .olt main_v4 main_v5
  let main_c_1 : IVec S_ 1 := constantI S_ 1 1#1
  let main_v7 : IVec S_ 1 := (fun x v => Host.reduce IntOp.andi x v reducesTo_S1195x64_S_d0_1 h_S_) main_v6 main_c_1
  let main_v8 : IVec S_ 1 := andi main_v3 main_v7
  let main_v9 : FVec F S64x64 .f32 := Host.absf main_arg5
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg6
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg0 main_arg3 main_arg4 main_arg5 main_arg6 main_arg7 main_arg8 main_arg9 main_arg10 main_arg11 main_arg12 main_arg13 main_arg14 main_arg15 main_arg16 main_v13 main_v16
-- ==== Kernel.lean ====
abbrev S2x100000 : Shape := ⟨2, ![2, 100000]⟩
abbrev S2x50000 : Shape := ⟨2, ![2, 50000]⟩
abbrev S65536x390 : Shape := ⟨2, ![65536, 390]⟩
abbrev S1195x64 : Shape := ⟨2, ![1195, 64]⟩
abbrev S64x64 : Shape := ⟨2, ![64, 64]⟩
abbrev S64 : Shape := ⟨1, ![64]⟩
abbrev S1x100000 : Shape := ⟨2, ![1, 100000]⟩
abbrev S100000 : Shape := ⟨1, ![100000]⟩
abbrev S_ : Shape := ⟨0, ![]⟩
abbrev S100000x1 : Shape := ⟨2, ![100000, 1]⟩
abbrev S100000x64 : Shape := ⟨2, ![100000, 64]⟩
abbrev S1x64 : Shape := ⟨2, ![1, 64]⟩
abbrev S1195 : Shape := ⟨1, ![1195]⟩
abbrev S1195x1 : Shape := ⟨2, ![1195, 1]⟩
abbrev S805x64 : Shape := ⟨2, ![805, 64]⟩
abbrev S390x64 : Shape := ⟨2, ![390, 64]⟩
abbrev S390 : Shape := ⟨1, ![390]⟩
abbrev S390x1 : Shape := ⟨2, ![390, 1]⟩
abbrev S805 : Shape := ⟨1, ![805]⟩
abbrev S805x1 : Shape := ⟨2, ![805, 1]⟩
abbrev S64x805 : Shape := ⟨2, ![64, 805]⟩
abbrev S65536x64 : Shape := ⟨2, ![65536, 64]⟩
abbrev S16x1x64 : Shape := ⟨3, ![16, 1, 64]⟩
abbrev S4096x390 : Shape := ⟨2, ![4096, 390]⟩
abbrev S4096x64 : Shape := ⟨2, ![4096, 64]⟩
abbrev S1x1x64 : Shape := ⟨3, ![1, 1, 64]⟩
abbrev S4096 : Shape := ⟨1, ![4096]⟩
abbrev S4096x1 : Shape := ⟨2, ![4096, 1]⟩
abbrev S16x64 : Shape := ⟨2, ![16, 64]⟩
abbrev S65536x805 : Shape := ⟨2, ![65536, 805]⟩
abbrev S2048x64 : Shape := ⟨2, ![2048, 64]⟩
abbrev S2048x805 : Shape := ⟨2, ![2048, 805]⟩

abbrev nBuf : Space → Nat
  | .hbm => 177
  | .vmem => 19
  | .smem => 0
  | _ => 0

abbrev hbmTy0_0 (i : Nat) : BufTy := match i % 128 with
  | 0 => ⟨S2x100000, .i32⟩
  | 1 => ⟨S2x50000, .i32⟩
  | 2 => ⟨S2x50000, .i32⟩
  | 3 => ⟨S65536x390, .f32⟩
  | 4 => ⟨S1195x64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64, .f32⟩
  | 16 => ⟨S64, .f32⟩
  | 17 => ⟨S1x100000, .i32⟩
  | 18 => ⟨S100000, .i32⟩
  | 19 => ⟨S1x100000, .i32⟩
  | 20 => ⟨S100000, .i32⟩
  | 21 => ⟨S_, .i32⟩
  | 22 => ⟨S100000, .i32⟩
  | 23 => ⟨S100000, .i1⟩
  | 24 => ⟨S_, .i32⟩
  | 25 => ⟨S100000, .i32⟩
  | 26 => ⟨S100000, .i32⟩
  | 27 => ⟨S100000, .i32⟩
  | 28 => ⟨S100000x1, .i32⟩
  | 29 => ⟨S100000x64, .f32⟩
  | 30 => ⟨S64x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S1195x64, .f32⟩
  | 37 => ⟨S100000x1, .i32⟩
  | 38 => ⟨S1195x64, .f32⟩
  | 39 => ⟨S_, .f32⟩
  | 40 => ⟨S100000, .f32⟩
  | 41 => ⟨S_, .f32⟩
  | 42 => ⟨S1195, .f32⟩
  | 43 => ⟨S100000x1, .i32⟩
  | 44 => ⟨S1195, .f32⟩
  | 45 => ⟨S_, .f32⟩
  | 46 => ⟨S1195, .f32⟩
  | 47 => ⟨S1195, .f32⟩
  | 48 => ⟨S1195x1, .f32⟩
  | 49 => ⟨S1195x64, .f32⟩
  | 50 => ⟨S1195x64, .f32⟩
  | 51 => ⟨S1195x64, .f32⟩
  | 52 => ⟨S_, .i32⟩
  | 53 => ⟨S100000, .i32⟩
  | 54 => ⟨S100000, .i1⟩
  | 55 => ⟨S_, .i32⟩
  | 56 => ⟨S100000, .i32⟩
  | 57 => ⟨S100000, .i32⟩
  | 58 => ⟨S100000, .i32⟩
  | 59 => ⟨S100000x1, .i32⟩
  | 60 => ⟨S100000x64, .f32⟩
  | 61 => ⟨S64x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S1195x64, .f32⟩
  | 68 => ⟨S100000x1, .i32⟩
  | 69 => ⟨S1195x64, .f32⟩
  | 70 => ⟨S_, .f32⟩
  | 71 => ⟨S100000, .f32⟩
  | 72 => ⟨S_, .f32⟩
  | 73 => ⟨S1195, .f32⟩
  | 74 => ⟨S100000x1, .i32⟩
  | 75 => ⟨S1195, .f32⟩
  | 76 => ⟨S_, .f32⟩
  | 77 => ⟨S1195, .f32⟩
  | 78 => ⟨S1195, .f32⟩
  | 79 => ⟨S1195x1, .f32⟩
  | 80 => ⟨S1195x64, .f32⟩
  | 81 => ⟨S1195x64, .f32⟩
  | 82 => ⟨S1195x64, .f32⟩
  | 83 => ⟨S805x64, .f32⟩
  | 84 => ⟨S390x64, .f32⟩
  | 85 => ⟨S64x64, .f32⟩
  | 86 => ⟨S390x64, .f32⟩
  | 87 => ⟨S1x64, .f32⟩
  | 88 => ⟨S390x64, .f32⟩
  | 89 => ⟨S390x64, .f32⟩
  | 90 => ⟨S_, .f32⟩
  | 91 => ⟨S390x64, .f32⟩
  | 92 => ⟨S390x64, .i1⟩
  | 93 => ⟨S_, .f32⟩
  | 94 => ⟨S390x64, .f32⟩
  | 95 => ⟨S390x64, .i1⟩
  | 96 => ⟨S_, .f32⟩
  | 97 => ⟨S_, .f32⟩
  | 98 => ⟨S390x64, .f32⟩
  | 99 => ⟨S390x64, .f32⟩
  | 100 => ⟨S390x64, .f32⟩
  | 101 => ⟨S_, .f32⟩
  | 102 => ⟨S390x64, .f32⟩
  | 103 => ⟨S390x64, .f32⟩
  | 104 => ⟨S390x64, .f32⟩
  | 105 => ⟨S64x64, .f32⟩
  | 106 => ⟨S390x64, .f32⟩
  | 107 => ⟨S1x64, .f32⟩
  | 108 => ⟨S390x64, .f32⟩
  | 109 => ⟨S390x64, .f32⟩
  | 110 => ⟨S390x64, .f32⟩
  | 111 => ⟨S_, .f32⟩
  | 112 => ⟨S390, .f32⟩
  | 113 => ⟨S390x1, .f32⟩
  | 114 => ⟨S390x1, .f32⟩
  | 115 => ⟨S390x64, .f32⟩
  | 116 => ⟨S390x64, .f32⟩
  | 117 => ⟨S64x64, .f32⟩
  | 118 => ⟨S805x64, .f32⟩
  | 119 => ⟨S1x64, .f32⟩
  | 120 => ⟨S805x64, .f32⟩
  | 121 => ⟨S805x64, .f32⟩
  | 122 => ⟨S_, .f32⟩
  | 123 => ⟨S805x64, .f32⟩
  | 124 => ⟨S805x64, .i1⟩
  | 125 => ⟨S_, .f32⟩
  | 126 => ⟨S805x64, .f32⟩
  | 127 => ⟨S805x64, .i1⟩
  | _ => ⟨S2x100000, .i32⟩

abbrev hbmTy0_1 (i : Nat) : BufTy := match i % 128 with
  | 0 => ⟨S_, .f32⟩
  | 1 => ⟨S_, .f32⟩
  | 2 => ⟨S805x64, .f32⟩
  | 3 => ⟨S805x64, .f32⟩
  | 4 => ⟨S805x64, .f32⟩
  | 5 => ⟨S_, .f32⟩
  | 6 => ⟨S805x64, .f32⟩
  | 7 => ⟨S805x64, .f32⟩
  | 8 => ⟨S805x64, .f32⟩
  | 9 => ⟨S64x64, .f32⟩
  | 10 => ⟨S805x64, .f32⟩
  | 11 => ⟨S1x64, .f32⟩
  | 12 => ⟨S805x64, .f32⟩
  | 13 => ⟨S805x64, .f32⟩
  | 14 => ⟨S805x64, .f32⟩
  | 15 => ⟨S_, .f32⟩
  | 16 => ⟨S805, .f32⟩
  | 17 => ⟨S805x1, .f32⟩
  | 18 => ⟨S805x1, .f32⟩
  | 19 => ⟨S805x64, .f32⟩
  | 20 => ⟨S805x64, .f32⟩
  | 21 => ⟨S64x64, .f32⟩
  | 22 => ⟨S390x64, .f32⟩
  | 23 => ⟨S390x64, .bf16⟩
  | 24 => ⟨S64x805, .f32⟩
  | 25 => ⟨S64x805, .bf16⟩
  | 26 => ⟨S1x64, .f32⟩
  | 27 => ⟨S65536x64, .f32⟩
  | 28 => ⟨S16x1x64, .f32⟩
  | 29 => ⟨S16x1x64, .f32⟩
  | 30 => ⟨S16x64, .f32⟩
  | 31 => ⟨S_, .f32⟩
  | 32 => ⟨S64, .f32⟩
  | 33 => ⟨S16x64, .f32⟩
  | 34 => ⟨S_, .f32⟩
  | 35 => ⟨S64, .f32⟩
  | 36 => ⟨S_, .f32⟩
  | 37 => ⟨S64, .f32⟩
  | 38 => ⟨S64, .f32⟩
  | 39 => ⟨S_, .f32⟩
  | 40 => ⟨S64, .f32⟩
  | 41 => ⟨S64, .f32⟩
  | 42 => ⟨S64, .f32⟩
  | 43 => ⟨S64, .f32⟩
  | 44 => ⟨S1x64, .f32⟩
  | 45 => ⟨S1x64, .f32⟩
  | 46 => ⟨S1x64, .f32⟩
  | 47 => ⟨S1x64, .f32⟩
  | 48 => ⟨S65536x805, .f32⟩
  | _ => ⟨S2x100000, .i32⟩

abbrev hbmTy (i : Nat) : BufTy := match i / 128 with
  | 0 => hbmTy0_0 i
  | 1 => hbmTy0_1 i
  | _ => ⟨S2x100000, .i32⟩

abbrev bufTy : (tb : Table) → Fin (tcTables nBuf tb) → BufTy
  | .hbm, ⟨i, _⟩ => hbmTy i
  | .local _ .vmem, ⟨0, _⟩ => ⟨S4096x390, .f32⟩
  | .local _ .vmem, ⟨1, _⟩ => ⟨S4096x390, .f32⟩
  | .local _ .vmem, ⟨2, _⟩ => ⟨S390x64, .bf16⟩
  | .local _ .vmem, ⟨3, _⟩ => ⟨S1x64, .f32⟩
  | .local _ .vmem, ⟨4, _⟩ => ⟨S4096x64, .f32⟩
  | .local _ .vmem, ⟨5, _⟩ => ⟨S4096x64, .f32⟩
  | .local _ .vmem, ⟨6, _⟩ => ⟨S1x1x64, .f32⟩
  | .local _ .vmem, ⟨7, _⟩ => ⟨S1x1x64, .f32⟩
  | .local _ .vmem, ⟨8, _⟩ => ⟨S1x1x64, .f32⟩
  | .local _ .vmem, ⟨9, _⟩ => ⟨S1x1x64, .f32⟩
  | .local _ .vmem, ⟨10, _⟩ => ⟨S2048x64, .f32⟩
  | .local _ .vmem, ⟨11, _⟩ => ⟨S2048x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S64x805, .bf16⟩
  | .local _ .vmem, ⟨17, _⟩ => ⟨S2048x805, .f32⟩
  | .local _ .vmem, ⟨18, _⟩ => ⟨S2048x805, .f32⟩
  | _, _ => ⟨S2x100000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_7 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call0_cst : Ref sig .tc := ⟨.hbm, 90, rfl⟩
abbrev main_call0_v0 : Ref sig .tc := ⟨.hbm, 91, rfl⟩
abbrev main_call0_v1 : Ref sig .tc := ⟨.hbm, 92, rfl⟩
abbrev main_call0_cst_0 : Ref sig .tc := ⟨.hbm, 93, rfl⟩
abbrev main_call0_v2 : Ref sig .tc := ⟨.hbm, 94, rfl⟩
abbrev main_call0_v3 : Ref sig .tc := ⟨.hbm, 95, rfl⟩
abbrev main_call0_cst_1 : Ref sig .tc := ⟨.hbm, 96, rfl⟩
abbrev main_call0_call0_v0 : Ref sig .tc := ⟨.hbm, 97, rfl⟩
abbrev main_call0_call0_v1 : Ref sig .tc := ⟨.hbm, 98, rfl⟩
abbrev main_call0_v4 : Ref sig .tc := ⟨.hbm, 99, rfl⟩
abbrev main_call0_v5 : Ref sig .tc := ⟨.hbm, 100, rfl⟩
abbrev main_call0_cst_2 : Ref sig .tc := ⟨.hbm, 101, rfl⟩
abbrev main_call0_v6 : Ref sig .tc := ⟨.hbm, 102, rfl⟩
abbrev main_call0_v7 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_call1_v0 : Ref sig .tc := ⟨.hbm, 110, rfl⟩
abbrev main_call1_cst : Ref sig .tc := ⟨.hbm, 111, rfl⟩
abbrev main_call1_v1 : Ref sig .tc := ⟨.hbm, 112, rfl⟩
abbrev main_call1_v2 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_call2_cst : Ref sig .tc := ⟨.hbm, 122, rfl⟩
abbrev main_call2_v0 : Ref sig .tc := ⟨.hbm, 123, rfl⟩
abbrev main_call2_v1 : Ref sig .tc := ⟨.hbm, 124, rfl⟩
abbrev main_call2_cst_0 : Ref sig .tc := ⟨.hbm, 125, rfl⟩
abbrev main_call2_v2 : Ref sig .tc := ⟨.hbm, 126, rfl⟩
abbrev main_call2_v3 : Ref sig .tc := ⟨.hbm, 127, rfl⟩
abbrev main_call2_cst_1 : Ref sig .tc := ⟨.hbm, 128, rfl⟩
abbrev main_call2_call0_v0 : Ref sig .tc := ⟨.hbm, 129, rfl⟩
abbrev main_call2_call0_v1 : Ref sig .tc := ⟨.hbm, 130, rfl⟩
abbrev main_call2_v4 : Ref sig .tc := ⟨.hbm, 131, rfl⟩
abbrev main_call2_v5 : Ref sig .tc := ⟨.hbm, 132, rfl⟩
abbrev main_call2_cst_2 : Ref sig .tc := ⟨.hbm, 133, rfl⟩
abbrev main_call2_v6 : Ref sig .tc := ⟨.hbm, 134, rfl⟩
abbrev main_call2_v7 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_call3_v0 : Ref sig .tc := ⟨.hbm, 142, rfl⟩
abbrev main_call3_cst : Ref sig .tc := ⟨.hbm, 143, rfl⟩
abbrev main_call3_v1 : Ref sig .tc := ⟨.hbm, 144, rfl⟩
abbrev main_call3_v2 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_v90_0 : Ref sig .tc := ⟨.hbm, 155, rfl⟩
abbrev main_v90_1 : Ref sig .tc := ⟨.hbm, 156, rfl⟩
abbrev main_v90_2 : Ref sig .tc := ⟨.hbm, 157, rfl⟩
abbrev main_v91 : Ref sig .tc := ⟨.hbm, 158, rfl⟩
abbrev main_cst_10 : Ref sig .tc := ⟨.hbm, 159, rfl⟩
abbrev main_v92 : Ref sig .tc := ⟨.hbm, 160, rfl⟩
abbrev main_v93 : Ref sig .tc := ⟨.hbm, 161, rfl⟩
abbrev main_cst_11 : Ref sig .tc := ⟨.hbm, 162, rfl⟩
abbrev main_v94 : Ref sig .tc := ⟨.hbm, 163, rfl⟩
abbrev main_cst_12 : Ref sig .tc := ⟨.hbm, 164, rfl⟩
abbrev main_v95 : Ref sig .tc := ⟨.hbm, 165, rfl⟩
abbrev main_v96 : Ref sig .tc := ⟨.hbm, 166, rfl⟩
abbrev main_cst_13 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4096x390 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S390x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x805 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2048x805 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1195x64 : S_.BroadcastsInDim S1195x64 (![] : Fin 0 → Fin S1195x64.rank)
  bcast_S_S1195 : S_.BroadcastsInDim S1195 (![] : Fin 0 → Fin S1195.rank)
  bcast_S1195_S1195x1_0 : S1195.BroadcastsInDim S1195x1 (![0] : Fin 1 → Fin S1195x1.rank)
  bcast_S1195x1_S1195x64_0_1 : S1195x1.BroadcastsInDim S1195x64 (![0, 1] : Fin 2 → Fin S1195x64.rank)
  slices_S1195x64_S805x64_0_0 : S1195x64.Slices ![0, 0] S805x64
  slices_S1195x64_S390x64_805_0 : S1195x64.Slices ![805, 0] S390x64
  bcast_S1x64_S390x64_0_1 : S1x64.BroadcastsInDim S390x64 (![0, 1] : Fin 2 → Fin S390x64.rank)
  bcast_S_S390x64 : S_.BroadcastsInDim S390x64 (![] : Fin 0 → Fin S390x64.rank)
  reducesTo_S390x64_S390_d1 : S390x64.ReducesTo [1] S390
  h_S_ : 0 < S_.numel
  bcast_S390_S390x1_0 : S390.BroadcastsInDim S390x1 (![0] : Fin 1 → Fin S390x1.rank)
  bcast_S390x1_S390x64_0_1 : S390x1.BroadcastsInDim S390x64 (![0, 1] : Fin 2 → Fin S390x64.rank)
  bcast_S1x64_S805x64_0_1 : S1x64.BroadcastsInDim S805x64 (![0, 1] : Fin 2 → Fin S805x64.rank)
  bcast_S_S805x64 : S_.BroadcastsInDim S805x64 (![] : Fin 0 → Fin S805x64.rank)
  reducesTo_S805x64_S805_d1 : S805x64.ReducesTo [1] S805
  bcast_S805_S805x1_0 : S805.BroadcastsInDim S805x1 (![0] : Fin 1 → Fin S805x1.rank)
  bcast_S805x1_S805x64_0_1 : S805x1.BroadcastsInDim S805x64 (![0, 1] : Fin 2 → Fin S805x64.rank)
  bitsLt_bf16_f32 : FTy.bits .bf16 < FTy.bits .f32
  transposes_S805x64_S64x805_1_0 : S805x64.Transposes [1, 0] S64x805
  shapeCasts_S64_S1x64 : S64.ShapeCasts S1x64
  inb_S4096x390_S4096x390_0_0 : ∀ a, (![0, 0] : Fin 2 → Nat) a + S4096x390.size a ≤ S4096x390.size a
  h_S4096x390 : 0 < S4096x390.numel
  reduces_S4096x390_S4096 : S4096x390.Reduces [1] S4096
  shapeCasts_S4096_S4096x1 : S4096.ShapeCasts S4096x1
  inb_S390x64_S390x64_0_0 : ∀ a, (![0, 0] : Fin 2 → Nat) a + S390x64.size a ≤ S390x64.size a
  h_S390x64 : 0 < S390x64.numel
  shapeCasts_S390x64_S390x64 : S390x64.ShapeCasts S390x64
  broadcasts_S4096x1_S4096x64 : S4096x1.Broadcasts S4096x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S4096x64 : S1x64.Broadcasts S4096x64
  inb_S4096x64_S4096x64_0_0 : ∀ a, (![0, 0] : Fin 2 → Nat) a + S4096x64.size a ≤ S4096x64.size a
  h_S4096x64 : 0 < S4096x64.numel
  reduces_S4096x64_S64 : S4096x64.Reduces [0] S64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  shapeCasts_S16x1x64_S16x64 : S16x1x64.ShapeCasts S16x64
  reducesTo_S16x64_S64_d0 : S16x64.ReducesTo [0] S64
  bcast_S_S64 : S_.BroadcastsInDim S64 (![] : Fin 0 → Fin S64.rank)
  inb_S2048x64_S2048x64_0_0 : ∀ a, (![0, 0] : Fin 2 → Nat) a + S2048x64.size a ≤ S2048x64.size a
  h_S2048x64 : 0 < S2048x64.numel
  shapeCasts_S2048x64_S2048x64 : S2048x64.ShapeCasts S2048x64
  broadcasts_S1x64_S2048x64 : S1x64.Broadcasts S2048x64
  inb_S64x805_S64x805_0_0 : ∀ a, (![0, 0] : Fin 2 → Nat) a + S64x805.size a ≤ S64x805.size a
  h_S64x805 : 0 < S64x805.numel
  shapeCasts_S64x805_S64x805 : S64x805.ShapeCasts S64x805
  inb_S2048x805_S2048x805_0_0 : ∀ a, (![0, 0] : Fin 2 → Nat) a + S2048x805.size a ≤ S2048x805.size a
  h_S2048x805 : 0 < S2048x805.numel
  gather_S1195x64_S100000x1_S100000x64_1_0_n_n_0_1_164_wf : GatherDims.WF S1195x64 S100000x1 S100000x64 [1] [0] [] [0] [] 1 ![1, 64]
  dot_S100000x64_S64x64_S100000x64_1_0_0_1_n_n_wf : DotDims.WF S100000x64 S64x64 S100000x64 [1] [0] [0] [1] [] []
  scatter_S1195x64_S100000x1_S100000x64_1_0_0_1_wf : ScatterDims.WF S1195x64 S100000x1 S100000x64 [1] [0] [0] 1
  scatter_S1195_S100000x1_S100000_n_0_0_1_wf : ScatterDims.WF S1195 S100000x1 S100000 [] [0] [0] 1
  dot_S390x64_S64x64_S390x64_1_0_0_1_n_n_wf : DotDims.WF S390x64 S64x64 S390x64 [1] [0] [0] [1] [] []
  dot_S805x64_S64x64_S805x64_1_0_0_1_n_n_wf : DotDims.WF S805x64 S64x64 S805x64 [1] [0] [0] [1] [] []
  dot_S4096x390_S390x64_S4096x64_1_0_0_1_n_n_wf : DotDims.WF S4096x390 S390x64 S4096x64 [1] [0] [0] [1] [] []
  dot_S2048x64_S64x805_S2048x805_1_0_0_1_n_n_wf : DotDims.WF S2048x64 S64x805 S2048x805 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x390.size a ≤ S65536x390.size a
  hwx0_0 : ∀ i : grid0.Coords, EltTy.bits .f32 = 32 ∨ (Rect.block (s := S65536x390) S4096x390.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S390x64.size a ≤ S390x64.size a
  hwx0_1 : ∀ i : grid0.Coords, EltTy.bits .bf16 = 32 ∨ (Rect.block (s := S390x64) S390x64.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x64.size a ≤ S65536x64.size a
  hwx0_3 : ∀ i : grid0.Coords, EltTy.bits .f32 = 32 ∨ (Rect.block (s := S65536x64) S4096x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x64.size a ≤ S16x1x64.size a
  hwx0_4 : ∀ i : grid0.Coords, EltTy.bits .f32 = 32 ∨ (Rect.block (s := S16x1x64) S1x1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S16x1x64.size a
  hwx0_5 : ∀ i : grid0.Coords, EltTy.bits .f32 = 32 ∨ (Rect.block (s := S16x1x64) S1x1x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x64.size a ≤ S65536x64.size a
  hwx1_0 : ∀ i : grid1.Coords, EltTy.bits .f32 = 32 ∨ (Rect.block (s := S65536x64) S2048x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x805.size a ≤ S64x805.size a
  hwx1_5 : ∀ i : grid1.Coords, EltTy.bits .bf16 = 32 ∨ (Rect.block (s := S64x805) S64x805.size (cc1_transform_5 i) (hinb1_5 i)).WholeWords (EltTy.packing .bf16)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2048x805.size a ≤ S65536x805.size a
  hwx1_6 : ∀ i : grid1.Coords, EltTy.bits .f32 = 32 ∨ (Rect.block (s := S65536x805) S2048x805.size (cc1_transform_6 i) (hinb1_6 i)).WholeWords (EltTy.packing .f32)

variable [Facts₀]

def gather_S1195x64_S100000x1_S100000x64_1_0_n_n_0_1_164 : GatherDims S1195x64 S100000x1 S100000x64 where
  offsetDims := [1]
  collapsedSliceDims := [0]
  operandBatchingDims := []
  startIndicesBatchingDims := []
  startIndexMap := [0]
  indexVectorDim := 1
  sliceSizes := ![1, 64]
  wf := gather_S1195x64_S100000x1_S100000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1195x64_S100000x1_S100000x64_1_0_0_1 : ScatterDims S1195x64 S100000x1 S100000x64 where
  updateWindowDims := [1]
  insertedWindowDims := [0]
  scatterDimsToOperandDims := [0]
  indexVectorDim := 1
  wf := scatter_S1195x64_S100000x1_S100000x64_1_0_0_1_wf
def scatter_S1195_S100000x1_S100000_n_0_0_1 : ScatterDims S1195 S100000x1 S100000 where
  updateWindowDims := []
  insertedWindowDims := [0]
  scatterDimsToOperandDims := [0]
  indexVectorDim := 1
  wf := scatter_S1195_S100000x1_S100000_n_0_0_1_wf
def dot_S390x64_S64x64_S390x64_1_0_0_1_n_n : DotDims S390x64 S64x64 S390x64 where
  lhsContracting := [1]
  rhsContracting := [0]
  lhsNonContracting := [0]
  rhsNonContracting := [1]
  lhsBatch := []
  rhsBatch := []
  wf := dot_S390x64_S64x64_S390x64_1_0_0_1_n_n_wf
def dot_S805x64_S64x64_S805x64_1_0_0_1_n_n : DotDims S805x64 S64x64 S805x64 where
  lhsContracting := [1]
  rhsContracting := [0]
  lhsNonContracting := [0]
  rhsNonContracting := [1]
  lhsBatch := []
  rhsBatch := []
  wf := dot_S805x64_S64x64_S805x64_1_0_0_1_n_n_wf
def dot_S4096x390_S390x64_S4096x64_1_0_0_1_n_n : DotDims S4096x390 S390x64 S4096x64 where
  lhsContracting := [1]
  rhsContracting := [0]
  lhsNonContracting := [0]
  rhsNonContracting := [1]
  lhsBatch := []
  rhsBatch := []
  wf := dot_S4096x390_S390x64_S4096x64_1_0_0_1_n_n_wf
def dot_S2048x64_S64x805_S2048x805_1_0_0_1_n_n : DotDims S2048x64 S64x805 S2048x805 where
  lhsContracting := [1]
  rhsContracting := [0]
  lhsNonContracting := [0]
  rhsNonContracting := [1]
  lhsBatch := []
  rhsBatch := []
  wf := dot_S2048x64_S64x805_S2048x805_1_0_0_1_n_n_wf

abbrev win0_0 : Pipeline.Window sig grid0 :=
  Pipeline.Window.ofSpec (Memref.whole main_arg3) S4096x390.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v86) S390x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v89) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v90_0) S4096x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v90_1) S1x1x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v90_2) S1x1x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v90_0) S2048x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v101) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v102) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v103) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v104) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v88) S64x805.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v105) S2048x805.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S2x100000 : Shape := ⟨2, ![2, 100000]⟩
abbrev S2x50000 : Shape := ⟨2, ![2, 50000]⟩
abbrev S65536x390 : Shape := ⟨2, ![65536, 390]⟩
abbrev S1195x64 : Shape := ⟨2, ![1195, 64]⟩
abbrev S64x64 : Shape := ⟨2, ![64, 64]⟩
abbrev S64 : Shape := ⟨1, ![64]⟩
abbrev S1x100000 : Shape := ⟨2, ![1, 100000]⟩
abbrev S100000 : Shape := ⟨1, ![100000]⟩
abbrev S_ : Shape := ⟨0, ![]⟩
abbrev S100000x1 : Shape := ⟨2, ![100000, 1]⟩
abbrev S100000x64 : Shape := ⟨2, ![100000, 64]⟩
abbrev S1x64 : Shape := ⟨2, ![1, 64]⟩
abbrev S1195 : Shape := ⟨1, ![1195]⟩
abbrev S1195x1 : Shape := ⟨2, ![1195, 1]⟩
abbrev S805x64 : Shape := ⟨2, ![805, 64]⟩
abbrev S390x64 : Shape := ⟨2, ![390, 64]⟩
abbrev S390 : Shape := ⟨1, ![390]⟩
abbrev S390x1 : Shape := ⟨2, ![390, 1]⟩
abbrev S805 : Shape := ⟨1, ![805]⟩
abbrev S805x1 : Shape := ⟨2, ![805, 1]⟩
abbrev S65536x64 : Shape := ⟨2, ![65536, 64]⟩
abbrev S65536 : Shape := ⟨1, ![65536]⟩
abbrev S65536x1 : Shape := ⟨2, ![65536, 1]⟩
abbrev S64x805 : Shape := ⟨2, ![64, 805]⟩
abbrev S65536x805 : Shape := ⟨2, ![65536, 805]⟩

abbrev nBuf : Space → Nat
  | .hbm => 209
  | .vmem => 0
  | .smem => 0
  | _ => 0

abbrev hbmTy0_0 (i : Nat) : BufTy := match i % 128 with
  | 0 => ⟨S2x100000, .i32⟩
  | 1 => ⟨S2x50000, .i32⟩
  | 2 => ⟨S2x50000, .i32⟩
  | 3 => ⟨S65536x390, .f32⟩
  | 4 => ⟨S1195x64, .f32⟩
  | 5 => ⟨S64x64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64x64, .f32⟩
  | 14 => ⟨S64, .f32⟩
  | 15 => ⟨S64, .f32⟩
  | 16 => ⟨S64, .f32⟩
  | 17 => ⟨S1x100000, .i32⟩
  | 18 => ⟨S100000, .i32⟩
  | 19 => ⟨S1x100000, .i32⟩
  | 20 => ⟨S100000, .i32⟩
  | 21 => ⟨S_, .i32⟩
  | 22 => ⟨S100000, .i32⟩
  | 23 => ⟨S100000, .i1⟩
  | 24 => ⟨S_, .i32⟩
  | 25 => ⟨S100000, .i32⟩
  | 26 => ⟨S100000, .i32⟩
  | 27 => ⟨S100000, .i32⟩
  | 28 => ⟨S100000x1, .i32⟩
  | 29 => ⟨S100000x64, .f32⟩
  | 30 => ⟨S64x64, .f32⟩
  | 31 => ⟨S100000x64, .f32⟩
  | 32 => ⟨S1x64, .f32⟩
  | 33 => ⟨S100000x64, .f32⟩
  | 34 => ⟨S100000x64, .f32⟩
  | 35 => ⟨S_, .f32⟩
  | 36 => ⟨S1195x64, .f32⟩
  | 37 => ⟨S100000x1, .i32⟩
  | 38 => ⟨S1195x64, .f32⟩
  | 39 => ⟨S_, .f32⟩
  | 40 => ⟨S100000, .f32⟩
  | 41 => ⟨S_, .f32⟩
  | 42 => ⟨S1195, .f32⟩
  | 43 => ⟨S100000x1, .i32⟩
  | 44 => ⟨S1195, .f32⟩
  | 45 => ⟨S_, .f32⟩
  | 46 => ⟨S1195, .f32⟩
  | 47 => ⟨S1195, .f32⟩
  | 48 => ⟨S1195x1, .f32⟩
  | 49 => ⟨S1195x64, .f32⟩
  | 50 => ⟨S1195x64, .f32⟩
  | 51 => ⟨S1195x64, .f32⟩
  | 52 => ⟨S_, .i32⟩
  | 53 => ⟨S100000, .i32⟩
  | 54 => ⟨S100000, .i1⟩
  | 55 => ⟨S_, .i32⟩
  | 56 => ⟨S100000, .i32⟩
  | 57 => ⟨S100000, .i32⟩
  | 58 => ⟨S100000, .i32⟩
  | 59 => ⟨S100000x1, .i32⟩
  | 60 => ⟨S100000x64, .f32⟩
  | 61 => ⟨S64x64, .f32⟩
  | 62 => ⟨S100000x64, .f32⟩
  | 63 => ⟨S1x64, .f32⟩
  | 64 => ⟨S100000x64, .f32⟩
  | 65 => ⟨S100000x64, .f32⟩
  | 66 => ⟨S_, .f32⟩
  | 67 => ⟨S1195x64, .f32⟩
  | 68 => ⟨S100000x1, .i32⟩
  | 69 => ⟨S1195x64, .f32⟩
  | 70 => ⟨S_, .f32⟩
  | 71 => ⟨S100000, .f32⟩
  | 72 => ⟨S_, .f32⟩
  | 73 => ⟨S1195, .f32⟩
  | 74 => ⟨S100000x1, .i32⟩
  | 75 => ⟨S1195, .f32⟩
  | 76 => ⟨S_, .f32⟩
  | 77 => ⟨S1195, .f32⟩
  | 78 => ⟨S1195, .f32⟩
  | 79 => ⟨S1195x1, .f32⟩
  | 80 => ⟨S1195x64, .f32⟩
  | 81 => ⟨S1195x64, .f32⟩
  | 82 => ⟨S1195x64, .f32⟩
  | 83 => ⟨S805x64, .f32⟩
  | 84 => ⟨S390x64, .f32⟩
  | 85 => ⟨S64x64, .f32⟩
  | 86 => ⟨S390x64, .f32⟩
  | 87 => ⟨S1x64, .f32⟩
  | 88 => ⟨S390x64, .f32⟩
  | 89 => ⟨S390x64, .f32⟩
  | 90 => ⟨S_, .f32⟩
  | 91 => ⟨S390x64, .f32⟩
  | 92 => ⟨S390x64, .i1⟩
  | 93 => ⟨S_, .f32⟩
  | 94 => ⟨S390x64, .f32⟩
  | 95 => ⟨S390x64, .i1⟩
  | 96 => ⟨S_, .f32⟩
  | 97 => ⟨S_, .f32⟩
  | 98 => ⟨S390x64, .f32⟩
  | 99 => ⟨S390x64, .f32⟩
  | 100 => ⟨S390x64, .f32⟩
  | 101 => ⟨S_, .f32⟩
  | 102 => ⟨S390x64, .f32⟩
  | 103 => ⟨S390x64, .f32⟩
  | 104 => ⟨S390x64, .f32⟩
  | 105 => ⟨S64x64, .f32⟩
  | 106 => ⟨S390x64, .f32⟩
  | 107 => ⟨S1x64, .f32⟩
  | 108 => ⟨S390x64, .f32⟩
  | 109 => ⟨S390x64, .f32⟩
  | 110 => ⟨S390x64, .f32⟩
  | 111 => ⟨S_, .f32⟩
  | 112 => ⟨S390, .f32⟩
  | 113 => ⟨S390x1, .f32⟩
  | 114 => ⟨S390x1, .f32⟩
  | 115 => ⟨S390x64, .f32⟩
  | 116 => ⟨S390x64, .f32⟩
  | 117 => ⟨S64x64, .f32⟩
  | 118 => ⟨S805x64, .f32⟩
  | 119 => ⟨S1x64, .f32⟩
  | 120 => ⟨S805x64, .f32⟩
  | 121 => ⟨S805x64, .f32⟩
  | 122 => ⟨S_, .f32⟩
  | 123 => ⟨S805x64, .f32⟩
  | 124 => ⟨S805x64, .i1⟩
  | 125 => ⟨S_, .f32⟩
  | 126 => ⟨S805x64, .f32⟩
  | 127 => ⟨S805x64, .i1⟩
  | _ => ⟨S2x100000, .i32⟩

abbrev hbmTy0_1 (i : Nat) : BufTy := match i % 128 with
  | 0 => ⟨S_, .f32⟩
  | 1 => ⟨S_, .f32⟩
  | 2 => ⟨S805x64, .f32⟩
  | 3 => ⟨S805x64, .f32⟩
  | 4 => ⟨S805x64, .f32⟩
  | 5 => ⟨S_, .f32⟩
  | 6 => ⟨S805x64, .f32⟩
  | 7 => ⟨S805x64, .f32⟩
  | 8 => ⟨S805x64, .f32⟩
  | 9 => ⟨S64x64, .f32⟩
  | 10 => ⟨S805x64, .f32⟩
  | 11 => ⟨S1x64, .f32⟩
  | 12 => ⟨S805x64, .f32⟩
  | 13 => ⟨S805x64, .f32⟩
  | 14 => ⟨S805x64, .f32⟩
  | 15 => ⟨S_, .f32⟩
  | 16 => ⟨S805, .f32⟩
  | 17 => ⟨S805x1, .f32⟩
  | 18 => ⟨S805x1, .f32⟩
  | 19 => ⟨S805x64, .f32⟩
  | 20 => ⟨S805x64, .f32⟩
  | 21 => ⟨S65536x64, .f32⟩
  | 22 => ⟨S_, .f32⟩
  | 23 => ⟨S65536, .f32⟩
  | 24 => ⟨S65536x1, .f32⟩
  | 25 => ⟨S65536x64, .f32⟩
  | 26 => ⟨S65536x64, .f32⟩
  | 27 => ⟨S64x64, .f32⟩
  | 28 => ⟨S65536x64, .f32⟩
  | 29 => ⟨S1x64, .f32⟩
  | 30 => ⟨S65536x64, .f32⟩
  | 31 => ⟨S65536x64, .f32⟩
  | 32 => ⟨S_, .f32⟩
  | 33 => ⟨S64, .f32⟩
  | 34 => ⟨S_, .f32⟩
  | 35 => ⟨S64, .f32⟩
  | 36 => ⟨S64, .f32⟩
  | 37 => ⟨S_, .i32⟩
  | 38 => ⟨S_, .f32⟩
  | 39 => ⟨S64, .f32⟩
  | 40 => ⟨S1x64, .f32⟩
  | 41 => ⟨S_, .f32⟩
  | 42 => ⟨S1x64, .f32⟩
  | 43 => ⟨S1x64, .f32⟩
  | 44 => ⟨S65536x64, .f32⟩
  | 45 => ⟨S65536x64, .f32⟩
  | 46 => ⟨S65536x64, .f32⟩
  | 47 => ⟨S_, .f32⟩
  | 48 => ⟨S_, .f32⟩
  | 49 => ⟨S_, .f32⟩
  | 50 => ⟨S_, .f32⟩
  | 51 => ⟨S64, .f32⟩
  | 52 => ⟨S64, .f32⟩
  | 53 => ⟨S64, .f32⟩
  | 54 => ⟨S_, .f32⟩
  | 55 => ⟨S_, .i1⟩
  | 56 => ⟨S_, .f32⟩
  | 57 => ⟨S_, .f32⟩
  | 58 => ⟨S64, .f32⟩
  | 59 => ⟨S64, .f32⟩
  | 60 => ⟨S1x64, .f32⟩
  | 61 => ⟨S65536x64, .f32⟩
  | 62 => ⟨S65536x64, .f32⟩
  | 63 => ⟨S_, .f32⟩
  | 64 => ⟨S64, .f32⟩
  | 65 => ⟨S64, .f32⟩
  | 66 => ⟨S64, .f32⟩
  | 67 => ⟨S1x64, .f32⟩
  | 68 => ⟨S65536x64, .f32⟩
  | 69 => ⟨S65536x64, .f32⟩
  | 70 => ⟨S1x64, .f32⟩
  | 71 => ⟨S65536x64, .f32⟩
  | 72 => ⟨S65536x64, .f32⟩
  | 73 => ⟨S1x64, .f32⟩
  | 74 => ⟨S65536x64, .f32⟩
  | 75 => ⟨S65536x64, .f32⟩
  | 76 => ⟨S_, .f32⟩
  | 77 => ⟨S65536x64, .f32⟩
  | 78 => ⟨S65536x64, .f32⟩
  | 79 => ⟨S64x805, .f32⟩
  | 80 => ⟨S65536x805, .f32⟩
  | _ => ⟨S2x100000, .i32⟩

abbrev hbmTy (i : Nat) : BufTy := match i / 128 with
  | 0 => hbmTy0_0 i
  | 1 => hbmTy0_1 i
  | _ => ⟨S2x100000, .i32⟩

abbrev bufTy : (tb : Table) → Fin (tcTables nBuf tb) → BufTy
  | .hbm, ⟨i, _⟩ => hbmTy i
  | _, _ => ⟨S2x100000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_cst_3 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_c_4 : Ref sig .tc := ⟨.hbm, 52, rfl⟩
abbrev main_v29 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_6 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_7 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_9 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call0_cst : Ref sig .tc := ⟨.hbm, 90, rfl⟩
abbrev main_call0_v0 : Ref sig .tc := ⟨.hbm, 91, rfl⟩
abbrev main_call0_v1 : Ref sig .tc := ⟨.hbm, 92, rfl⟩
abbrev main_call0_cst_0 : Ref sig .tc := ⟨.hbm, 93, rfl⟩
abbrev main_call0_v2 : Ref sig .tc := ⟨.hbm, 94, rfl⟩
abbrev main_call0_v3 : Ref sig .tc := ⟨.hbm, 95, rfl⟩
abbrev main_call0_cst_1 : Ref sig .tc := ⟨.hbm, 96, rfl⟩
abbrev main_call0_call0_v0 : Ref sig .tc := ⟨.hbm, 97, rfl⟩
abbrev main_call0_call0_v1 : Ref sig .tc := ⟨.hbm, 98, rfl⟩
abbrev main_call0_v4 : Ref sig .tc := ⟨.hbm, 99, rfl⟩
abbrev main_call0_v5 : Ref sig .tc := ⟨.hbm, 100, rfl⟩
abbrev main_call0_cst_2 : Ref sig .tc := ⟨.hbm, 101, rfl⟩
abbrev main_call0_v6 : Ref sig .tc := ⟨.hbm, 102, rfl⟩
abbrev main_call0_v7 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_call1_v0 : Ref sig .tc := ⟨.hbm, 110, rfl⟩
abbrev main_call1_cst : Ref sig .tc := ⟨.hbm, 111, rfl⟩
abbrev main_call1_v1 : Ref sig .tc := ⟨.hbm, 112, rfl⟩
abbrev main_call1_v2 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_call2_cst : Ref sig .tc := ⟨.hbm, 122, rfl⟩
abbrev main_call2_v0 : Ref sig .tc := ⟨.hbm, 123, rfl⟩
abbrev main_call2_v1 : Ref sig .tc := ⟨.hbm, 124, rfl⟩
abbrev main_call2_cst_0 : Ref sig .tc := ⟨.hbm, 125, rfl⟩
abbrev main_call2_v2 : Ref sig .tc := ⟨.hbm, 126, rfl⟩
abbrev main_call2_v3 : Ref sig .tc := ⟨.hbm, 127, rfl⟩
abbrev main_call2_cst_1 : Ref sig .tc := ⟨.hbm, 128, rfl⟩
abbrev main_call2_call0_v0 : Ref sig .tc := ⟨.hbm, 129, rfl⟩
abbrev main_call2_call0_v1 : Ref sig .tc := ⟨.hbm, 130, rfl⟩
abbrev main_call2_v4 : Ref sig .tc := ⟨.hbm, 131, rfl⟩
abbrev main_call2_v5 : Ref sig .tc := ⟨.hbm, 132, rfl⟩
abbrev main_call2_cst_2 : Ref sig .tc := ⟨.hbm, 133, rfl⟩
abbrev main_call2_v6 : Ref sig .tc := ⟨.hbm, 134, rfl⟩
abbrev main_call2_v7 : Ref sig .tc := ⟨.hbm, 135, rfl⟩
abbrev main_v75 : Ref sig .tc := ⟨.hbm, 136, rfl⟩
abbrev main_v76 : Ref sig .tc := ⟨.hbm, 137, rfl⟩
abbrev main_v77 : Ref sig .tc := ⟨.hbm, 138, rfl⟩
abbrev main_v78 : Ref sig .tc := ⟨.hbm, 139, rfl⟩
abbrev main_v79 : Ref sig .tc := ⟨.hbm, 140, rfl⟩
abbrev main_v80 : Ref sig .tc := ⟨.hbm, 141, rfl⟩
abbrev main_call3_v0 : Ref sig .tc := ⟨.hbm, 142, rfl⟩
abbrev main_call3_cst : Ref sig .tc := ⟨.hbm, 143, rfl⟩
abbrev main_call3_v1 : Ref sig .tc := ⟨.hbm, 144, rfl⟩
abbrev main_call3_v2 : Ref sig .tc := ⟨.hbm, 145, rfl⟩
abbrev main_v81 : Ref sig .tc := ⟨.hbm, 146, rfl⟩
abbrev main_v82 : Ref sig .tc := ⟨.hbm, 147, rfl⟩
abbrev main_v83 : Ref sig .tc := ⟨.hbm, 148, rfl⟩
abbrev main_v84 : Ref sig .tc := ⟨.hbm, 149, rfl⟩
abbrev main_cst_10 : Ref sig .tc := ⟨.hbm, 150, rfl⟩
abbrev main_v85 : Ref sig .tc := ⟨.hbm, 151, rfl⟩
abbrev main_v86 : Ref sig .tc := ⟨.hbm, 152, rfl⟩
abbrev main_v87 : Ref sig .tc := ⟨.hbm, 153, rfl⟩
abbrev main_v88 : Ref sig .tc := ⟨.hbm, 154, rfl⟩
abbrev main_v89 : Ref sig .tc := ⟨.hbm, 155, rfl⟩
abbrev main_v90 : Ref sig .tc := ⟨.hbm, 156, rfl⟩
abbrev main_v91 : Ref sig .tc := ⟨.hbm, 157, rfl⟩
abbrev main_v92 : Ref sig .tc := ⟨.hbm, 158, rfl⟩
abbrev main_v93 : Ref sig .tc := ⟨.hbm, 159, rfl⟩
abbrev main_cst_11 : Ref sig .tc := ⟨.hbm, 160, rfl⟩
abbrev main_v94 : Ref sig .tc := ⟨.hbm, 161, rfl⟩
abbrev main_cst_12 : Ref sig .tc := ⟨.hbm, 162, rfl⟩
abbrev main_v95 : Ref sig .tc := ⟨.hbm, 163, rfl⟩
abbrev main_v96 : Ref sig .tc := ⟨.hbm, 164, rfl⟩
abbrev main_c_13 : Ref sig .tc := ⟨.hbm, 165, rfl⟩
abbrev main_call4_cst : Ref sig .tc := ⟨.hbm, 166, rfl⟩
abbrev main_call4_v0 : Ref sig .tc := ⟨.hbm, 167, rfl⟩
abbrev main_call4_v1 : Ref sig .tc := ⟨.hbm, 168, rfl⟩
abbrev main_call4_cst_0 : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_call4_v5 : Ref sig .tc := ⟨.hbm, 173, rfl⟩
abbrev main_call4_v6 : Ref sig .tc := ⟨.hbm, 174, rfl⟩
abbrev main_call4_v7 : Ref sig .tc := ⟨.hbm, 175, rfl⟩
abbrev main_call4_cst_1 : Ref sig .tc := ⟨.hbm, 176, rfl⟩
abbrev main_call4_v8 : Ref sig .tc := ⟨.hbm, 177, rfl⟩
abbrev main_call4_cst_2 : Ref sig .tc := ⟨.hbm, 178, rfl⟩
abbrev main_call4_v9 : Ref sig .tc := ⟨.hbm, 179, rfl⟩
abbrev main_call4_v10 : Ref sig .tc := ⟨.hbm, 180, rfl⟩
abbrev main_call4_v11 : Ref sig .tc := ⟨.hbm, 181, rfl⟩
abbrev main_call4_cst_3 : Ref sig .tc := ⟨.hbm, 182, rfl⟩
abbrev main_call4_v12 : Ref sig .tc := ⟨.hbm, 183, rfl⟩
abbrev main_call4_cst_4 : Ref sig .tc := ⟨.hbm, 184, rfl⟩
abbrev main_call4_call0_v0 : Ref sig .tc := ⟨.hbm, 185, rfl⟩
abbrev main_call4_call0_v1 : Ref sig .tc := ⟨.hbm, 186, rfl⟩
abbrev main_v97 : Ref sig .tc := ⟨.hbm, 187, rfl⟩
abbrev main_v98 : Ref sig .tc := ⟨.hbm, 188, rfl⟩
abbrev main_v99 : Ref sig .tc := ⟨.hbm, 189, rfl⟩
abbrev main_v100 : Ref sig .tc := ⟨.hbm, 190, rfl⟩
abbrev main_cst_14 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_v110 : Ref sig .tc := ⟨.hbm, 201, rfl⟩
abbrev main_v111 : Ref sig .tc := ⟨.hbm, 202, rfl⟩
abbrev main_v112 : Ref sig .tc := ⟨.hbm, 203, rfl⟩
abbrev main_call5_cst : Ref sig .tc := ⟨.hbm, 204, rfl⟩
abbrev main_call5_v0 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩

abbrev nD : Nat := 1
abbrev τ : Topo := Topo.v7x

variable {F : FTy → Type} [FloatOps F]

class Facts₀ : Prop where
  slices_S2x100000_S1x100000_0_0 : S2x100000.Slices ![0, 0] S1x100000
  shapeCasts_S1x100000_S100000 : S1x100000.ShapeCasts S100000
  slices_S2x100000_S1x100000_1_0 : S2x100000.Slices ![1, 0] S1x100000
  bcast_S_S100000 : S_.BroadcastsInDim S100000 (![] : Fin 0 → Fin S100000.rank)
  bcast_S100000_S100000x1_0 : S100000.BroadcastsInDim S100000x1 (![0] : Fin 1 → Fin S100000x1.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S1195x64 : S_.BroadcastsInDim S1195x64 (![] : Fin 0 → Fin S1195x64.rank)
  bcast_S_S1195 : S_.BroadcastsInDim S1195 (![] : Fin 0 → Fin S1195.rank)
  bcast_S1195_S1195x1_0 : S1195.BroadcastsInDim S1195x1 (![0] : Fin 1 → Fin S1195x1.rank)
  bcast_S1195x1_S1195x64_0_1 : S1195x1.BroadcastsInDim S1195x64 (![0, 1] : Fin 2 → Fin S1195x64.rank)
  slices_S1195x64_S805x64_0_0 : S1195x64.Slices ![0, 0] S805x64
  slices_S1195x64_S390x64_805_0 : S1195x64.Slices ![805, 0] S390x64
  bcast_S1x64_S390x64_0_1 : S1x64.BroadcastsInDim S390x64 (![0, 1] : Fin 2 → Fin S390x64.rank)
  bcast_S_S390x64 : S_.BroadcastsInDim S390x64 (![] : Fin 0 → Fin S390x64.rank)
  reducesTo_S390x64_S390_d1 : S390x64.ReducesTo [1] S390
  h_S_ : 0 < S_.numel
  bcast_S390_S390x1_0 : S390.BroadcastsInDim S390x1 (![0] : Fin 1 → Fin S390x1.rank)
  bcast_S390x1_S390x64_0_1 : S390x1.BroadcastsInDim S390x64 (![0, 1] : Fin 2 → Fin S390x64.rank)
  bcast_S1x64_S805x64_0_1 : S1x64.BroadcastsInDim S805x64 (![0, 1] : Fin 2 → Fin S805x64.rank)
  bcast_S_S805x64 : S_.BroadcastsInDim S805x64 (![] : Fin 0 → Fin S805x64.rank)
  reducesTo_S805x64_S805_d1 : S805x64.ReducesTo [1] S805
  bcast_S805_S805x1_0 : S805.BroadcastsInDim S805x1 (![0] : Fin 1 → Fin S805x1.rank)
  bcast_S805x1_S805x64_0_1 : S805x1.BroadcastsInDim S805x64 (![0, 1] : Fin 2 → Fin S805x64.rank)
  reducesTo_S65536x390_S65536_d1 : S65536x390.ReducesTo [1] S65536
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  bcast_S1x64_S65536x64_0_1 : S1x64.BroadcastsInDim S65536x64 (![0, 1] : Fin 2 → Fin S65536x64.rank)
  reducesTo_S65536x64_S64_d0 : S65536x64.ReducesTo [0] S64
  bcast_S_S64 : S_.BroadcastsInDim S64 (![] : Fin 0 → Fin S64.rank)
  bcast_S_S1x64 : S_.BroadcastsInDim S1x64 (![] : Fin 0 → Fin S1x64.rank)
  bcast_S_S65536x64 : S_.BroadcastsInDim S65536x64 (![] : Fin 0 → Fin S65536x64.rank)
  transposes_S805x64_S64x805_1_0 : S805x64.Transposes [1, 0] S64x805
  gather_S1195x64_S100000x1_S100000x64_1_0_n_n_0_1_164_wf : GatherDims.WF S1195x64 S100000x1 S100000x64 [1] [0] [] [0] [] 1 ![1, 64]
  dot_S100000x64_S64x64_S100000x64_1_0_0_1_n_n_wf : DotDims.WF S100000x64 S64x64 S100000x64 [1] [0] [0] [1] [] []
  scatter_S1195x64_S100000x1_S100000x64_1_0_0_1_wf : ScatterDims.WF S1195x64 S100000x1 S100000x64 [1] [0] [0] 1
  scatter_S1195_S100000x1_S100000_n_0_0_1_wf : ScatterDims.WF S1195 S100000x1 S100000 [] [0] [0] 1
  dot_S390x64_S64x64_S390x64_1_0_0_1_n_n_wf : DotDims.WF S390x64 S64x64 S390x64 [1] [0] [0] [1] [] []
  dot_S805x64_S64x64_S805x64_1_0_0_1_n_n_wf : DotDims.WF S805x64 S64x64 S805x64 [1] [0] [0] [1] [] []
  dot_S65536x390_S390x64_S65536x64_1_0_0_1_n_n_wf : DotDims.WF S65536x390 S390x64 S65536x64 [1] [0] [0] [1] [] []
  dot_S65536x64_S64x64_S65536x64_1_0_0_1_n_n_wf : DotDims.WF S65536x64 S64x64 S65536x64 [1] [0] [0] [1] [] []
  dot_S65536x64_S64x805_S65536x805_1_0_0_1_n_n_wf : DotDims.WF S65536x64 S64x805 S65536x805 [1] [0] [0] [1] [] []

variable [Facts₀]

def gather_S1195x64_S100000x1_S100000x64_1_0_n_n_0_1_164 : GatherDims S1195x64 S100000x1 S100000x64 where
  offsetDims := [1]
  collapsedSliceDims := [0]
  operandBatchingDims := []
  startIndicesBatchingDims := []
  startIndexMap := [0]
  indexVectorDim := 1
  sliceSizes := ![1, 64]
  wf := gather_S1195x64_S100000x1_S100000x64_1_0_n_n_0_1_164_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S1195x64_S100000x1_S100000x64_1_0_0_1 : ScatterDims S1195x64 S100000x1 S100000x64 where
  updateWindowDims := [1]
  insertedWindowDims := [0]
  scatterDimsToOperandDims := [0]
  indexVectorDim := 1
  wf := scatter_S1195x64_S100000x1_S100000x64_1_0_0_1_wf
def scatter_S1195_S100000x1_S100000_n_0_0_1 : ScatterDims S1195 S100000x1 S100000 where
  updateWindowDims := []
  insertedWindowDims := [0]
  scatterDimsToOperandDims := [0]
  indexVectorDim := 1
  wf := scatter_S1195_S100000x1_S100000_n_0_0_1_wf
def dot_S390x64_S64x64_S390x64_1_0_0_1_n_n : DotDims S390x64 S64x64 S390x64 where
  lhsContracting := [1]
  rhsContracting := [0]
  lhsNonContracting := [0]
  rhsNonContracting := [1]
  lhsBatch := []
  rhsBatch := []
  wf := dot_S390x64_S64x64_S390x64_1_0_0_1_n_n_wf
def dot_S805x64_S64x64_S805x64_1_0_0_1_n_n : DotDims S805x64 S64x64 S805x64 where
  lhsContracting := [1]
  rhsContracting := [0]
  lhsNonContracting := [0]
  rhsNonContracting := [1]
  lhsBatch := []
  rhsBatch := []
  wf := dot_S805x64_S64x64_S805x64_1_0_0_1_n_n_wf
def dot_S65536x390_S390x64_S65536x64_1_0_0_1_n_n : DotDims S65536x390 S390x64 S65536x64 where
  lhsContracting := [1]
  rhsContracting := [0]
  lhsNonContracting := [0]
  rhsNonContracting := [1]
  lhsBatch := []
  rhsBatch := []
  wf := dot_S65536x390_S390x64_S65536x64_1_0_0_1_n_n_wf
def dot_S65536x64_S64x64_S65536x64_1_0_0_1_n_n : DotDims S65536x64 S64x64 S65536x64 where
  lhsContracting := [1]
  rhsContracting := [0]
  lhsNonContracting := [0]
  rhsNonContracting := [1]
  lhsBatch := []
  rhsBatch := []
  wf := dot_S65536x64_S64x64_S65536x64_1_0_0_1_n_n_wf
def dot_S65536x64_S64x805_S65536x805_1_0_0_1_n_n : DotDims S65536x64 S64x805 S65536x805 where
  lhsContracting := [1]
  rhsContracting := [0]
  lhsNonContracting := [0]
  rhsNonContracting := [1]
  lhsBatch := []
  rhsBatch := []
  wf := dot_S65536x64_S64x805_S65536x805_1_0_0_1_n_n_wf

class Facts : Prop extends Facts₀ where

variable [Facts]
-- ==== Proof.KerRun.lean ====
/-
  The kernel program's run with its result named: every weakly fair execution terminates, the argument arrays end
  as launched, and the result array ends at what the second pipeline's write-backs leave of it — the fold of its 32
  blocks over the array as the region found it.
-/
import proofs.«143416_j42528766165502_2_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of @main over its segments, the last thread state read against the final state: the result array's
    buffer holds the second region's array after all its points, each argument its launch contents. -/
theorem run_result : θ_run defs (onTc (τ := τ) (main (F := F))) ⟨m, fun _ => 0, ρ⟩ (fun r => ∀ c : Dev nD,
      r.2.mem ((c.tc : Thread nD τ).loc main_v105) = (dat1 (V11 m ρ) c).arrAt 6 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨(h c _ (mem_uc main_v105 (by decide))).trans (W12_arr m ρ c 6),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c),
       (h c _ (mem_uc main_arg12 (by decide))).trans (W12_main_arg12 m ρ c),
       (h c _ (mem_uc main_arg13 (by decide))).trans (W12_main_arg13 m ρ c),
       (h c _ (mem_uc main_arg14 (by decide))).trans (W12_main_arg14 m ρ c),
       (h c _ (mem_uc main_arg15 (by decide))).trans (W12_main_arg15 m ρ c),
       (h c _ (mem_uc main_arg16 (by decide))).trans (W12_main_arg16 m ρ c)⟩)

end Cert.KernelIdeal.KerRun

end
-- ==== Proof.LibPlainDot.lean ====
/-
  A plain matrix product read at an index, at the ideal instance.

  The dimension numbers `DotDims.plain M K N` contract the left operand's second axis with the right
  operand's first: an `M × K` matrix by a `K × N` matrix. Over the extended reals both the kernel's
  matrix product into a zero accumulator and the host's `dot_general` are, at the entry `(i, j)`, the sum
  over `k : Fin K` of `lhs (i, k) * rhs (k, j)`. The library states this sum over the contracted SHAPE's
  index type; here it is re-indexed once, for every `M K N`, over `Fin K`, with both operand indices
  written from coordinates. A printed record whose six lists are those of `DotDims.plain` is that record
  (its well-formedness field is a proposition), so the lemmas apply to it after `rw [show d = .plain _ _ _ from rfl]`.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row coordinate is the result's row coordinate. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The right operand's column coordinate is the result's column coordinate. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The contraction of a plain product, re-indexed over `Fin K`. -/
theorem sum_eq (lhs : (⟨2, ![M, K]⟩ : Shape).Idx → EReal) (rhs : (⟨2, ![K, N]⟩ : Shape).Idx → EReal)
    (j : (⟨2, ![M, N]⟩ : Shape).Idx) :
    ∑ q : (DotDims.plain M K N).contr.Idx, lhs ((DotDims.plain M K N).lhsIdx j q) * rhs ((DotDims.plain M K N).rhsIdx j q)
      = ∑ k : Fin K, lhs (ix2 (j 0) k) * rhs (ix2 k (j 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row M K N _ _
      | ⟨1, _⟩ => exact ((DotDims.plain M K N).lhsIdx_val_of_single rfl j _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl j _).trans hk
      | ⟨1, _⟩ => exact rhs_col M K N _ _)
  exact congrArg₂ (· * ·) (congrArg lhs el) (congrArg rhs er)

variable {M K N}

/-- The kernel's matrix product into a zero accumulator, at `(i, j)`: the sum over `k` of `lhs (i, k) * rhs (k, j)`. -/
theorem matmul_zero_apply {φ₁ φ₂ : FTy} (prec : Option ContractPrecision)
    (lhs : FVec Ideal ⟨2, ![M, K]⟩ φ₁) (rhs : FVec Ideal ⟨2, ![K, N]⟩ φ₂) (i : Fin M) (j : Fin N) :
    matmul (DotDims.plain M K N) prec lhs rhs (constant (F := Ideal) ⟨2, ![M, N]⟩ .f32 0x00000000#32) (ix2 i j)
      = ∑ k : Fin K, lhs (ix2 i k) * rhs (ix2 k j) :=
  (Ideal.matmul_constant_zero_apply (DotDims.plain M K N) prec lhs rhs (ix2 i j)).trans (sum_eq M K N lhs rhs (ix2 i j))

/-- The host's `dot_general` of the same operands, at `(i, j)`: the same sum. -/
theorem dotGeneral_apply {φ₁ φ₂ : FTy} (prec : Option ContractPrecision)
    (lhs : FVec Ideal ⟨2, ![M, K]⟩ φ₁) (rhs : FVec Ideal ⟨2, ![K, N]⟩ φ₂) (i : Fin M) (j : Fin N) :
    Host.dotGeneral (DotDims.plain M K N) prec lhs rhs (ix2 i j)
      = ∑ k : Fin K, lhs (ix2 i k) * rhs (ix2 k j) := by
  simp only [Host.dotGeneral]
  exact (Ideal.dotGeneral_apply (DotDims.plain M K N) prec _ lhs rhs (ix2 i j)).trans (sum_eq M K N lhs rhs (ix2 i j))

end Idealize.ShloMosaic.PlainDot

end
-- ==== Proof.LibMatrixLayout.lean ====
/-
  Three layout facts about matrices, read at an index given by coordinates.

  * A vector of `n` numbers laid out as one row (`[n] → [1, n]`) and repeated down `R` rows reads, at `(r, j)`, its
    entry `j`: how a bias is added to every row of a matrix.
  * Two matrices with the same number of rows set side by side (`[R, a]`, `[R, b]` → `[R, c]`) read, at `(r, q)`,
    the left one at `(r, q)` when `q < a` and the right one at `(r, q - a)` otherwise.
  * Two matrices with the same number of columns set one above the other (`[a, C]`, `[b, C]` → `[c, C]`) read, at
    `(q, d)`, the upper one at `(q, d)` when `q < a` and the lower one at `(q - a, d)` otherwise.
-/
import Idealize.ShloMosaic.Lib.Pipeline.Value
import Idealize.ShloMosaic.Lib.ValueLayout

namespace Idealize.ShloMosaic.MatrixLayout

open Idealize.ShloMosaic Idealize.ShloMosaic.ValueIdx

variable {α : Type}

/-- One row repeated down the rows of a matrix. -/
theorem row_broadcast_apply {R n : ℕ} (v : (⟨1, ![n]⟩ : Shape).Idx → α)
    (h1 : (⟨1, ![n]⟩ : Shape).ShapeCasts ⟨2, ![1, n]⟩) (h2 : (⟨2, ![1, n]⟩ : Shape).Broadcasts ⟨2, ![R, n]⟩)
    (r : Fin R) (j : Fin n) :
    broadcastTo ⟨2, ![R, n]⟩ (shapeCast ⟨2, ![1, n]⟩ v h1) h2 (ix2 r j) = v (ix1 j) :=
  (broadcastTo_1b_ab_apply _ h2 r j).trans (shapeCast_a_1a_apply v h1 0 j)

/-- Side by side, left part. -/
theorem beside_left {R a b c : ℕ} (x₁ : (⟨2, ![R, a]⟩ : Shape).Idx → α) (x₂ : (⟨2, ![R, b]⟩ : Shape).Idx → α)
    (h : Shape.Concatenates [(⟨2, ![R, a]⟩ : Shape), ⟨2, ![R, b]⟩] ⟨2, ![R, c]⟩ 1) (r : Fin R) (q : Fin c) (hq : q.val < a) :
    concatenate ⟨2, ![R, c]⟩ 1 [⟨⟨2, ![R, a]⟩, x₁⟩, ⟨⟨2, ![R, b]⟩, x₂⟩] h (ix2 r q) = x₁ (ix2 r ⟨q.val, hq⟩) :=
  concatenate_pair_apply_left (1 : Fin 2) x₁ x₂ h (ix2 r q) rfl (ix2 r ⟨q.val, hq⟩) fun d => by
    match d with
    | ⟨0, _⟩ => rfl
    | ⟨1, _⟩ => rfl

/-- Side by side, right part. -/
theorem beside_right {R a b c : ℕ} (x₁ : (⟨2, ![R, a]⟩ : Shape).Idx → α) (x₂ : (⟨2, ![R, b]⟩ : Shape).Idx → α)
    (h : Shape.Concatenates [(⟨2, ![R, a]⟩ : Shape), ⟨2, ![R, b]⟩] ⟨2, ![R, c]⟩ 1) (r : Fin R) (q : Fin c) (hq : a ≤ q.val)
    (hb : q.val - a < b) :
    concatenate ⟨2, ![R, c]⟩ 1 [⟨⟨2, ![R, a]⟩, x₁⟩, ⟨⟨2, ![R, b]⟩, x₂⟩] h (ix2 r q) = x₂ (ix2 r ⟨q.val - a, hb⟩) :=
  concatenate_pair_apply_right (1 : Fin 2) x₁ x₂ h (ix2 r q) rfl rfl (ix2 r ⟨q.val - a, hb⟩)
    (fun d hd => by
      match d with
      | ⟨0, _⟩ => rfl
      | ⟨1, _⟩ => exact absurd rfl hd)
    (by show q.val - a + a = q.val; omega)

/-- One above the other, upper part. -/
theorem above_upper {C a b c : ℕ} (x₁ : (⟨2, ![a, C]⟩ : Shape).Idx → α) (x₂ : (⟨2, ![b, C]⟩ : Shape).Idx → α)
    (h : Shape.Concatenates [(⟨2, ![a, C]⟩ : Shape), ⟨2, ![b, C]⟩] ⟨2, ![c, C]⟩ 0) (q : Fin c) (d : Fin C) (hq : q.val < a) :
    concatenate ⟨2, ![c, C]⟩ 0 [⟨⟨2, ![a, C]⟩, x₁⟩, ⟨⟨2, ![b, C]⟩, x₂⟩] h (ix2 q d) = x₁ (ix2 ⟨q.val, hq⟩ d) :=
  concatenate_pair_apply_left (0 : Fin 2) x₁ x₂ h (ix2 q d) rfl (ix2 ⟨q.val, hq⟩ d) fun e => by
    match e with
    | ⟨0, _⟩ => rfl
    | ⟨1, _⟩ => rfl

/-- One above the other, lower part. -/
theorem above_lower {C a b c : ℕ} (x₁ : (⟨2, ![a, C]⟩ : Shape).Idx → α) (x₂ : (⟨2, ![b, C]⟩ : Shape).Idx → α)
    (h : Shape.Concatenates [(⟨2, ![a, C]⟩ : Shape), ⟨2, ![b, C]⟩] ⟨2, ![c, C]⟩ 0) (q : Fin c) (d : Fin C) (hq : a ≤ q.val)
    (hb : q.val - a < b) :
    concatenate ⟨2, ![c, C]⟩ 0 [⟨⟨2, ![a, C]⟩, x₁⟩, ⟨⟨2, ![b, C]⟩, x₂⟩] h (ix2 q d) = x₂ (ix2 ⟨q.val - a, hb⟩ d) :=
  concatenate_pair_apply_right (0 : Fin 2) x₁ x₂ h (ix2 q d) rfl rfl (ix2 ⟨q.val - a, hb⟩ d)
    (fun e he => by
      match e with
      | ⟨0, _⟩ => exact absurd rfl he
      | ⟨1, _⟩ => rfl)
    (by show q.val - a + a = q.val; omega)

end Idealize.ShloMosaic.MatrixLayout
-- ==== Proof.LibColumn.lean ====
/-
  Column vectors read at an index given by coordinates: a vector of length `a` cast to an `[a, 1]` column, and an
  `[a, 1]` column broadcast over `b` columns. (The library's Lib/ValueLayout.lean has the row forms, `[a] → [1, a]` and
  `[1, b] → [a, b]`; these are their transposes, proved the same way from `shapeCast_apply` and `broadcastTo_apply`.)
-/
import Idealize.ShloMosaic.Lib.Pipeline.Value
import Idealize.ShloMosaic.Lib.ValueIdx

namespace ColumnLayout

open Idealize.ShloMosaic Idealize.ShloMosaic.ValueIdx

variable {α : Type}

/-- An `[a]` vector cast to an `[a, 1]` column reads, at `(p, u)`, the vector at `p`, whatever the unit
    coordinate `u`: both indices have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entries of an `[a, 1]` column as a vector of length `a`. -/
def colVec {a : ℕ} (v : (⟨2, ![a, 1]⟩ : Shape).Idx → α) : (⟨1, ![a]⟩ : Shape).Idx → α :=
  fun i => v (ix2 ⟨(i 0).val, (i 0).isLt⟩ (0 : Fin 1))

theorem colVec_ix1 {a : ℕ} (v : (⟨2, ![a, 1]⟩ : Shape).Idx → α) (p : Fin a) : colVec v (ix1 p) = v (ix2 p (0 : Fin 1)) := rfl

/-- The one row of a `[1, b]` array as a vector of length `b`. -/
def rowVec {b : ℕ} (v : (⟨2, ![1, b]⟩ : Shape).Idx → α) : (⟨1, ![b]⟩ : Shape).Idx → α :=
  fun i => v (ix2 (0 : Fin 1) ⟨(i 0).val, (i 0).isLt⟩)

theorem rowVec_ix1 {b : ℕ} (v : (⟨2, ![1, b]⟩ : Shape).Idx → α) (q : Fin b) : rowVec v (ix1 q) = v (ix2 (0 : Fin 1) q) := rfl

end ColumnLayout
-- ==== Proof.LibBroadcastInDim.lean ====
/-
  The host's `broadcast_in_dim` read at an index given by coordinates, in the shapes a row-wise or column-wise scale
  or bias takes: a vector of length `a` placed as an `[a, 1]` column (`dims = [0]`) or of length `b` as a `[1, b]`
  row (`dims = [1]`); an `[a, 1]` column repeated across `b` columns and a `[1, b]` row repeated down `a` rows
  (`dims = [0, 1]`); and a scalar spread over any shape (`dims = []`). Each reads the operand at the coordinates the
  result's index has on the axes `dims` names, and at `0` on the operand's unit axes. For every extent.
-/
import Idealize.ShloMosaic.Lib.Pipeline.Value
import Idealize.ShloMosaic.Lib.ValueIdx

namespace Idealize.ShloMosaic.BroadcastInDimAt

open Idealize.ShloMosaic Idealize.ShloMosaic.ValueIdx

variable {α : Type}

/-- A vector as a column: entry `(p, u)` is the vector's entry `p`. -/
theorem vec_col_apply {a : ℕ} (v : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h v (ix2 p u) = v (ix1 p) :=
  broadcastInDim_apply _ h v (ix2 p u) (ix1 p) fun ax => by
    match ax with
    | ⟨0, _⟩ =>
      show p.val = if a = 1 then 0 else p.val
      split
      · have := p.isLt; omega
      · rfl

/-- A vector as a row: entry `(u, q)` is the vector's entry `q`. -/
theorem vec_row_apply {b : ℕ} (v : (⟨1, ![b]⟩ : Shape).Idx → α)
    (h : (⟨1, ![b]⟩ : Shape).BroadcastsInDim ⟨2, ![1, b]⟩ (![1] : Fin 1 → Fin 2)) (u : Fin 1) (q : Fin b) :
    broadcastInDim ⟨2, ![1, b]⟩ (![1] : Fin 1 → Fin 2) h v (ix2 u q) = v (ix1 q) :=
  broadcastInDim_apply _ h v (ix2 u q) (ix1 q) fun ax => by
    match ax with
    | ⟨0, _⟩ =>
      show q.val = if b = 1 then 0 else q.val
      split
      · have := q.isLt; omega
      · rfl

/-- A column repeated across the columns: entry `(p, q)` is the column's entry of row `p`. -/
theorem col_mat_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 p (0 : Fin 1)) :=
  broadcastInDim_apply _ h v (ix2 p q) (ix2 p (0 : Fin 1)) fun ax => by
    match ax with
    | ⟨0, _⟩ =>
      show p.val = if a = 1 then 0 else p.val
      split
      · have := p.isLt; omega
      · rfl
    | ⟨1, _⟩ => rfl

/-- A row repeated down the rows: entry `(p, q)` is the row's entry of column `q`. -/
theorem row_mat_apply {a b : ℕ} (v : (⟨2, ![1, b]⟩ : Shape).Idx → α)
    (h : (⟨2, ![1, b]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 (0 : Fin 1) q) :=
  broadcastInDim_apply _ h v (ix2 p q) (ix2 (0 : Fin 1) q) fun ax => by
    match ax with
    | ⟨0, _⟩ => rfl
    | ⟨1, _⟩ =>
      show q.val = if b = 1 then 0 else q.val
      split
      · have := q.isLt; omega
      · rfl

/-- A scalar spread over a shape: every entry is the scalar. -/
theorem scalar_apply {t : Shape} (v : (⟨0, ![]⟩ : Shape).Idx → α)
    (h : (⟨0, ![]⟩ : Shape).BroadcastsInDim t (![] : Fin 0 → Fin t.rank)) (i : t.Idx) :
    broadcastInDim t (![] : Fin 0 → Fin t.rank) h v i = v ix0 :=
  broadcastInDim_apply _ h v i ix0 fun ax => ax.elim0

end Idealize.ShloMosaic.BroadcastInDimAt
-- ==== Proof.LibDenseRows.lean ====
/-
  Reading a matrix product with biases, and a row reduction, at one entry — for every extent.

  These are the shape-generic steps a dense layer needs on either side of a kernel-against-reference claim at the
  extended reals: a vector laid as a row and repeated down the rows, or laid as a column and repeated across the
  columns (by the host's `broadcast_in_dim` or by the kernel's `shape_cast` + `broadcast`), read at (p, q); and a
  reduction of an [R, n] matrix along its rows — a sum, or a maximum folded from an initial value — read at row p as
  the sum / fold over the n entries of that row, for the kernel's `multi_reduction` and for the host's `reduce`.
-/
import Idealize.ShloMosaic.PureOps.Ideal.Laws
import Idealize.ShloMosaic.Lib.ValueIdx
import proofs.«143416_j42528766165502_2_alg».proof.Proof.LibMatrixLayout
import proofs.«143416_j42528766165502_2_alg».proof.Proof.LibColumn
import proofs.«143416_j42528766165502_2_alg».proof.Proof.LibBroadcastInDim

noncomputable section

namespace Idealize.ShloMosaic.DenseRows

open Idealize.ShloMosaic Idealize.ShloMosaic.ValueIdx

variable {α : Type}

/-- The host's row of biases: a vector placed as a [1, n] row and repeated down R rows, at (p, q). -/
theorem hostRows_apply {R n : ℕ} (v : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (p : Fin R) (q : Fin n) :
    broadcastInDim ⟨2, ![R, n]⟩ (![0, 1] : Fin 2 → Fin 2) h2 (broadcastInDim ⟨2, ![1, n]⟩ (![1] : Fin 1 → Fin 2) h1 v) (ix2 p q)
      = v (ix1 q) :=
  (BroadcastInDimAt.row_mat_apply _ h2 p q).trans (BroadcastInDimAt.vec_row_apply v h1 0 q)

/-- The host's column: a vector placed as an [a, 1] column and repeated across b columns, at (p, q). -/
theorem hostCols_apply {a b : ℕ} (v : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h2 (broadcastInDim ⟨2, ![a, 1]⟩ (![0] : Fin 1 → Fin 2) h1 v) (ix2 p q)
      = v (ix1 p) :=
  (BroadcastInDimAt.col_mat_apply _ h2 p q).trans (BroadcastInDimAt.vec_col_apply v h1 p 0)

/-- The kernel's column: a vector cast to an [a, 1] column and broadcast across b columns, at (p, q). -/
theorem kernelCols_apply {a b : ℕ} (v : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (q : Fin b) :
    broadcastTo ⟨2, ![a, b]⟩ (shapeCast ⟨2, ![a, 1]⟩ v h1) h2 (ix2 p q) = v (ix1 p) :=
  (ColumnLayout.broadcastTo_a1_ab_apply _ h2 p q).trans (ColumnLayout.shapeCast_a_a1_apply v h1 p 0)

/-- Putting the reduced column coordinate back into a row index: (p) with k inserted on axis 1 is (p, k). -/
theorem lift_row {R n : ℕ} (h : (⟨2, ![R, n]⟩ : Shape).Reduces [1] (⟨1, ![R]⟩ : Shape)) (p : Fin R)
    (k : Fin ((⟨2, ![R, n]⟩ : Shape).size 1)) : h.lift (ix1 p) k = ix2 p (⟨k.val, k.isLt⟩ : Fin n) := by
  funext c; apply Fin.ext
  fin_cases c <;> rfl

/-- The kernel's sum along the rows of an [R, n] matrix, at row p: the sum of that row's n entries. -/
theorem kernelRowSum_apply {R n : ℕ} {φ : FTy} (src : FVec Ideal ⟨2, ![R, n]⟩ φ) (acc : BitVec φ.bits)
    (h : (⟨2, ![R, n]⟩ : Shape).Reduces [1] (⟨1, ![R]⟩ : Shape)) (hφ : FKind.Formats φ) (hacc : acc = FKind.add.neutral φ hφ)
    (p : Fin R) :
    multiReduction .add [1] ⟨1, ![R]⟩ src acc h hφ hacc (ix1 p) = ∑ k : Fin n, src (ix2 p k) := by
  rw [Ideal.multiReduction_add_single src acc h hφ hacc (ix1 p)]
  exact Finset.sum_congr rfl fun k _ => congrArg src (lift_row h p k)

/-- The kernel's maximum along the rows, at row p: the fold of max from the accumulator's value over that row. -/
theorem kernelRowMax_apply {R n : ℕ} {φ : FTy} (src : FVec Ideal ⟨2, ![R, n]⟩ φ) (acc : BitVec φ.bits)
    (h : (⟨2, ![R, n]⟩ : Shape).Reduces [1] (⟨1, ![R]⟩ : Shape)) (hφ : FKind.Formats φ) (hacc : acc = FKind.maximumf.neutral φ hφ)
    (p : Fin R) :
    multiReduction .maximumf [1] ⟨1, ![R]⟩ src acc h hφ hacc (ix1 p)
      = (Finset.univ : Finset (Fin n)).fold max (FloatOps.ofBits φ acc) (fun k => src (ix2 p k)) := by
  rw [Ideal.multiReduction_maximumf_single src acc h hφ hacc (ix1 p)]
  exact congrArg (fun f => (Finset.univ : Finset (Fin n)).fold max (FloatOps.ofBits φ acc) f)
    (funext fun k => congrArg src (lift_row h p k))

/-- The host's sum along the rows, at row p: the initial value plus the sum of that row's entries. -/
theorem hostRowSum_apply {R n : ℕ} (x : (⟨2, ![R, n]⟩ : Shape).Idx → EReal) (init : EReal)
    (h' : (⟨2, ![R, n]⟩ : Shape).ReducesTo [1] (⟨1, ![R]⟩ : Shape)) (h : (⟨2, ![R, n]⟩ : Shape).Reduces [1] (⟨1, ![R]⟩ : Shape))
    (p : Fin R) :
    Ideal.hostReduceAdd h' x init (ix1 p) = init + ∑ k : Fin n, x (ix2 p k) := by
  rw [Ideal.hostReduceAdd_single h' h x init (ix1 p)]
  exact congrArg (init + ·) (Finset.sum_congr rfl fun k _ => congrArg x (lift_row h p k))

/-- The host's maximum along the rows, at row p: the fold of max from the initial value over that row. -/
theorem hostRowMax_apply {R n : ℕ} {φ : FTy} {u : Shape} (x : FVec Ideal ⟨2, ![R, n]⟩ φ) (init : u.Idx → Ideal φ)
    (h' : (⟨2, ![R, n]⟩ : Shape).ReducesTo [1] (⟨1, ![R]⟩ : Shape)) (h : (⟨2, ![R, n]⟩ : Shape).Reduces [1] (⟨1, ![R]⟩ : Shape))
    (hu : 0 < u.numel) (p : Fin R) :
    Host.reduce (FloatOps.maximumf (F := Ideal) (φ := φ)) x init h' hu (ix1 p)
      = (Finset.univ : Finset (Fin n)).fold max (init (Shape.Idx.first hu)) (fun k => x (ix2 p k)) := by
  rw [Host.reduce_eq_fold_single FloatOps.maximumf x init h' h hu (ix1 p)]
  exact congrArg (fun f => (Finset.univ : Finset (Fin n)).fold max (init (Shape.Idx.first hu)) f)
    (funext fun k => congrArg x (lift_row h p k))

end Idealize.ShloMosaic.DenseRows

end
-- ==== Proof.LibColumnSum.lean ====
/-
  Sums down the columns of a matrix, read at a column: for every extent, a reduction of an [R, n] matrix along its
  first axis is, at column q, the sum over the R rows of the entries (k, q) — for the kernel's
  `vector.multi_reduction <add>` and for the host's `reduce` with an add body (the initial value added in front).
  The companion of the row sums of LibDenseRows.
-/
import Idealize.ShloMosaic.PureOps.Ideal.Laws
import Idealize.ShloMosaic.Lib.ValueIdx
import Idealize.ShloMosaic.Lib.IdealHost

noncomputable section

namespace Idealize.ShloMosaic.ColumnSum

open Idealize.ShloMosaic Idealize.ShloMosaic.ValueIdx

/-- Putting the reduced row coordinate back into a column index: (q) with k inserted on axis 0 is (k, q). -/
theorem lift_col {R n : ℕ} (h : (⟨2, ![R, n]⟩ : Shape).Reduces [0] (⟨1, ![n]⟩ : Shape)) (q : Fin n)
    (k : Fin ((⟨2, ![R, n]⟩ : Shape).size 0)) : h.lift (ix1 q) k = ix2 (⟨k.val, k.isLt⟩ : Fin R) q := by
  funext c; apply Fin.ext
  fin_cases c <;> rfl

/-- The kernel's sum down the columns of an [R, n] matrix, at column q: the sum of that column's R entries. -/
theorem kernelColSum_apply {R n : ℕ} {φ : FTy} (src : FVec Ideal ⟨2, ![R, n]⟩ φ) (acc : BitVec φ.bits)
    (h : (⟨2, ![R, n]⟩ : Shape).Reduces [0] (⟨1, ![n]⟩ : Shape)) (hφ : FKind.Formats φ) (hacc : acc = FKind.add.neutral φ hφ)
    (q : Fin n) :
    multiReduction .add [0] ⟨1, ![n]⟩ src acc h hφ hacc (ix1 q) = ∑ k : Fin R, src (ix2 k q) := by
  rw [Ideal.multiReduction_add_single src acc h hφ hacc (ix1 q)]
  exact Finset.sum_congr rfl fun k _ => congrArg src (lift_col h q k)

/-- The host's sum down the columns, at column q: the initial value plus the sum of that column's entries. -/
theorem hostColSum_apply {R n : ℕ} (x : (⟨2, ![R, n]⟩ : Shape).Idx → EReal) (init : EReal)
    (h' : (⟨2, ![R, n]⟩ : Shape).ReducesTo [0] (⟨1, ![n]⟩ : Shape)) (h : (⟨2, ![R, n]⟩ : Shape).Reduces [0] (⟨1, ![n]⟩ : Shape))
    (q : Fin n) :
    Ideal.hostReduceAdd h' x init (ix1 q) = init + ∑ k : Fin R, x (ix2 k q) := by
  rw [Ideal.hostReduceAdd_single h' h x init (ix1 q)]
  exact congrArg (init + ·) (Finset.sum_congr rfl fun k _ => congrArg x (lift_col h q k))

end Idealize.ShloMosaic.ColumnSum

end
-- ==== Proof.KerPayload.lean ====
/-
  The two kernel bodies' arithmetic, read at an entry.

  The first body, on a tile of 4096 rows: entry (p, d) of its first result is row p's products with the folded table
  summed, divided by row p's own sum, plus the bias; its second and third results are, per column, the sum of that
  tile's 4096 entries and of their squares.  The second body, on a tile of 2048 rows: entry (p, u) is the sum over the
  64 columns of the normalised, scaled, shifted and rectified entry (p, d) times the table's entry (d, u).
-/
import proofs.«143416_j42528766165502_2_alg».proof.Proof.Gen.KernelIdeal.Skeleton
import proofs.«143416_j42528766165502_2_alg».proof.Proof.LibPlainDot
import proofs.«143416_j42528766165502_2_alg».proof.Proof.LibDenseRows
import proofs.«143416_j42528766165502_2_alg».proof.Proof.LibColumnSum
import Idealize.ShloMosaic.PureOps.Ideal
import Idealize.ShloMosaic.PureOps.Ideal.Laws
import Idealize.ShloMosaic.Lib.ValueLayout
import Idealize.ShloMosaic.Lib.Pipeline.Value

noncomputable section

namespace Cert.KernelIdeal.KerValue

open Cert.KernelIdeal Cert.KernelIdeal.Gen
open Idealize.ShloMosaic Idealize.ShloMosaic.ValueIdx

/-- The first body's first result at (p, d). -/
theorem payA1_apply (v0 : Vec Ideal S4096x390 .f32) (v4 : Vec Ideal S390x64 .bf16) (v9 : Vec Ideal S1x64 .f32)
    (p : Fin 4096) (d : Fin 64) :
    k0_pay1 v0 v4 v9 (ix2 p d)
      = Ideal.div (∑ k : Fin 390, v0 (ix2 p k) * v4 (ix2 k d)) (∑ k : Fin 390, v0 (ix2 p k)) + v9 (ix2 (0 : Fin 1) d) := by
  unfold k0_pay1
  simp only [shapeCast_self]
  rw [addf_apply, divf_apply, broadcastTo_1b_ab_apply v9 broadcasts_S1x64_S4096x64 p d,
    DenseRows.kernelCols_apply _ shapeCasts_S4096_S4096x1 broadcasts_S4096x1_S4096x64 p d]
  refine congrArg₂ (fun x y => Ideal.div x y + v9 (ix2 (0 : Fin 1) d)) ?_ ?_
  · exact PlainDot.matmul_zero_apply (M := 4096) (K := 390) (N := 64) none _ _ p d
  · exact DenseRows.kernelRowSum_apply v0 _ reduces_S4096x390_S4096 (.inl rfl) rfl p

/-- The first body's second result at column d: the tile's column sum of the first result. -/
theorem payA2_apply (v0 : Vec Ideal S4096x390 .f32) (v4 : Vec Ideal S390x64 .bf16) (v9 : Vec Ideal S1x64 .f32) (d : Fin 64) :
    k0_pay2 v0 v4 v9 (ix3 (0 : Fin 1) (0 : Fin 1) d) = ∑ r : Fin 4096, k0_pay1 v0 v4 v9 (ix2 r d) := by
  unfold k0_pay2
  rw [shapeCast_ab_1ab_apply _ shapeCasts_S1x64_S1x1x64 0 0 d, shapeCast_a_1a_apply _ shapeCasts_S64_S1x64 0 d]
  exact ColumnSum.kernelColSum_apply (k0_pay1 v0 v4 v9) _ reduces_S4096x64_S64 (.inl rfl) rfl d

/-- The first body's third result at column d: the tile's column sum of the squares of the first result. -/
theorem payA3_apply (v0 : Vec Ideal S4096x390 .f32) (v4 : Vec Ideal S390x64 .bf16) (v9 : Vec Ideal S1x64 .f32) (d : Fin 64) :
    k0_pay3 v0 v4 v9 (ix3 (0 : Fin 1) (0 : Fin 1) d)
      = ∑ r : Fin 4096, k0_pay1 v0 v4 v9 (ix2 r d) * k0_pay1 v0 v4 v9 (ix2 r d) := by
  unfold k0_pay3
  rw [shapeCast_ab_1ab_apply _ shapeCasts_S1x64_S1x1x64 0 0 d, shapeCast_a_1a_apply _ shapeCasts_S64_S1x64 0 d]
  exact ColumnSum.kernelColSum_apply (mulf (k0_pay1 v0 v4 v9) (k0_pay1 v0 v4 v9)) _ reduces_S4096x64_S64 (.inl rfl) rfl d

/-- The second body's result at (p, u). -/
theorem payB_apply (v0 : Vec Ideal S2048x64 .f32) (v2 v7 v13 v17 : Vec Ideal S1x64 .f32) (v24 : Vec Ideal S64x805 .bf16)
    (p : Fin 2048) (u : Fin 805) :
    k1_pay1 v0 v2 v7 v13 v17 v24 (ix2 p u)
      = ∑ d : Fin 64, max ((v0 (ix2 p d) - v7 (ix2 (0 : Fin 1) d))
            * Ideal.rsqrt (v2 (ix2 (0 : Fin 1) d) + Ideal.ofBits .f32 0x3727C5AC#32) * v13 (ix2 (0 : Fin 1) d)
          + v17 (ix2 (0 : Fin 1) d)) 0 * v24 (ix2 d u) := by
  unfold k1_pay1
  simp only [shapeCast_self]
  show matmul (DotDims.plain 2048 64 805) none _ _ (constant (F := Ideal) ⟨2, ![2048, 805]⟩ .f32 0x00000000#32) (ix2 p u) = _
  rw [PlainDot.matmul_zero_apply]
  refine Finset.sum_congr rfl fun d _ => ?_
  rw [truncf_apply, maximumf_apply, addf_apply, mulf_apply, mulf_apply, subf_apply,
    broadcastTo_1b_ab_apply v7 broadcasts_S1x64_S2048x64 p d, broadcastTo_1b_ab_apply v13 broadcasts_S1x64_S2048x64 p d,
    broadcastTo_1b_ab_apply v17 broadcasts_S1x64_S2048x64 p d, broadcastTo_1b_ab_apply _ broadcasts_S1x64_S2048x64 p d]
  simp only [broadcast_apply, Ideal.ofBits_def, Ideal.ofBits_zero_f32]
  rfl

end Cert.KernelIdeal.KerValue

end
-- ==== Proof.LibRealCoe.lean ====
/-
  Extended reals that are real numbers, at the ideal float operations: the coercion `ℝ → EReal` pushed through a finite
  sum, a maximum, a running maximum started at -∞ over a nonempty family, the exponential and the quotient; and the bit
  pattern of -∞. For value proofs that show every stage of a computation on finite inputs to be a coerced real and then
  argue over ℝ.
-/
import Idealize.ShloMosaic.PureOps.Ideal
import Idealize.ShloMosaic.PureOps.Ideal.Laws

noncomputable section

namespace RealCoe

open Idealize.ShloMosaic

/-- A finite sum of coerced reals is the coerced sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The bit pattern of -∞. -/
theorem ofBits_neg_inf : Ideal.ofBits .f32 0xFF800000#32 = (⊥ : EReal) := by
  simp [Ideal.ofBits, Ideal.ieee]

/-- The maximum of two reals. -/
theorem coe_max (x y : ℝ) : max (x : EReal) (y : EReal) = ((max x y : ℝ) : EReal) := by
  rcases le_total x y with h | h
  · rw [max_eq_right h, max_eq_right (EReal.coe_le_coe_iff.mpr h)]
  · rw [max_eq_left h, max_eq_left (EReal.coe_le_coe_iff.mpr h)]

/-- A running maximum started at -∞ over a nonempty family of reals is a real. -/
theorem fold_max_real {ι : Type*} (s : Finset ι) (hs : s.Nonempty) (g : ι → ℝ) :
    ∃ r : ℝ, s.fold max (⊥ : EReal) (fun i => ((g i : ℝ) : EReal)) = (r : EReal) := by
  classical
  induction s using Finset.induction_on with
  | empty => exact absurd hs (by simp)
  | insert a s ha ih =>
    rw [Finset.fold_insert ha]
    rcases s.eq_empty_or_nonempty with rfl | hne
    · exact ⟨g a, by simp⟩
    · obtain ⟨r, hr⟩ := ih hne
      exact ⟨max (g a) r, by rw [hr, coe_max]⟩

/-- The exponential of a real. -/
theorem exp_coe (r : ℝ) : Ideal.exp ((r : ℝ) : EReal) = ((Real.exp r : ℝ) : EReal) := rfl

/-- The exponential of -∞. -/
theorem exp_bot : Ideal.exp (⊥ : EReal) = 0 := rfl

/-- The quotient of two reals, the divisor not zero. -/
theorem div_coe_coe (x y : ℝ) (hy : y ≠ 0) : Ideal.div (x : EReal) (y : EReal) = ((x / y : ℝ) : EReal) := by
  rw [Ideal.div_coe hy, ← EReal.coe_mul, mul_one_div]

end RealCoe

end
-- ==== Proof.Spec.lean ====
/-
  The mathematics of the claim, free of any program.

  Both programs embed a batch of rows `P` (65536 rows, 390 entries each) through a table `es` (390 × 64), divide each
  row by its own entry sum, apply the linear map `Wm` (64 × 64) with bias `bm`, normalise each of the 64 columns by
  its batch mean and batch variance, rectify, and multiply by the transposed table `eh` (805 × 64).

  They differ in two places.  One side applies `Wm` to the table first, `(P · (es · Wmᵀ)) / r`; the other applies it
  last, `((P · es) / r) · Wmᵀ`.  Over real entries with row sum `r ≠ 0` both are `(∑ₖ∑ⱼ P k · es k j · Wm d j) / r`:
  a finite double sum exchanged and a real factor moved across it.  And one side takes the variance as the mean of
  the squares minus the square of the mean, the column summed tile by tile (16 tiles of 4096 rows); the other as the
  mean of the squared deviations: `∑(e − μ)² = ∑e² − N·μ²` when `N·μ = ∑e`.
-/
import Idealize.ShloMosaic.PureOps.Ideal
import Idealize.ShloMosaic.PureOps.Ideal.Laws
import proofs.«143416_j42528766165502_2_alg».proof.Proof.LibRealCoe

noncomputable section

namespace Cert.Spec

open Idealize.ShloMosaic

/-! ## The two embeddings of one row -/

/-- The table with the linear map applied first: `∑ⱼ es k j · Wm d j`. -/
def tableMap {κ δ : Type*} [Fintype δ] (es : κ → δ → EReal) (Wm : δ → δ → EReal) (k : κ) (d : δ) : EReal :=
  ∑ j, es k j * Wm d j

/-- The embedding with the map folded into the table: `(∑ₖ P k · (es·Wmᵀ) k d) / r + bm d`. -/
def embedFolded {κ δ : Type*} [Fintype κ] [Fintype δ] (p : κ → EReal) (es : κ → δ → EReal) (Wm : δ → δ → EReal)
    (bm : δ → EReal) (d : δ) : EReal :=
  Ideal.div (∑ k, p k * tableMap es Wm k d) (∑ k, p k) + bm d

/-- The embedding with the map applied last: `∑ⱼ ((∑ₖ P k · es k j) / r) · Wm d j + bm d`. -/
def embedPlain {κ δ : Type*} [Fintype κ] [Fintype δ] (p : κ → EReal) (es : κ → δ → EReal) (Wm : δ → δ → EReal)
    (bm : δ → EReal) (d : δ) : EReal :=
  (∑ j, Ideal.div (∑ k, p k * es k j) (∑ k, p k) * Wm d j) + bm d

/-- Over real entries and a nonzero row sum both embeddings are the real number
    `(∑ₖ ∑ⱼ p k · s k j · w d j) / r + c d`. -/
theorem embedFolded_real {κ δ : Type*} [Fintype κ] [Fintype δ] (p : κ → ℝ) (s : κ → δ → ℝ) (w : δ → δ → ℝ) (c : δ → ℝ)
    (hr : (∑ k, p k) ≠ 0) (d : δ) :
    embedFolded (fun k => (p k : EReal)) (fun k j => (s k j : EReal)) (fun a j => (w a j : EReal)) (fun a => (c a : EReal)) d
      = (((∑ k, ∑ j, p k * s k j * w d j) / (∑ k, p k) + c d : ℝ) : EReal) := by
  unfold embedFolded tableMap
  simp only [← EReal.coe_mul, RealCoe.coe_sum, RealCoe.div_coe_coe _ _ hr, ← EReal.coe_add]
  congr 3
  refine Finset.sum_congr rfl fun k _ => ?_
  rw [Finset.mul_sum]
  exact Finset.sum_congr rfl fun j _ => (mul_assoc _ _ _).symm

theorem embedPlain_real {κ δ : Type*} [Fintype κ] [Fintype δ] (p : κ → ℝ) (s : κ → δ → ℝ) (w : δ → δ → ℝ) (c : δ → ℝ)
    (hr : (∑ k, p k) ≠ 0) (d : δ) :
    embedPlain (fun k => (p k : EReal)) (fun k j => (s k j : EReal)) (fun a j => (w a j : EReal)) (fun a => (c a : EReal)) d
      = (((∑ k, ∑ j, p k * s k j * w d j) / (∑ k, p k) + c d : ℝ) : EReal) := by
  unfold embedPlain
  simp only [← EReal.coe_mul, RealCoe.coe_sum, RealCoe.div_coe_coe _ _ hr, ← EReal.coe_add]
  congr 2
  rw [Finset.sum_comm, Finset.sum_div]
  refine Finset.sum_congr rfl fun j _ => ?_
  rw [div_mul_eq_mul_div, Finset.sum_mul]

/-- Over real entries and a nonzero row sum the two embeddings agree. -/
theorem embedFolded_eq_embedPlain {κ δ : Type*} [Fintype κ] [Fintype δ] (p : κ → ℝ) (s : κ → δ → ℝ) (w : δ → δ → ℝ)
    (c : δ → ℝ) (hr : (∑ k, p k) ≠ 0) (d : δ) :
    embedFolded (fun k => (p k : EReal)) (fun k j => (s k j : EReal)) (fun a j => (w a j : EReal)) (fun a => (c a : EReal)) d
      = embedPlain (fun k => (p k : EReal)) (fun k j => (s k j : EReal)) (fun a j => (w a j : EReal)) (fun a => (c a : EReal)) d :=
  (embedFolded_real p s w c hr d).trans (embedPlain_real p s w c hr d).symm

/-! ## The batch statistics of one column -/

/-- The literal 65536. -/
theorem ofBits_65536 : Ideal.ofBits .f32 0x47800000#32 = ((65536 : ℝ) : EReal) := by
  simp [Ideal.ofBits, Ideal.ieee, -EReal.coe_mul]; norm_num

/-- Row `r` of tile `i`, the batch cut into 16 tiles of 4096 rows. -/
def tileRow (i : Fin 16) (r : Fin 4096) : Fin 65536 := ⟨4096 * i.val + r.val, by omega⟩

/-- Summing tile by tile is summing the batch. -/
theorem sum_tiles {M : Type*} [AddCommMonoid M] (f : Fin 65536 → M) :
    (∑ i : Fin 16, ∑ r : Fin 4096, f (tileRow i r)) = ∑ b : Fin 65536, f b := by
  rw [← Finset.sum_product', Finset.univ_product_univ]
  refine Fintype.sum_equiv (finProdFinEquiv (m := 16) (n := 4096)) _ _ fun x => ?_
  refine congrArg f (Fin.ext ?_)
  simp only [tileRow, finProdFinEquiv_apply_val]
  omega

/-- The mean of a column summed tile by tile. -/
def meanTiled (e : Fin 65536 → EReal) : EReal :=
  Ideal.div (∑ i : Fin 16, ∑ r : Fin 4096, e (tileRow i r)) (Ideal.ofBits .f32 0x47800000#32)

/-- The mean of the squares of a column summed tile by tile. -/
def meanSqTiled (e : Fin 65536 → EReal) : EReal :=
  Ideal.div (∑ i : Fin 16, ∑ r : Fin 4096, e (tileRow i r) * e (tileRow i r)) (Ideal.ofBits .f32 0x47800000#32)

/-- The variance as mean of squares minus squared mean. -/
def varTiled (e : Fin 65536 → EReal) : EReal := meanSqTiled e - meanTiled e * meanTiled e

/-- The mean of a column. -/
def meanPlain (e : Fin 65536 → EReal) : EReal := Ideal.div (∑ b, e b) (Ideal.ofBits .f32 0x47800000#32)

/-- The variance as the mean of the squared deviations from the mean, the divisor `n`. -/
def varPlain (n : EReal) (e : Fin 65536 → EReal) : EReal :=
  Ideal.div (∑ b, (e b - meanPlain e) * (e b - meanPlain e)) n

theorem meanTiled_real (e : Fin 65536 → ℝ) :
    meanTiled (fun b => (e b : EReal)) = (((∑ b, e b) / 65536 : ℝ) : EReal) := by
  unfold meanTiled
  rw [sum_tiles (fun b => (e b : EReal)), RealCoe.coe_sum, ofBits_65536, RealCoe.div_coe_coe _ _ (by norm_num)]

theorem meanPlain_real (e : Fin 65536 → ℝ) :
    meanPlain (fun b => (e b : EReal)) = (((∑ b, e b) / 65536 : ℝ) : EReal) := by
  unfold meanPlain
  rw [RealCoe.coe_sum, ofBits_65536, RealCoe.div_coe_coe _ _ (by norm_num)]

theorem meanTiled_eq_meanPlain (e : Fin 65536 → ℝ) :
    meanTiled (fun b => (e b : EReal)) = meanPlain (fun b => (e b : EReal)) :=
  (meanTiled_real e).trans (meanPlain_real e).symm

/-- `∑(e − μ)² / N = ∑e² / N − μ²` for `μ = ∑e / N`, over the reals. -/
theorem varTiled_eq_varPlain (e : Fin 65536 → ℝ) :
    varTiled (fun b => (e b : EReal)) = varPlain ((65536 : ℝ) : EReal) (fun b => (e b : EReal)) := by
  unfold varTiled varPlain meanSqTiled
  rw [meanTiled_real, meanPlain_real, sum_tiles (fun b => (e b : EReal) * (e b : EReal))]
  simp only [← EReal.coe_mul, ← EReal.coe_sub, RealCoe.coe_sum, ofBits_65536,
    RealCoe.div_coe_coe _ _ (by norm_num : (65536 : ℝ) ≠ 0)]
  congr 1
  have h : ∀ b, (e b - (∑ b, e b) / 65536) * (e b - (∑ b, e b) / 65536)
      = e b * e b - 2 * ((∑ b, e b) / 65536) * e b + ((∑ b, e b) / 65536) * ((∑ b, e b) / 65536) := fun b => by ring
  simp only [h, Finset.sum_add_distrib, Finset.sum_sub_distrib, ← Finset.mul_sum, Finset.sum_const, Finset.card_univ,
    Fintype.card_fin, nsmul_eq_mul]
  push_cast
  field_simp
  ring

/-! ## The scores, and the two programs' results -/

/-- The batch-normalised, rectified rows times the second table: entry (b, u) is
    `∑_d max ((e b d − μ d) · rsqrt (v d + ε) · γ d + β d, 0) · eh u d`, ε the literal both programs carry. -/
def scoresOf (e : Fin 65536 → Fin 64 → EReal) (mu var γ β : Fin 64 → EReal) (eh : Fin 805 → Fin 64 → EReal)
    (b : Fin 65536) (u : Fin 805) : EReal :=
  ∑ d : Fin 64, max ((e b d - mu d) * Ideal.rsqrt (var d + Ideal.ofBits .f32 0x3727C5AC#32) * γ d + β d) 0 * eh u d

/-- The result with the linear map folded into the table and the statistics taken tile by tile. -/
def outFolded (P : Fin 65536 → Fin 390 → EReal) (es : Fin 390 → Fin 64 → EReal) (eh : Fin 805 → Fin 64 → EReal)
    (Wm : Fin 64 → Fin 64 → EReal) (bm γ β : Fin 64 → EReal) : Fin 65536 → Fin 805 → EReal :=
  scoresOf (fun b d => embedFolded (P b) es Wm bm d) (fun d => meanTiled fun b => embedFolded (P b) es Wm bm d)
    (fun d => varTiled fun b => embedFolded (P b) es Wm bm d) γ β eh

/-- The result with the linear map applied last and the statistics taken over the whole batch. -/
def outPlain (P : Fin 65536 → Fin 390 → EReal) (es : Fin 390 → Fin 64 → EReal) (eh : Fin 805 → Fin 64 → EReal)
    (Wm : Fin 64 → Fin 64 → EReal) (bm γ β : Fin 64 → EReal) : Fin 65536 → Fin 805 → EReal :=
  scoresOf (fun b d => embedPlain (P b) es Wm bm d) (fun d => meanPlain fun b => embedPlain (P b) es Wm bm d)
    (fun d => varPlain ((65536 : ℝ) : EReal) fun b => embedPlain (P b) es Wm bm d) γ β eh

/-- Over real batch entries, a real table `es`, real `Wm` and `bm`, and rows of nonzero sum, the two results agree
    (whatever `eh`, `γ`, `β` hold). -/
theorem outFolded_eq_outPlain (P : Fin 65536 → Fin 390 → EReal) (es : Fin 390 → Fin 64 → EReal)
    (eh : Fin 805 → Fin 64 → EReal) (Wm : Fin 64 → Fin 64 → EReal) (bm γ β : Fin 64 → EReal)
    (hP : ∀ b k, ∃ x : ℝ, P b k = x) (hes : ∀ k j, ∃ x : ℝ, es k j = x) (hWm : ∀ d j, ∃ x : ℝ, Wm d j = x)
    (hbm : ∀ d, ∃ x : ℝ, bm d = x) (hr : ∀ b, (∑ k, P b k) ≠ 0) :
    outFolded P es eh Wm bm γ β = outPlain P es eh Wm bm γ β := by
  choose p hp using hP
  choose s hs using hes
  choose w hw using hWm
  choose c hc using hbm
  obtain rfl : P = fun b k => (p b k : EReal) := funext fun b => funext fun k => hp b k
  obtain rfl : es = fun k j => (s k j : EReal) := funext fun k => funext fun j => hs k j
  obtain rfl : Wm = fun d j => (w d j : EReal) := funext fun d => funext fun j => hw d j
  obtain rfl : bm = fun d => (c d : EReal) := funext fun d => hc d
  have hr' : ∀ b, (∑ k, p b k) ≠ 0 := fun b h0 => hr b (by rw [RealCoe.coe_sum, h0]; rfl)
  unfold outFolded outPlain
  have hF : ∀ b d, embedFolded (fun k => (p b k : EReal)) (fun k j => (s k j : EReal)) (fun a j => (w a j : EReal))
      (fun a => (c a : EReal)) d = (((∑ k, ∑ j, p b k * s k j * w d j) / (∑ k, p b k) + c d : ℝ) : EReal) :=
    fun b d => embedFolded_real (p b) s w c (hr' b) d
  have hG : ∀ b d, embedPlain (fun k => (p b k : EReal)) (fun k j => (s k j : EReal)) (fun a j => (w a j : EReal))
      (fun a => (c a : EReal)) d = (((∑ k, ∑ j, p b k * s k j * w d j) / (∑ k, p b k) + c d : ℝ) : EReal) :=
    fun b d => embedPlain_real (p b) s w c (hr' b) d
  simp only [hF, hG, meanTiled_eq_meanPlain, varTiled_eq_varPlain]

end Cert.Spec

end
-- ==== Proof.KerRegionA.lean ====
/-
  The first pipeline's three result arrays, whatever contents its region is entered with.

  Its 16 points each take 4096 rows of the batch and the whole of the folded table and of the bias row.  Point t writes
  back rows 4096·t … 4096·t + 4095 of the embedded batch — entry (b, d) is row b's products with the table summed,
  divided by row b's own sum, plus the bias — and, as entry (t, 0, d) of the two small arrays, the sum over its own
  4096 rows of column d of the embedded batch and of its squares.  The blocks tile each array.
-/
import proofs.«143416_j42528766165502_2_alg».proof.Proof.Gen.KernelIdeal.Frame
import proofs.«143416_j42528766165502_2_alg».proof.Proof.KerPayload
import proofs.«143416_j42528766165502_2_alg».proof.Proof.Spec
import Idealize.ShloMosaic.Lib.Pipeline.Value

set_option maxRecDepth 16384

noncomputable section

namespace Cert.KernelIdeal.KerValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hzA2 : (![0, 0] : Fin 2 → Nat) = fun _ => 0 := funext fun a => by fin_cases a <;> rfl
theorem hzA3 : (![0, 0, 0] : Fin 3 → Nat) = fun _ => 0 := funext fun a => by fin_cases a <;> rfl

/-- The first pipeline's index maps: the batch operand and the three results move one block per point along their
    first axis, the table and the bias row stay at their one block. -/
theorem idxA : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0 :=
  (by decide +kernel : ∀ t : Fin grid0.N, _)

/-- The batch operand's block at point t is rows 4096·t … of its array. -/
theorem iblkA0_apply (c : Dev nD) (t : Fin cfg0.N) (x : S4096x390.Idx) (k : S65536x390.Idx)
    (hk0 : (k 0).val = 4096 * t.val + (x 0).val) (hk1 : (k 1).val = (x 1).val) :
    (iblk0 V c 0 t : Vec Ideal S4096x390 .f32) x = (V c main_arg3 : S65536x390.Idx → Elt Ideal .f32) k := by
  obtain ⟨e0, e1, -⟩ := idxA t
  unfold iblk0
  rw [View.read_apply]
  show V c main_arg3 _ = V c main_arg3 _
  congr 1
  funext a
  apply Fin.ext
  match a with
  | ⟨0, _⟩ => show win0_0.index t 0 * 4096 + 1 * (x 0).val = (k 0).val; rw [e0, hk0]; omega
  | ⟨1, _⟩ => show win0_0.index t 1 * 390 + 1 * (x 1).val = (k 1).val; rw [e1, hk1]; omega

/-- The table's and the bias row's block at any point is the whole array. -/
theorem iblkA1_apply (c : Dev nD) (t : Fin cfg0.N) (x : S390x64.Idx) :
    (iblk0 V c 1 t : Vec Ideal S390x64 .bf16) x = (V c main_v86 : S390x64.Idx → Elt Ideal .bf16) x := by
  obtain ⟨-, -, e0, e1, -⟩ := idxA t
  unfold iblk0
  rw [View.read_apply]
  show V c main_v86 _ = V c main_v86 _
  congr 1
  funext a
  apply Fin.ext
  match a with
  | ⟨0, _⟩ => show win0_1.index t 0 * 390 + 1 * (x 0).val = (x 0).val; rw [e0]; omega
  | ⟨1, _⟩ => show win0_1.index t 1 * 64 + 1 * (x 1).val = (x 1).val; rw [e1]; omega

theorem iblkA2_apply (c : Dev nD) (t : Fin cfg0.N) (x : S1x64.Idx) :
    (iblk0 V c 2 t : Vec Ideal S1x64 .f32) x = (V c main_v89 : S1x64.Idx → Elt Ideal .f32) x := by
  obtain ⟨-, -, -, -, e0, e1, -⟩ := idxA t
  unfold iblk0
  rw [View.read_apply]
  show V c main_v89 _ = V c main_v89 _
  congr 1
  funext a
  apply Fin.ext
  match a with
  | ⟨0, _⟩ => show win0_2.index t 0 * 1 + 1 * (x 0).val = (x 0).val; rw [e0]; omega
  | ⟨1, _⟩ => show win0_2.index t 1 * 64 + 1 * (x 1).val = (x 1).val; rw [e1]; omega

/-- Row b of the batch embedded through the folded table: `(∑ₖ P b k · T k d) / (∑ₖ P b k) + bias d`. -/
def embedAt (Pm : S65536x390.Idx → EReal) (T : S390x64.Idx → EReal) (bias : S1x64.Idx → EReal) (b : Fin 65536) (d : Fin 64) : EReal :=
  Ideal.div (∑ k : Fin 390, Pm (ix2 b k) * T (ix2 k d)) (∑ k : Fin 390, Pm (ix2 b k)) + bias (ix2 (0 : Fin 1) d)

/-- The body's first result on point t's blocks, at (p, d), is the embedding of row 4096·t + p. -/
theorem payA1_block (c : Dev nD) (t : Fin cfg0.N) (p : Fin 4096) (d : Fin 64) (b : Fin 65536) (hb : b.val = 4096 * t.val + p.val) :
    k0_pay1 (iblk0 V c 0 t) (iblk0 V c 1 t) (iblk0 V c 2 t) (ix2 p d) = embedAt (V c main_arg3) (V c main_v86) (V c main_v89) b d := by
  refine (payA1_apply (iblk0 V c 0 t) (iblk0 V c 1 t) (iblk0 V c 2 t) p d).trans ?_
  unfold embedAt
  have hP : ∀ k : Fin 390, (iblk0 V c 0 t : Vec Ideal S4096x390 .f32) (ix2 p k) = (V c main_arg3 : S65536x390.Idx → Elt Ideal .f32) (ix2 b k) :=
    fun k => iblkA0_apply V c t (ix2 p k) (ix2 b k) hb rfl
  simp only [hP, iblkA1_apply V c t, iblkA2_apply V c t]

/-- The embedded batch, as the first result array ends holding it. -/
def resultA3 (Pm : S65536x390.Idx → EReal) (T : S390x64.Idx → EReal) (bias : S1x64.Idx → EReal) : S65536x64.Idx → EReal :=
  fun i => embedAt Pm T bias (i 0) (i 1)

/-- The per-tile column sums of the embedded batch. -/
def resultA4 (Pm : S65536x390.Idx → EReal) (T : S390x64.Idx → EReal) (bias : S1x64.Idx → EReal) : S16x1x64.Idx → EReal :=
  fun i => ∑ r : Fin 4096, embedAt Pm T bias (Cert.Spec.tileRow (i 0) r) (i 2)

/-- The per-tile column sums of the squares of the embedded batch. -/
def resultA5 (Pm : S65536x390.Idx → EReal) (T : S390x64.Idx → EReal) (bias : S1x64.Idx → EReal) : S16x1x64.Idx → EReal :=
  fun i => ∑ r : Fin 4096, embedAt Pm T bias (Cert.Spec.tileRow (i 0) r) (i 2) * embedAt Pm T bias (Cert.Spec.tileRow (i 0) r) (i 2)

/-- What point t writes back of the embedded batch. -/
theorem flushedA3 (c : Dev nD) (t : Fin cfg0.N) :
    (dat0 V c).flushed 3 t = ((cfg0.win 3).blk t).view.read (Elt Ideal) (resultA3 (V c main_arg3) (V c main_v86) (V c main_v89)) := by
  show (cfg0.win 3).cut (grid0.coords t) ((dat0 V c).after 3 t) = _
  rw [after0_3]
  unfold out0_3
  rw [View.canon_unit_zero hzA2]
  simp only [View.ld_unit_zero (S := S4096x390) hzA2, View.ld_unit_zero (S := S390x64) hzA2, View.ld_unit_zero (S := S1x64) hzA2]
  obtain ⟨-, -, -, -, -, -, e0, e1, -⟩ := idxA t
  funext j
  show k0_pay1 (iblk0 V c 0 t) (iblk0 V c 1 t) (iblk0 V c 2 t) j
    = resultA3 (V c main_arg3) (V c main_v86) (V c main_v89) (((cfg0.win 3).blk t).view.emb j)
  have hj : (j : S4096x64.Idx) = ix2 (j 0) (j 1) := eq_ix2 j
  conv_lhs => rw [hj]
  have h0 : ((((cfg0.win 3).blk t).view.emb j) 0).val = 4096 * t.val + (j 0).val := by
    show win0_3.index t 0 * 4096 + 1 * (j 0).val = _; rw [e0]; omega
  have h1 : ((((cfg0.win 3).blk t).view.emb j) 1).val = (j 1).val := by
    show win0_3.index t 1 * 64 + 1 * (j 1).val = _; rw [e1]; omega
  refine (payA1_block V c t (j 0) (j 1) ((((cfg0.win 3).blk t).view.emb j) 0) h0).trans ?_
  unfold resultA3
  exact congrArg (embedAt _ _ _ _) (Fin.ext h1.symm)

/-- The body's second and third results at any index of their one-entry-deep block. -/
theorem payA2_apply' (v0 : Vec Ideal S4096x390 .f32) (v4 : Vec Ideal S390x64 .bf16) (v9 : Vec Ideal S1x64 .f32) (u v : Fin 1) (d : Fin 64) :
    k0_pay2 v0 v4 v9 (ix3 u v d) = ∑ r : Fin 4096, k0_pay1 v0 v4 v9 (ix2 r d) := by
  obtain rfl : u = 0 := Subsingleton.elim _ _
  obtain rfl : v = 0 := Subsingleton.elim _ _
  exact payA2_apply v0 v4 v9 d

theorem payA3_apply' (v0 : Vec Ideal S4096x390 .f32) (v4 : Vec Ideal S390x64 .bf16) (v9 : Vec Ideal S1x64 .f32) (u v : Fin 1) (d : Fin 64) :
    k0_pay3 v0 v4 v9 (ix3 u v d) = ∑ r : Fin 4096, k0_pay1 v0 v4 v9 (ix2 r d) * k0_pay1 v0 v4 v9 (ix2 r d) := by
  obtain rfl : u = 0 := Subsingleton.elim _ _
  obtain rfl : v = 0 := Subsingleton.elim _ _
  exact payA3_apply v0 v4 v9 d

/-- What point t writes back of the per-tile sums. -/
theorem flushedA4 (c : Dev nD) (t : Fin cfg0.N) :
    (dat0 V c).flushed 4 t = ((cfg0.win 4).blk t).view.read (Elt Ideal) (resultA4 (V c main_arg3) (V c main_v86) (V c main_v89)) := by
  show (cfg0.win 4).cut (grid0.coords t) ((dat0 V c).after 4 t) = _
  rw [after0_4]
  unfold out0_4
  rw [View.canon_unit_zero hzA3]
  simp only [View.ld_unit_zero (S := S4096x390) hzA2, View.ld_unit_zero (S := S390x64) hzA2, View.ld_unit_zero (S := S1x64) hzA2]
  obtain ⟨-, -, -, -, -, -, -, -, e0, e1, e2, -⟩ := idxA t
  funext j
  show k0_pay2 (iblk0 V c 0 t) (iblk0 V c 1 t) (iblk0 V c 2 t) j
    = resultA4 (V c main_arg3) (V c main_v86) (V c main_v89) (((cfg0.win 4).blk t).view.emb j)
  have hj : (j : S1x1x64.Idx) = ix3 (j 0) (j 1) (j 2) := eq_ix3 j
  conv_lhs => rw [hj]
  have hj0 : (j 0).val < 1 := (j 0).isLt
  have h0 : ((((cfg0.win 4).blk t).view.emb j) 0).val = t.val := by
    show win0_4.index t 0 * 1 + 1 * (j 0).val = _; rw [e0]; omega
  have h2 : ((((cfg0.win 4).blk t).view.emb j) 2).val = (j 2).val := by
    show win0_4.index t 2 * 64 + 1 * (j 2).val = _; rw [e2]; omega
  refine (payA2_apply' _ _ _ (j 0) (j 1) (j 2)).trans ?_
  unfold resultA4
  refine Finset.sum_congr rfl fun r _ => ?_
  refine (payA1_block V c t r (j 2) (Cert.Spec.tileRow ((((cfg0.win 4).blk t).view.emb j) 0) r) ?_).trans ?_
  · show 4096 * ((((cfg0.win 4).blk t).view.emb j) 0).val + r.val = _; rw [h0]
  · exact congrArg (embedAt _ _ _ _) (Fin.ext h2.symm)

/-- What point t writes back of the per-tile sums of squares. -/
theorem flushedA5 (c : Dev nD) (t : Fin cfg0.N) :
    (dat0 V c).flushed 5 t = ((cfg0.win 5).blk t).view.read (Elt Ideal) (resultA5 (V c main_arg3) (V c main_v86) (V c main_v89)) := by
  show (cfg0.win 5).cut (grid0.coords t) ((dat0 V c).after 5 t) = _
  rw [after0_5]
  unfold out0_5
  rw [View.canon_unit_zero hzA3]
  simp only [View.ld_unit_zero (S := S4096x390) hzA2, View.ld_unit_zero (S := S390x64) hzA2, View.ld_unit_zero (S := S1x64) hzA2]
  obtain ⟨-, -, -, -, -, -, -, -, -, -, -, e0, e1, e2⟩ := idxA t
  funext j
  show k0_pay3 (iblk0 V c 0 t) (iblk0 V c 1 t) (iblk0 V c 2 t) j
    = resultA5 (V c main_arg3) (V c main_v86) (V c main_v89) (((cfg0.win 5).blk t).view.emb j)
  have hj : (j : S1x1x64.Idx) = ix3 (j 0) (j 1) (j 2) := eq_ix3 j
  conv_lhs => rw [hj]
  have hj0 : (j 0).val < 1 := (j 0).isLt
  have h0 : ((((cfg0.win 5).blk t).view.emb j) 0).val = t.val := by
    show win0_5.index t 0 * 1 + 1 * (j 0).val = _; rw [e0]; omega
  have h2 : ((((cfg0.win 5).blk t).view.emb j) 2).val = (j 2).val := by
    show win0_5.index t 2 * 64 + 1 * (j 2).val = _; rw [e2]; omega
  refine (payA3_apply' _ _ _ (j 0) (j 1) (j 2)).trans ?_
  unfold resultA5
  refine Finset.sum_congr rfl fun r _ => ?_
  have hb : k0_pay1 (iblk0 V c 0 t) (iblk0 V c 1 t) (iblk0 V c 2 t) (ix2 r (j 2))
      = embedAt (V c main_arg3) (V c main_v86) (V c main_v89) (Cert.Spec.tileRow ((((cfg0.win 5).blk t).view.emb j) 0) r) ((((cfg0.win 5).blk t).view.emb j) 2) := by
    refine (payA1_block V c t r (j 2) (Cert.Spec.tileRow ((((cfg0.win 5).blk t).view.emb j) 0) r) ?_).trans ?_
    · show 4096 * ((((cfg0.win 5).blk t).view.emb j) 0).val + r.val = _; rw [h0]
    · exact congrArg (embedAt _ _ _ _) (Fin.ext h2.symm)
  rw [hb]

/-- Membership in point t's block, for each of the three result arrays. -/
theorem mem_blkA3 (t : Fin cfg0.N) (i : S65536x64.Idx) :
    i ∈ ((cfg0.win 3).blk t).view.set ↔ ∀ a : Fin 2, win0_3.index t a * S4096x64.size a ≤ (i a).val
      ∧ (i a).val < win0_3.index t a * S4096x64.size a + S4096x64.size a := by
  show i ∈ ((View.whole main_v90_0).slice (win0_3.rect t)).set ↔ _
  rw [View.set_slice_whole, Rect.mem_set_unit]
  exact Iff.rfl

theorem mem_blkA4 (t : Fin cfg0.N) (i : S16x1x64.Idx) :
    i ∈ ((cfg0.win 4).blk t).view.set ↔ ∀ a : Fin 3, win0_4.index t a * S1x1x64.size a ≤ (i a).val
      ∧ (i a).val < win0_4.index t a * S1x1x64.size a + S1x1x64.size a := by
  show i ∈ ((View.whole main_v90_1).slice (win0_4.rect t)).set ↔ _
  rw [View.set_slice_whole, Rect.mem_set_unit]
  exact Iff.rfl

theorem mem_blkA5 (t : Fin cfg0.N) (i : S16x1x64.Idx) :
    i ∈ ((cfg0.win 5).blk t).view.set ↔ ∀ a : Fin 3, win0_5.index t a * S1x1x64.size a ≤ (i a).val
      ∧ (i a).val < win0_5.index t a * S1x1x64.size a + S1x1x64.size a := by
  show i ∈ ((View.whole main_v90_2).slice (win0_5.rect t)).set ↔ _
  rw [View.set_slice_whole, Rect.mem_set_unit]
  exact Iff.rfl

theorem coverA3 (i : S65536x64.Idx) : ∃ t : Fin cfg0.N, (cfg0.win 3).flush t = true ∧ i ∈ ((cfg0.win 3).blk t).view.set := by
  have hN : cfg0.N = 16 := N_0
  have hi0 : (i 0).val < 65536 := (i 0).isLt
  have hi1 : (i 1).val < 64 := (i 1).isLt
  refine ⟨⟨(i 0).val / 4096, by rw [hN]; omega⟩, flush0_3 _, ?_⟩
  rw [mem_blkA3]
  obtain ⟨-, -, -, -, -, -, e0, e1, -⟩ := idxA ⟨(i 0).val / 4096, by rw [hN]; omega⟩
  intro a
  match a with
  | ⟨0, _⟩ =>
    show win0_3.index _ (0 : Fin 2) * 4096 ≤ (i 0).val ∧ (i 0).val < win0_3.index _ (0 : Fin 2) * 4096 + 4096
    rw [e0]; show (i 0).val / 4096 * 4096 ≤ (i 0).val ∧ (i 0).val < (i 0).val / 4096 * 4096 + 4096; omega
  | ⟨1, _⟩ =>
    show win0_3.index _ (1 : Fin 2) * 64 ≤ (i 1).val ∧ (i 1).val < win0_3.index _ (1 : Fin 2) * 64 + 64
    rw [e1]; omega

theorem coverA4 (i : S16x1x64.Idx) : ∃ t : Fin cfg0.N, (cfg0.win 4).flush t = true ∧ i ∈ ((cfg0.win 4).blk t).view.set := by
  have hN : cfg0.N = 16 := N_0
  have hi0 : (i 0).val < 16 := (i 0).isLt
  have hi1 : (i 1).val < 1 := (i 1).isLt
  have hi2 : (i 2).val < 64 := (i 2).isLt
  refine ⟨⟨(i 0).val, by rw [hN]; omega⟩, flush0_4 _, ?_⟩
  rw [mem_blkA4]
  obtain ⟨-, -, -, -, -, -, -, -, e0, e1, e2, -⟩ := idxA ⟨(i 0).val, by rw [hN]; omega⟩
  intro a
  match a with
  | ⟨0, _⟩ =>
    show win0_4.index _ (0 : Fin 3) * 1 ≤ (i 0).val ∧ (i 0).val < win0_4.index _ (0 : Fin 3) * 1 + 1
    rw [e0]; show (i 0).val * 1 ≤ (i 0).val ∧ (i 0).val < (i 0).val * 1 + 1; omega
  | ⟨1, _⟩ =>
    show win0_4.index _ (1 : Fin 3) * 1 ≤ (i 1).val ∧ (i 1).val < win0_4.index _ (1 : Fin 3) * 1 + 1
    rw [e1]; omega
  | ⟨2, _⟩ =>
    show win0_4.index _ (2 : Fin 3) * 64 ≤ (i 2).val ∧ (i 2).val < win0_4.index _ (2 : Fin 3) * 64 + 64
    rw [e2]; omega

theorem coverA5 (i : S16x1x64.Idx) : ∃ t : Fin cfg0.N, (cfg0.win 5).flush t = true ∧ i ∈ ((cfg0.win 5).blk t).view.set := by
  have hN : cfg0.N = 16 := N_0
  have hi0 : (i 0).val < 16 := (i 0).isLt
  have hi1 : (i 1).val < 1 := (i 1).isLt
  have hi2 : (i 2).val < 64 := (i 2).isLt
  refine ⟨⟨(i 0).val, by rw [hN]; omega⟩, flush0_5 _, ?_⟩
  rw [mem_blkA5]
  obtain ⟨-, -, -, -, -, -, -, -, -, -, -, e0, e1, e2⟩ := idxA ⟨(i 0).val, by rw [hN]; omega⟩
  intro a
  match a with
  | ⟨0, _⟩ =>
    show win0_5.index _ (0 : Fin 3) * 1 ≤ (i 0).val ∧ (i 0).val < win0_5.index _ (0 : Fin 3) * 1 + 1
    rw [e0]; show (i 0).val * 1 ≤ (i 0).val ∧ (i 0).val < (i 0).val * 1 + 1; omega
  | ⟨1, _⟩ =>
    show win0_5.index _ (1 : Fin 3) * 1 ≤ (i 1).val ∧ (i 1).val < win0_5.index _ (1 : Fin 3) * 1 + 1
    rw [e1]; omega
  | ⟨2, _⟩ =>
    show win0_5.index _ (2 : Fin 3) * 64 ≤ (i 2).val ∧ (i 2).val < win0_5.index _ (2 : Fin 3) * 64 + 64
    rw [e2]; omega

/-- The three result arrays after the region's 16 points. -/
theorem arrA3 (c : Dev nD) : (dat0 V c).arrAt 3 cfg0.N = resultA3 (V c main_arg3) (V c main_v86) (V c main_v89) :=
  (dat0 V c).arrAt_eq_of_cover 3 _ (fun t _ => flushedA3 V c t) coverA3

theorem arrA4 (c : Dev nD) : (dat0 V c).arrAt 4 cfg0.N = resultA4 (V c main_arg3) (V c main_v86) (V c main_v89) :=
  (dat0 V c).arrAt_eq_of_cover 4 _ (fun t _ => flushedA4 V c t) coverA4

theorem arrA5 (c : Dev nD) : (dat0 V c).arrAt 5 cfg0.N = resultA5 (V c main_arg3) (V c main_v86) (V c main_v89) :=
  (dat0 V c).arrAt_eq_of_cover 5 _ (fun t _ => flushedA5 V c t) coverA5

end Cert.KernelIdeal.KerValue

end
-- ==== Proof.KerRegionB.lean ====
/-
  The second pipeline's result array, whatever contents its region is entered with.

  Its 32 points each take 2048 rows of the embedded batch and the whole of the five small operands, and write back
  2048 rows of the result; point t's rows are 2048·t … 2048·t + 2047, so the blocks tile the array, and the array ends
  holding, at (b, u), the sum over the 64 columns d of the normalised, scaled, shifted, rectified entry (b, d) of the
  embedded batch times the table's entry (d, u).
-/
import proofs.«143416_j42528766165502_2_alg».proof.Proof.Gen.KernelIdeal.Frame
import proofs.«143416_j42528766165502_2_alg».proof.Proof.KerPayload
import Idealize.ShloMosaic.Lib.Pipeline.Value

set_option maxRecDepth 16384

noncomputable section

namespace Cert.KernelIdeal.KerValue

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The second pipeline's index maps: the batch operand and the result move one block of rows per point, every other
    operand stays at its one block. -/
theorem idxB : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The batch operand's block at point t is rows 2048·t … of its array. -/
theorem iblkB0_apply (c : Dev nD) (t : Fin cfg1.N) (x : S2048x64.Idx) (k : S65536x64.Idx)
    (hk0 : (k 0).val = 2048 * t.val + (x 0).val) (hk1 : (k 1).val = (x 1).val) :
    (iblk1 V c 0 t : Vec Ideal S2048x64 .f32) x = (V c main_v90_0 : S65536x64.Idx → Elt Ideal .f32) k := by
  obtain ⟨e0, e1, -⟩ := idxB t
  unfold iblk1
  rw [View.read_apply]
  show V c main_v90_0 _ = V c main_v90_0 _
  congr 1
  funext a
  apply Fin.ext
  match a with
  | ⟨0, _⟩ => show win1_0.index t 0 * 2048 + 1 * (x 0).val = (k 0).val; rw [e0, hk0]; omega
  | ⟨1, _⟩ => show win1_0.index t 1 * 64 + 1 * (x 1).val = (k 1).val; rw [e1, hk1]; omega

/-- A one-row operand's block at any point is its whole array. -/
theorem iblkB1_apply (c : Dev nD) (t : Fin cfg1.N) (x : S1x64.Idx) :
    (iblk1 V c 1 t : Vec Ideal S1x64 .f32) x = (V c main_v101 : S1x64.Idx → Elt Ideal .f32) x := by
  obtain ⟨-, -, e0, e1, -⟩ := idxB t
  unfold iblk1
  rw [View.read_apply]
  show V c main_v101 _ = V c main_v101 _
  congr 1
  funext a
  apply Fin.ext
  match a with
  | ⟨0, _⟩ => show win1_1.index t 0 * 1 + 1 * (x 0).val = (x 0).val; rw [e0]; omega
  | ⟨1, _⟩ => show win1_1.index t 1 * 64 + 1 * (x 1).val = (x 1).val; rw [e1]; omega

theorem iblkB2_apply (c : Dev nD) (t : Fin cfg1.N) (x : S1x64.Idx) :
    (iblk1 V c 2 t : Vec Ideal S1x64 .f32) x = (V c main_v102 : S1x64.Idx → Elt Ideal .f32) x := by
  obtain ⟨-, -, -, -, e0, e1, -⟩ := idxB t
  unfold iblk1
  rw [View.read_apply]
  show V c main_v102 _ = V c main_v102 _
  congr 1
  funext a
  apply Fin.ext
  match a with
  | ⟨0, _⟩ => show win1_2.index t 0 * 1 + 1 * (x 0).val = (x 0).val; rw [e0]; omega
  | ⟨1, _⟩ => show win1_2.index t 1 * 64 + 1 * (x 1).val = (x 1).val; rw [e1]; omega

theorem iblkB3_apply (c : Dev nD) (t : Fin cfg1.N) (x : S1x64.Idx) :
    (iblk1 V c 3 t : Vec Ideal S1x64 .f32) x = (V c main_v103 : S1x64.Idx → Elt Ideal .f32) x := by
  obtain ⟨-, -, -, -, -, -, e0, e1, -⟩ := idxB t
  unfold iblk1
  rw [View.read_apply]
  show V c main_v103 _ = V c main_v103 _
  congr 1
  funext a
  apply Fin.ext
  match a with
  | ⟨0, _⟩ => show win1_3.index t 0 * 1 + 1 * (x 0).val = (x 0).val; rw [e0]; omega
  | ⟨1, _⟩ => show win1_3.index t 1 * 64 + 1 * (x 1).val = (x 1).val; rw [e1]; omega

theorem iblkB4_apply (c : Dev nD) (t : Fin cfg1.N) (x : S1x64.Idx) :
    (iblk1 V c 4 t : Vec Ideal S1x64 .f32) x = (V c main_v104 : S1x64.Idx → Elt Ideal .f32) x := by
  obtain ⟨-, -, -, -, -, -, -, -, e0, e1, -⟩ := idxB t
  unfold iblk1
  rw [View.read_apply]
  show V c main_v104 _ = V c main_v104 _
  congr 1
  funext a
  apply Fin.ext
  match a with
  | ⟨0, _⟩ => show win1_4.index t 0 * 1 + 1 * (x 0).val = (x 0).val; rw [e0]; omega
  | ⟨1, _⟩ => show win1_4.index t 1 * 64 + 1 * (x 1).val = (x 1).val; rw [e1]; omega

/-- The table operand's block at any point is its whole array. -/
theorem iblkB5_apply (c : Dev nD) (t : Fin cfg1.N) (x : S64x805.Idx) :
    (iblk1 V c 5 t : Vec Ideal S64x805 .bf16) x = (V c main_v88 : S64x805.Idx → Elt Ideal .bf16) x := by
  obtain ⟨-, -, -, -, -, -, -, -, -, -, e0, e1, -⟩ := idxB t
  unfold iblk1
  rw [View.read_apply]
  show V c main_v88 _ = V c main_v88 _
  congr 1
  funext a
  apply Fin.ext
  match a with
  | ⟨0, _⟩ => show win1_5.index t 0 * 64 + 1 * (x 0).val = (x 0).val; rw [e0]; omega
  | ⟨1, _⟩ => show win1_5.index t 1 * 805 + 1 * (x 1).val = (x 1).val; rw [e1]; omega

/-- What the result array ends holding, as a function of the region's six operand arrays. -/
def resultB (e : S65536x64.Idx → EReal) (mu var γ β : S1x64.Idx → EReal) (ehT : S64x805.Idx → EReal) :
    S65536x805.Idx → EReal := fun i =>
  ∑ d : Fin 64, max ((e (ix2 (i 0) d) - mu (ix2 (0 : Fin 1) d))
        * Ideal.rsqrt (var (ix2 (0 : Fin 1) d) + Ideal.ofBits .f32 0x3727C5AC#32) * γ (ix2 (0 : Fin 1) d)
      + β (ix2 (0 : Fin 1) d)) 0 * ehT (ix2 d (i 1))

/-- What point t writes back is block t of `resultB` of the operand arrays. -/
theorem flushedB (c : Dev nD) (t : Fin cfg1.N) :
    (dat1 V c).flushed 6 t = ((cfg1.win 6).blk t).view.read (Elt Ideal)
      (resultB (V c main_v90_0) (V c main_v101) (V c main_v102) (V c main_v103) (V c main_v104) (V c main_v88)) := by
  show (cfg1.win 6).cut (grid1.coords t) ((dat1 V c).after 6 t) = _
  rw [after1_6]
  unfold out1_6
  rw [View.canon_unit_zero hz2]
  simp only [View.ld_unit_zero (S := S2048x64) hz2, View.ld_unit_zero (S := S1x64) hz2, View.ld_unit_zero (S := S64x805) hz2]
  obtain ⟨-, -, -, -, -, -, -, -, -, -, -, -, e0, e1⟩ := idxB t
  funext j
  show k1_pay1 (iblk1 V c 0 t) (iblk1 V c 2 t) (iblk1 V c 1 t) (iblk1 V c 3 t) (iblk1 V c 4 t) (iblk1 V c 5 t) j
    = resultB (V c main_v90_0) (V c main_v101) (V c main_v102) (V c main_v103) (V c main_v104) (V c main_v88)
        (((cfg1.win 6).blk t).view.emb j)
  have hj : (j : S2048x805.Idx) = ix2 (j 0) (j 1) := eq_ix2 j
  conv_lhs => rw [hj]
  refine (payB_apply (iblk1 V c 0 t) (iblk1 V c 2 t) (iblk1 V c 1 t) (iblk1 V c 3 t) (iblk1 V c 4 t) (iblk1 V c 5 t) (j 0) (j 1)).trans ?_
  unfold resultB
  refine Finset.sum_congr rfl fun d _ => ?_
  have h0 : ((((cfg1.win 6).blk t).view.emb j) 0).val = 2048 * t.val + (j 0).val := by
    show win1_6.index t 0 * 2048 + 1 * (j 0).val = _; rw [e0]; omega
  have h1 : ((((cfg1.win 6).blk t).view.emb j) 1).val = (j 1).val := by
    show win1_6.index t 1 * 805 + 1 * (j 1).val = _; rw [e1]; omega
  rw [iblkB0_apply V c t (ix2 (j 0) d) (ix2 ((((cfg1.win 6).blk t).view.emb j) 0) d) h0 rfl,
    iblkB1_apply V c t, iblkB2_apply V c t, iblkB3_apply V c t, iblkB4_apply V c t, iblkB5_apply V c t]
  refine congrArg (fun x => _ * (V c main_v88 : S64x805.Idx → Elt Ideal .bf16) x) ?_
  funext a
  apply Fin.ext
  match a with
  | ⟨0, _⟩ => rfl
  | ⟨1, _⟩ => exact h1.symm

/-- An index of the result array is in point t's block iff each coordinate is in the block's range on its axis. -/
theorem mem_blkB (t : Fin cfg1.N) (i : S65536x805.Idx) :
    i ∈ ((cfg1.win 6).blk t).view.set ↔ ∀ a : Fin 2, win1_6.index t a * S2048x805.size a ≤ (i a).val
      ∧ (i a).val < win1_6.index t a * S2048x805.size a + S2048x805.size a := by
  show i ∈ ((View.whole main_v105).slice (win1_6.rect t)).set ↔ _
  rw [View.set_slice_whole, Rect.mem_set_unit]
  exact Iff.rfl

/-- Every index of the result array is in some point's block: row b is in the block of point b / 2048. -/
theorem coverB (i : S65536x805.Idx) : ∃ t : Fin cfg1.N, (cfg1.win 6).flush t = true ∧ i ∈ ((cfg1.win 6).blk t).view.set := by
  have hN : cfg1.N = 32 := N_1
  have hi0 : (i 0).val < 65536 := (i 0).isLt
  have hi1 : (i 1).val < 805 := (i 1).isLt
  refine ⟨⟨(i 0).val / 2048, by rw [hN]; omega⟩, flush1_6 _, ?_⟩
  rw [mem_blkB]
  obtain ⟨-, -, -, -, -, -, -, -, -, -, -, -, e0, e1⟩ := idxB ⟨(i 0).val / 2048, by rw [hN]; omega⟩
  intro a
  match a with
  | ⟨0, _⟩ =>
    show win1_6.index _ (0 : Fin 2) * 2048 ≤ (i 0).val ∧ (i 0).val < win1_6.index _ (0 : Fin 2) * 2048 + 2048
    rw [e0]; show (i 0).val / 2048 * 2048 ≤ (i 0).val ∧ (i 0).val < (i 0).val / 2048 * 2048 + 2048; omega
  | ⟨1, _⟩ =>
    show win1_6.index _ (1 : Fin 2) * 805 ≤ (i 1).val ∧ (i 1).val < win1_6.index _ (1 : Fin 2) * 805 + 805
    rw [e1]; omega

/-- The result array after the region's 32 points. -/
theorem arrB (c : Dev nD) :
    (dat1 V c).arrAt 6 cfg1.N
      = resultB (V c main_v90_0) (V c main_v101) (V c main_v102) (V c main_v103) (V c main_v104) (V c main_v88) :=
  (dat1 V c).arrAt_eq_of_cover 6 _ (fun t _ => flushedB V c t) coverB

end Cert.KernelIdeal.KerValue

end
-- ==== Proof.Views.lean ====
/-
  A matrix or a vector of extended reals, as the library indexes it, read through its coordinates.
-/
import Idealize.ShloMosaic.PureOps.Ideal
import Idealize.ShloMosaic.Lib.ValueIdx

noncomputable section

namespace Cert.Views

open Idealize.ShloMosaic Idealize.ShloMosaic.ValueIdx

/-- The entries of a rank-two array by row and column. -/
def mat {a b : ℕ} (x : (⟨2, ![a, b]⟩ : Shape).Idx → EReal) : Fin a → Fin b → EReal := fun i j => x (ix2 i j)

/-- The entries of a rank-one array by position. -/
def vec {a : ℕ} (x : (⟨1, ![a]⟩ : Shape).Idx → EReal) : Fin a → EReal := fun i => x (ix1 i)

end Cert.Views

end
-- ==== Proof.KerChain.lean ====
/-
  The kernel program's result array as a function of the launch memory.

  The second region's operands are read back through the host operations between the regions and the first region's
  write-backs: the embedded batch is the first region's first result; the mean row is the first region's per-tile
  sums added over the 16 tiles and divided by 65536; the variance row is the same of the per-tile sums of squares,
  less the square of the mean; the scale and shift rows and the batch are the arguments; the folded table is
  `es · Wmᵀ` and the second table is `ehᵀ`, `es` and `eh` being what the host operations before the first region
  leave in their two buffers.  Entry (b, u) of the result is then the folded result of the specification.
-/
import proofs.«143416_j42528766165502_2_alg».proof.Proof.KerRegionA
import proofs.«143416_j42528766165502_2_alg».proof.Proof.KerRegionB
import proofs.«143416_j42528766165502_2_alg».proof.Proof.Views
import Idealize.ShloMosaic.Lib.IdealHost
import Idealize.ShloMosaic.Lib.ValueLayout
import proofs.«143416_j42528766165502_2_alg».proof.Proof.Spec

set_option maxRecDepth 16384

noncomputable section

namespace Cert.KernelIdeal.KerValue

open Cert.KernelIdeal Cert.KernelIdeal.Gen Cert.Views
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The first table, as the host operations before the first region leave it. -/
abbrev esK (c : Dev nD) : FVec Ideal S390x64 .f32 := W9 m ρ c (Proc.devRef .tc main_v69)
/-- The second table, likewise. -/
abbrev ehK (c : Dev nD) : FVec Ideal S805x64 .f32 := W9 m ρ c (Proc.devRef .tc main_v83)

/-! ## The first region's operands -/

set_option maxHeartbeats 40000000 in
/-- No host operation writes an argument: before the first region each still holds its launch contents. -/
theorem W9_args (c : Dev nD) :
    W9 m ρ c (Proc.devRef .tc main_arg3) = m ((c : Thread nD τ).loc main_arg3)
    ∧ W9 m ρ c (Proc.devRef .tc main_arg13) = m ((c : Thread nD τ).loc main_arg13)
    ∧ W9 m ρ c (Proc.devRef .tc main_arg14) = m ((c : Thread nD τ).loc main_arg14)
    ∧ W9 m ρ c (Proc.devRef .tc main_arg15) = m ((c : Thread nD τ).loc main_arg15)
    ∧ W9 m ρ c (Proc.devRef .tc main_arg16) = m ((c : Thread nD τ).loc main_arg16) := by
  refine ⟨?_, ?_, ?_, ?_, ?_⟩ <;>
  · show after hostOps0_8 (after hostOps0_7 (after hostOps0_6 (after hostOps0_5 (after hostOps0_4 (after hostOps0_3
      (after hostOps0_2 (after hostOps0_1 (after hostOps0 (W0 m ρ c))))))))) _ = _
    after_results_simp <;> rfl

/-- The folded table: `es · Wmᵀ`, narrowed. -/
def foldedTable (es : FVec Ideal S390x64 .f32) (Wm : FVec Ideal S64x64 .f32) : FVec Ideal S390x64 .bf16 :=
  truncf .bf16 (Host.dotGeneral dot_S390x64_S64x64_S390x64_1_0_0_1_n_n none es
    (transpose S64x64 [1, 0] Wm transposes_S64x64_S64x64_1_0)) bitsLt_bf16_f32

/-- The second table transposed, narrowed. -/
def tableT (eh : FVec Ideal S805x64 .f32) : FVec Ideal S64x805 .bf16 :=
  truncf .bf16 (transpose S64x805 [1, 0] eh transposes_S805x64_S64x805_1_0) bitsLt_bf16_f32

/-- A vector of 64 entries as one row. -/
def asRow (v : FVec Ideal S64 .f32) : FVec Ideal S1x64 .f32 := fun i => shapeCast S1x64 v shapeCasts_S64_S1x64 i

set_option maxHeartbeats 4000000 in
/-- The last stretch of host operations before the first region, over whatever the earlier ones left. -/
theorem stretch8 (W : Valuation τ sig (Elt Ideal)) :
    after hostOps0_8 W (Proc.devRef .tc main_v86) = foldedTable (W (Proc.devRef .tc main_v69)) (W (Proc.devRef .tc main_arg13))
    ∧ after hostOps0_8 W (Proc.devRef .tc main_v88) = tableT (after hostOps0_8 W (Proc.devRef .tc main_v83))
    ∧ after hostOps0_8 W (Proc.devRef .tc main_v89) = asRow (W (Proc.devRef .tc main_arg14))
    ∧ after hostOps0_8 W (Proc.devRef .tc main_v69) = W (Proc.devRef .tc main_v69)
    ∧ after hostOps0_8 W (Proc.devRef .tc main_arg13) = W (Proc.devRef .tc main_arg13)
    ∧ after hostOps0_8 W (Proc.devRef .tc main_arg14) = W (Proc.devRef .tc main_arg14) := by
  refine ⟨?_, ?_, ?_, ?_, ?_, ?_⟩ <;>
  · after_results_simp <;> rfl

/-- The first region's three operands. -/
theorem V9_operands (c : Dev nD) :
    V9 m ρ c main_arg3 = m ((c : Thread nD τ).loc main_arg3)
    ∧ V9 m ρ c main_v86 = foldedTable (esK m ρ c) (m ((c : Thread nD τ).loc main_arg13))
    ∧ V9 m ρ c main_v89 = asRow (m ((c : Thread nD τ).loc main_arg14)) := by
  obtain ⟨a3, a13, a14, -, -⟩ := W9_args m ρ c
  obtain ⟨s86, -, s89, s69, s13, s14⟩ := stretch8 (W8 m ρ c)
  refine ⟨a3, ?_, ?_⟩
  · show after hostOps0_8 (W8 m ρ c) (Proc.devRef .tc main_v86) = foldedTable (after hostOps0_8 (W8 m ρ c) (Proc.devRef .tc main_v69)) _
    rw [s86, s69, ← a13]
    show _ = foldedTable _ (after hostOps0_8 (W8 m ρ c) (Proc.devRef .tc main_arg13))
    rw [s13]
  · show after hostOps0_8 (W8 m ρ c) (Proc.devRef .tc main_v89) = _
    rw [s89, ← a14]
    show _ = asRow (after hostOps0_8 (W8 m ρ c) (Proc.devRef .tc main_arg14))
    rw [s14]

/-! ## The second region's operands -/

/-- The 16 per-tile rows added and divided by 65536. -/
def tilesMean (ps : FVec Ideal S16x1x64 .f32) : FVec Ideal S64 .f32 :=
  Host.divf
    (Host.reduceAdd (fun i => shapeCast S16x64 ps shapeCasts_S16x1x64_S16x64 i) (constant S_ .f32 0x00000000#32)
      reducesTo_S16x64_S64_d0 h_S_)
    (broadcastInDim S64 ![] bcast_S_S64 (constant S_ .f32 0x47800000#32))

set_option maxHeartbeats 4000000 in
/-- The host operations between the two regions, over whatever the first region left. -/
theorem stretchMid (W : Valuation τ sig (Elt Ideal)) :
    after hostOps1 W (Proc.devRef .tc main_v101) = asRow (tilesMean (W (Proc.devRef .tc main_v90_1)))
    ∧ after hostOps1 W (Proc.devRef .tc main_v102)
        = asRow (subf (tilesMean (W (Proc.devRef .tc main_v90_2)))
            (mulf (tilesMean (W (Proc.devRef .tc main_v90_1))) (tilesMean (W (Proc.devRef .tc main_v90_1)))))
    ∧ after hostOps1 W (Proc.devRef .tc main_v103) = asRow (W (Proc.devRef .tc main_arg15))
    ∧ after hostOps1 W (Proc.devRef .tc main_v104) = asRow (W (Proc.devRef .tc main_arg16))
    ∧ after hostOps1 W (Proc.devRef .tc main_v90_0) = W (Proc.devRef .tc main_v90_0)
    ∧ after hostOps1 W (Proc.devRef .tc main_v88) = W (Proc.devRef .tc main_v88) := by
  refine ⟨?_, ?_, ?_, ?_, ?_, ?_⟩ <;>
  · after_results_simp <;> rfl

/-- The second region's six operands, from the launch memory. -/
theorem V11_operands (c : Dev nD) :
    V11 m ρ c main_v90_0 = resultA3 (m ((c : Thread nD τ).loc main_arg3))
        (foldedTable (esK m ρ c) (m ((c : Thread nD τ).loc main_arg13))) (asRow (m ((c : Thread nD τ).loc main_arg14)))
    ∧ V11 m ρ c main_v101 = asRow (tilesMean (resultA4 (m ((c : Thread nD τ).loc main_arg3))
        (foldedTable (esK m ρ c) (m ((c : Thread nD τ).loc main_arg13))) (asRow (m ((c : Thread nD τ).loc main_arg14)))))
    ∧ V11 m ρ c main_v102 = asRow (subf
        (tilesMean (resultA5 (m ((c : Thread nD τ).loc main_arg3))
          (foldedTable (esK m ρ c) (m ((c : Thread nD τ).loc main_arg13))) (asRow (m ((c : Thread nD τ).loc main_arg14)))))
        (mulf
          (tilesMean (resultA4 (m ((c : Thread nD τ).loc main_arg3))
            (foldedTable (esK m ρ c) (m ((c : Thread nD τ).loc main_arg13))) (asRow (m ((c : Thread nD τ).loc main_arg14)))))
          (tilesMean (resultA4 (m ((c : Thread nD τ).loc main_arg3))
            (foldedTable (esK m ρ c) (m ((c : Thread nD τ).loc main_arg13))) (asRow (m ((c : Thread nD τ).loc main_arg14)))))))
    ∧ V11 m ρ c main_v103 = asRow (m ((c : Thread nD τ).loc main_arg15))
    ∧ V11 m ρ c main_v104 = asRow (m ((c : Thread nD τ).loc main_arg16))
    ∧ V11 m ρ c main_v88 = tableT (ehK m ρ c) := by
  obtain ⟨-, -, -, a15, a16⟩ := W9_args m ρ c
  obtain ⟨o3, o86, o89⟩ := V9_operands m ρ c
  obtain ⟨s101, s102, s103, s104, s900, s88⟩ := stretchMid (W10 m ρ c)
  obtain ⟨-, t88, -, -, -, -⟩ := stretch8 (W8 m ρ c)
  have r3 : W10 m ρ c (Proc.devRef .tc main_v90_0) = resultA3 (V9 m ρ c main_arg3) (V9 m ρ c main_v86) (V9 m ρ c main_v89) :=
    (W10_arr m ρ c 3).trans (arrA3 (V9 m ρ) c)
  have r4 : W10 m ρ c (Proc.devRef .tc main_v90_1) = resultA4 (V9 m ρ c main_arg3) (V9 m ρ c main_v86) (V9 m ρ c main_v89) :=
    (W10_arr m ρ c 4).trans (arrA4 (V9 m ρ) c)
  have r5 : W10 m ρ c (Proc.devRef .tc main_v90_2) = resultA5 (V9 m ρ c main_arg3) (V9 m ρ c main_v86) (V9 m ρ c main_v89) :=
    (W10_arr m ρ c 5).trans (arrA5 (V9 m ρ) c)
  rw [o3, o86, o89] at r3 r4 r5
  have k15 : W10 m ρ c (Proc.devRef .tc main_arg15) = m ((c : Thread nD τ).loc main_arg15) :=
    (W10_of_ne m ρ c main_arg15 (by decide)).trans a15
  have k16 : W10 m ρ c (Proc.devRef .tc main_arg16) = m ((c : Thread nD τ).loc main_arg16) :=
    (W10_of_ne m ρ c main_arg16 (by decide)).trans a16
  have k88 : W10 m ρ c (Proc.devRef .tc main_v88) = tableT (ehK m ρ c) :=
    (W10_of_ne m ρ c main_v88 (by decide)).trans t88
  refine ⟨?_, ?_, ?_, ?_, ?_, ?_⟩
  · exact s900.trans r3
  · exact s101.trans (by rw [r4])
  · exact s102.trans (by rw [r4, r5])
  · exact s103.trans (by rw [k15])
  · exact s104.trans (by rw [k16])
  · exact s88.trans k88

/-! ## The result at an entry -/

/-- A `[a, 1, b]` array cast to `[a, b]` reads, at `(i, j)`, the operand at `(i, 0, j)`. -/
theorem shapeCast_a1b_ab_apply {α : Type} {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A row laid from a vector reads the vector. -/
theorem asRow_apply (v : FVec Ideal S64 .f32) (d : Fin 64) : asRow v (ix2 (0 : Fin 1) d) = v (ix1 d) :=
  shapeCast_a_1a_apply v shapeCasts_S64_S1x64 0 d

/-- The per-tile rows added and divided by 65536, at column d. -/
theorem tilesMean_apply (ps : FVec Ideal S16x1x64 .f32) (d : Fin 64) :
    tilesMean ps (ix1 d) = Ideal.div (∑ i : Fin 16, ps (ix3 i (0 : Fin 1) d)) (Ideal.ofBits .f32 0x47800000#32) := by
  unfold tilesMean
  rw [hostDivf_apply, hostReduceAdd_apply, ColumnSum.hostColSum_apply _ _ reducesTo_S16x64_S64_d0 (by decide) d,
    constant_apply, Ideal.ofBits_zero_f32, zero_add, broadcastInDim_scalar_apply, constant_apply]
  refine congrArg (fun x => Ideal.div x _) (Finset.sum_congr rfl fun i _ => ?_)
  exact shapeCast_a1b_ab_apply ps shapeCasts_S16x1x64_S16x64 i d

/-- The folded table at (k, d): `∑ⱼ es k j · Wm d j`. -/
theorem foldedTable_apply (es : FVec Ideal S390x64 .f32) (Wm : FVec Ideal S64x64 .f32) (k : Fin 390) (d : Fin 64) :
    foldedTable es Wm (ix2 k d) = Spec.tableMap (mat es) (mat Wm) k d := by
  unfold foldedTable Spec.tableMap
  rw [truncf_apply]
  refine (PlainDot.dotGeneral_apply (M := 390) (K := 64) (N := 64) none _ _ k d).trans ?_
  refine Finset.sum_congr rfl fun j _ => ?_
  rw [transpose_ix2_apply Wm transposes_S64x64_S64x64_1_0 j d]
  rfl

/-- The embedding of row b through the folded table is the specification's folded embedding. -/
theorem embedAt_eq (Pm : FVec Ideal S65536x390 .f32) (es : FVec Ideal S390x64 .f32) (Wm : FVec Ideal S64x64 .f32)
    (bm : FVec Ideal S64 .f32) (b : Fin 65536) (d : Fin 64) :
    embedAt Pm (foldedTable es Wm) (asRow bm) b d = Spec.embedFolded (mat Pm b) (mat es) (mat Wm) (vec bm) d := by
  unfold embedAt Spec.embedFolded
  rw [asRow_apply]
  simp only [foldedTable_apply]
  rfl

/-- The second region's result function at (b, u), spelt out. -/
theorem resultB_eq (e : FVec Ideal S65536x64 .f32) (mu var γ β : FVec Ideal S1x64 .f32) (ehT : FVec Ideal S64x805 .bf16)
    (b : Fin 65536) (u : Fin 805) :
    resultB e mu var γ β ehT (ix2 b u)
      = ∑ d : Fin 64, max ((e (ix2 b d) - mu (ix2 (0 : Fin 1) d))
            * Ideal.rsqrt (var (ix2 (0 : Fin 1) d) + Ideal.ofBits .f32 0x3727C5AC#32) * γ (ix2 (0 : Fin 1) d)
          + β (ix2 (0 : Fin 1) d)) 0 * ehT (ix2 d u) := rfl

/-- The kernel program's result at (b, u) is the folded result of the specification. -/
theorem result_apply (c : Dev nD) (b : Fin 65536) (u : Fin 805) :
    (dat1 (V11 m ρ) c).arrAt 6 cfg1.N (ix2 b u)
      = Spec.outFolded (mat (m ((c : Thread nD τ).loc main_arg3))) (mat (esK m ρ c)) (mat (ehK m ρ c))
          (mat (m ((c : Thread nD τ).loc main_arg13))) (vec (m ((c : Thread nD τ).loc main_arg14)))
          (vec (m ((c : Thread nD τ).loc main_arg15))) (vec (m ((c : Thread nD τ).loc main_arg16))) b u := by
  obtain ⟨h0, h1, h2, h3, h4, h5⟩ := V11_operands m ρ c
  have hB := congrFun (arrB (V11 m ρ) c) (ix2 b u)
  rw [h0, h1, h2, h3, h4, h5] at hB
  refine hB.trans ((resultB_eq _ _ _ _ _ _ b u).trans ?_)
  unfold Spec.outFolded Spec.scoresOf
  refine Finset.sum_congr rfl fun d _ => ?_
  have he : resultA3 (m ((c : Thread nD τ).loc main_arg3)) (foldedTable (esK m ρ c) (m ((c : Thread nD τ).loc main_arg13)))
      (asRow (m ((c : Thread nD τ).loc main_arg14))) (ix2 b d)
      = Spec.embedFolded (mat (m ((c : Thread nD τ).loc main_arg3)) b) (mat (esK m ρ c)) (mat (m ((c : Thread nD τ).loc main_arg13)))
          (vec (m ((c : Thread nD τ).loc main_arg14))) d := embedAt_eq _ _ _ _ b d
  have hmu : asRow (tilesMean (resultA4 (m ((c : Thread nD τ).loc main_arg3)) (foldedTable (esK m ρ c) (m ((c : Thread nD τ).loc main_arg13)))
      (asRow (m ((c : Thread nD τ).loc main_arg14))))) (ix2 (0 : Fin 1) d)
      = Spec.meanTiled fun b => Spec.embedFolded (mat (m ((c : Thread nD τ).loc main_arg3)) b) (mat (esK m ρ c))
          (mat (m ((c : Thread nD τ).loc main_arg13))) (vec (m ((c : Thread nD τ).loc main_arg14))) d := by
    rw [asRow_apply, tilesMean_apply]
    unfold Spec.meanTiled resultA4
    simp only [embedAt_eq]
  have hsq : tilesMean (resultA5 (m ((c : Thread nD τ).loc main_arg3)) (foldedTable (esK m ρ c) (m ((c : Thread nD τ).loc main_arg13)))
      (asRow (m ((c : Thread nD τ).loc main_arg14)))) (ix1 d)
      = Spec.meanSqTiled fun b => Spec.embedFolded (mat (m ((c : Thread nD τ).loc main_arg3)) b) (mat (esK m ρ c))
          (mat (m ((c : Thread nD τ).loc main_arg13))) (vec (m ((c : Thread nD τ).loc main_arg14))) d := by
    rw [tilesMean_apply]
    unfold Spec.meanSqTiled resultA5
    simp only [embedAt_eq]
  rw [he, hmu, asRow_apply, asRow_apply, asRow_apply, subf_apply, mulf_apply, hsq]
  rw [asRow_apply] at hmu
  rw [hmu]
  unfold tableT
  rw [truncf_apply, transpose_ix2_apply _ transposes_S805x64_S64x805_1_0 d u]
  rfl

end Cert.KernelIdeal.KerValue

end
-- ==== Proof.RefOps.lean ====
/-
  The reference program's @main as a table of its host operations, window by window, each called function's
  operations standing in its call's place; @main is the sequence of that table, every operation touches
  TensorCore buffers only, and so every weakly fair execution terminates with each buffer at the table's fold over
  the launch contents.
-/
import proofs.«143416_j42528766165502_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of window 0 of @main, in order. -/
abbrev ops0 : List (HloOp τ sig (Elt F)) :=
  [ unary main_arg0 main_v0 ((extractStridedSlice S1x100000 ![0, 0] · slices_S2x100000_S1x100000_0_0) : (⟨S2x100000, .i32⟩ : BufTy).Contents (Elt F) → (⟨S1x100000, .i32⟩ : BufTy).Contents (Elt F)),
    reshape main_v0 main_v1 rfl shapeCasts_S1x100000_S100000,
    unary main_arg0 main_v2 ((extractStridedSlice S1x100000 ![1, 0] · slices_S2x100000_S1x100000_1_0) : (⟨S2x100000, .i32⟩ : BufTy).Contents (Elt F) → (⟨S1x100000, .i32⟩ : BufTy).Contents (Elt F)),
    reshape main_v2 main_v3 rfl shapeCasts_S1x100000_S100000,
    nullary main_c (constantI S_ 32 0#32),
    unary main_c main_v4 (broadcastInDim S100000 ![] bcast_S_S100000 : (⟨S_, .i32⟩ : BufTy).Contents (Elt F) → (⟨S100000, .i32⟩ : BufTy).Contents (Elt F)),
    binary main_v1 main_v4 main_v5 (cmpi .slt : (⟨S100000, .i32⟩ : BufTy).Contents (Elt F) → (⟨S100000, .i32⟩ : BufTy).Contents (Elt F) → (⟨S100000, .i1⟩ : BufTy).Contents (Elt F)),
    nullary main_c_0 (constantI S_ 32 1195#32),
    unary main_c_0 main_v6 (broadcastInDim S100000 ![] bcast_S_S100000 : (⟨S_, .i32⟩ : BufTy).Contents (Elt F) → (⟨S100000, .i32⟩ : BufTy).Contents (Elt F)),
    binary main_v1 main_v6 main_v7 (addi : (⟨S100000, .i32⟩ : BufTy).Contents (Elt F) → (⟨S100000, .i32⟩ : BufTy).Contents (Elt F) → (⟨S100000, .i32⟩ : BufTy).Contents (Elt F)),
    ternary main_v5 main_v7 main_v1 main_v8 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v8 main_v9 (broadcastInDim S100000x1 ![0] bcast_S100000_S100000x1_0 : (⟨S100000, .i32⟩ : BufTy).Contents (Elt F) → (⟨S100000x1, .i32⟩ : BufTy).Contents (Elt F)),
    binary main_arg4 main_v9 main_v10 ((fun x i => Host.gather gather_S1195x64_S100000x1_S100000x64_1_0_n_n_0_1_164 x i) : (⟨S1195x64, .f32⟩ : BufTy).Contents (Elt F) → (⟨S100000x1, .i32⟩ : BufTy).Contents (Elt F) → (⟨S100000x64, .f32⟩ : BufTy).Contents (Elt F)),
    unary main_arg5 main_v11 ((transpose S64x64 [1, 0] · transposes_S64x64_S64x64_1_0) : (⟨S64x64, .f32⟩ : BufTy).Contents (Elt F) → (⟨S64x64, .f32⟩ : BufTy).Contents (Elt F)),
    binary main_v10 main_v11 main_v12 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg6 main_v13 (broadcastInDim S1x64 ![1] bcast_S64_S1x64_1 : (⟨S64, .f32⟩ : BufTy).Contents (Elt F) → (⟨S1x64, .f32⟩ : BufTy).Contents (Elt F)),
    unary main_v13 main_v14 (broadcastInDim S100000x64 ![0, 1] bcast_S1x64_S100000x64_0_1 : (⟨S1x64, .f32⟩ : BufTy).Contents (Elt F) → (⟨S100000x64, .f32⟩ : BufTy).Contents (Elt F)),
    binary main_v12 main_v14 main_v15 (addf : (⟨S100000x64, .f32⟩ : BufTy).Contents (Elt F) → (⟨S100000x64, .f32⟩ : BufTy).Contents (Elt F) → (⟨S100000x64, .f32⟩ : BufTy).Contents (Elt F)),
    nullary main_cst (constant S_ .f32 0x00000000#32),
    unary main_cst main_v16 (broadcastInDim S1195x64 ![] bcast_S_S1195x64 : (⟨S_, .f32⟩ : BufTy).Contents (Elt F) → (⟨S1195x64, .f32⟩ : BufTy).Contents (Elt F)),
    unary main_v3 main_v17 (broadcastInDim S100000x1 ![0] bcast_S100000_S100000x1_0 : (⟨S100000, .i32⟩ : BufTy).Contents (Elt F) → (⟨S100000x1, .i32⟩ : BufTy).Contents (Elt F)),
    ternary main_v16 main_v17 main_v15 main_v18 ((fun x i u => Host.scatterAdd scatter_S1195x64_S100000x1_S100000x64_1_0_0_1 x i u) : (⟨S1195x64, .f32⟩ : BufTy).Contents (Elt F) → (⟨S100000x1, .i32⟩ : BufTy).Contents (Elt F) → (⟨S100000x64, .f32⟩ : BufTy).Contents (Elt F) → (⟨S1195x64, .f32⟩ : BufTy).Contents (Elt F)),
    nullary main_cst_1 (constant S_ .f32 0x3F800000#32),
    unary main_cst_1 main_v19 (broadcastInDim S100000 ![] bcast_S_S100000 : (⟨S_, .f32⟩ : BufTy).Contents (Elt F) → (⟨S100000, .f32⟩ : BufTy).Contents (Elt F)),
    nullary main_cst_2 (constant S_ .f32 0x00000000#32),
    unary main_cst_2 main_v20 (broadcastInDim S1195 ![] bcast_S_S1195 : (⟨S_, .f32⟩ : BufTy).Contents (Elt F) → (⟨S1195, .f32⟩ : BufTy).Contents (Elt F)),
    unary main_v3 main_v21 (broadcastInDim S100000x1 ![0] bcast_S100000_S100000x1_0 : (⟨S100000, .i32⟩ : BufTy).Contents (Elt F) → (⟨S100000x1, .i32⟩ : BufTy).Contents (Elt F)),
    ternary main_v20 main_v21 main_v19 main_v22 ((fun x i u => Host.scatterAdd scatter_S1195_S100000x1_S100000_n_0_0_1 x i u) : (⟨S1195, .f32⟩ : BufTy).Contents (Elt F) → (⟨S100000x1, .i32⟩ : BufTy).Contents (Elt F) → (⟨S100000, .f32⟩ : BufTy).Contents (Elt F) → (⟨S1195, .f32⟩ : BufTy).Contents (Elt F)),
    nullary main_cst_3 (constant S_ .f32 0x3F800000#32),
    unary main_cst_3 main_v23 (broadcastInDim S1195 ![] bcast_S_S1195 : (⟨S_, .f32⟩ : BufTy).Contents (Elt F) → (⟨S1195, .f32⟩ : BufTy).Contents (Elt F)),
    binary main_v22 main_v23 main_v24 (maximumf : (⟨S1195, .f32⟩ : BufTy).Contents (Elt F) → (⟨S1195, .f32⟩ : BufTy).Contents (Elt F) → (⟨S1195, .f32⟩ : BufTy).Contents (Elt F)),
    unary main_v24 main_v25 (broadcastInDim S1195x1 ![0] bcast_S1195_S1195x1_0 : (⟨S1195, .f32⟩ : BufTy).Contents (Elt F) → (⟨S1195x1, .f32⟩ : BufTy).Contents (Elt F)),
    unary main_v25 main_v26 (broadcastInDim S1195x64 ![0, 1] bcast_S1195x1_S1195x64_0_1 : (⟨S1195x1, .f32⟩ : BufTy).Contents (Elt F) → (⟨S1195x64, .f32⟩ : BufTy).Contents (Elt F)),
    binary main_v18 main_v26 main_v27 (Host.divf : (⟨S1195x64, .f32⟩ : BufTy).Contents (Elt F) → (⟨S1195x64, .f32⟩ : BufTy).Contents (Elt F) → (⟨S1195x64, .f32⟩ : BufTy).Contents (Elt F)),
    unary main_v27 main_v28 (Host.tanh : (⟨S1195x64, .f32⟩ : BufTy).Contents (Elt F) → (⟨S1195x64, .f32⟩ : BufTy).Contents (Elt F)),
    nullary main_c_4 (constantI S_ 32 0#32),
    unary main_c_4 main_v29 (broadcastInDim S100000 ![] bcast_S_S100000 : (⟨S_, .i32⟩ : BufTy).Contents (Elt F) → (⟨S100000, .i32⟩ : BufTy).Contents (Elt F)),
    binary main_v1 main_v29 main_v30 (cmpi .slt : (⟨S100000, .i32⟩ : BufTy).Contents (Elt F) → (⟨S100000, .i32⟩ : BufTy).Contents (Elt F) → (⟨S100000, .i1⟩ : BufTy).Contents (Elt F)),
    nullary main_c_5 (constantI S_ 32 1195#32),
    unary main_c_5 main_v31 (broadcastInDim S100000 ![] bcast_S_S100000 : (⟨S_, .i32⟩ : BufTy).Contents (Elt F) → (⟨S100000, .i32⟩ : BufTy).Contents (Elt F)),
    binary main_v1 main_v31 main_v32 (addi : (⟨S100000, .i32⟩ : BufTy).Contents (Elt F) → (⟨S100000, .i32⟩ : BufTy).Contents (Elt F) → (⟨S100000, .i32⟩ : BufTy).Contents (Elt F)),
    ternary main_v30 main_v32 main_v1 main_v33 (select : (⟨S100000, .i1⟩ : BufTy).Contents (Elt F) → (⟨S100000, .i32⟩ : BufTy).Contents (Elt F) → (⟨S100000, .i32⟩ : BufTy).Contents (Elt F) → (⟨S100000, .i32⟩ : BufTy).Contents (Elt F)),
    unary main_v33 main_v34 (broadcastInDim S100000x1 ![0] bcast_S100000_S100000x1_0 : (⟨S100000, .i32⟩ : BufTy).Contents (Elt F) → (⟨S100000x1, .i32⟩ : BufTy).Contents (Elt F)),
    binary main_v28 main_v34 main_v35 ((fun x i => Host.gather gather_S1195x64_S100000x1_S100000x64_1_0_n_n_0_1_164 x i) : (⟨S1195x64, .f32⟩ : BufTy).Contents (Elt F) → (⟨S100000x1, .i32⟩ : BufTy).Contents (Elt F) → (⟨S100000x64, .f32⟩ : BufTy).Contents (Elt F)),
    unary main_arg7 main_v36 ((transpose S64x64 [1, 0] · transposes_S64x64_S64x64_1_0) : (⟨S64x64, .f32⟩ : BufTy).Contents (Elt F) → (⟨S64x64, .f32⟩ : BufTy).Contents (Elt F)),
    binary main_v35 main_v36 main_v37 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg8 main_v38 (broadcastInDim S1x64 ![1] bcast_S64_S1x64_1 : (⟨S64, .f32⟩ : BufTy).Contents (Elt F) → (⟨S1x64, .f32⟩ : BufTy).Contents (Elt F)),
    unary main_v38 main_v39 (broadcastInDim S100000x64 ![0, 1] bcast_S1x64_S100000x64_0_1 : (⟨S1x64, .f32⟩ : BufTy).Contents (Elt F) → (⟨S100000x64, .f32⟩ : BufTy).Contents (Elt F)),
    binary main_v37 main_v39 main_v40 (addf : (⟨S100000x64, .f32⟩ : BufTy).Contents (Elt F) → (⟨S100000x64, .f32⟩ : BufTy).Contents (Elt F) → (⟨S100000x64, .f32⟩ : BufTy).Contents (Elt F)),
    nullary main_cst_6 (constant S_ .f32 0x00000000#32),
    unary main_cst_6 main_v41 (broadcastInDim S1195x64 ![] bcast_S_S1195x64 : (⟨S_, .f32⟩ : BufTy).Contents (Elt F) → (⟨S1195x64, .f32⟩ : BufTy).Contents (Elt F)),
    unary main_v3 main_v42 (broadcastInDim S100000x1 ![0] bcast_S100000_S100000x1_0 : (⟨S100000, .i32⟩ : BufTy).Contents (Elt F) → (⟨S100000x1, .i32⟩ : BufTy).Contents (Elt F)),
    ternary main_v41 main_v42 main_v40 main_v43 ((fun x i u => Host.scatterAdd scatter_S1195x64_S100000x1_S100000x64_1_0_0_1 x i u) : (⟨S1195x64, .f32⟩ : BufTy).Contents (Elt F) → (⟨S100000x1, .i32⟩ : BufTy).Contents (Elt F) → (⟨S100000x64, .f32⟩ : BufTy).Contents (Elt F) → (⟨S1195x64, .f32⟩ : BufTy).Contents (Elt F)),
    nullary main_cst_7 (constant S_ .f32 0x3F800000#32),
    unary main_cst_7 main_v44 (broadcastInDim S100000 ![] bcast_S_S100000 : (⟨S_, .f32⟩ : BufTy).Contents (Elt F) → (⟨S100000, .f32⟩ : BufTy).Contents (Elt F)),
    nullary main_cst_8 (constant S_ .f32 0x00000000#32),
    unary main_cst_8 main_v45 (broadcastInDim S1195 ![] bcast_S_S1195 : (⟨S_, .f32⟩ : BufTy).Contents (Elt F) → (⟨S1195, .f32⟩ : BufTy).Contents (Elt F)),
    unary main_v3 main_v46 (broadcastInDim S100000x1 ![0] bcast_S100000_S100000x1_0 : (⟨S100000, .i32⟩ : BufTy).Contents (Elt F) → (⟨S100000x1, .i32⟩ : BufTy).Contents (Elt F)),
    ternary main_v45 main_v46 main_v44 main_v47 ((fun x i u => Host.scatterAdd scatter_S1195_S100000x1_S100000_n_0_0_1 x i u) : (⟨S1195, .f32⟩ : BufTy).Contents (Elt F) → (⟨S100000x1, .i32⟩ : BufTy).Contents (Elt F) → (⟨S100000, .f32⟩ : BufTy).Contents (Elt F) → (⟨S1195, .f32⟩ : BufTy).Contents (Elt F)),
    nullary main_cst_9 (constant S_ .f32 0x3F800000#32) ]

/-- The operations of window 1 of @main, in order. -/
abbrev ops1 : List (HloOp τ sig (Elt F)) :=
  [ unary main_cst_9 main_v48 (broadcastInDim S1195 ![] bcast_S_S1195 : (⟨S_, .f32⟩ : BufTy).Contents (Elt F) → (⟨S1195, .f32⟩ : BufTy).Contents (Elt F)),
    binary main_v47 main_v48 main_v49 (maximumf : (⟨S1195, .f32⟩ : BufTy).Contents (Elt F) → (⟨S1195, .f32⟩ : BufTy).Contents (Elt F) → (⟨S1195, .f32⟩ : BufTy).Contents (Elt F)),
    unary main_v49 main_v50 (broadcastInDim S1195x1 ![0] bcast_S1195_S1195x1_0 : (⟨S1195, .f32⟩ : BufTy).Contents (Elt F) → (⟨S1195x1, .f32⟩ : BufTy).Contents (Elt F)),
    unary main_v50 main_v51 (broadcastInDim S1195x64 ![0, 1] bcast_S1195x1_S1195x64_0_1 : (⟨S1195x1, .f32⟩ : BufTy).Contents (Elt F) → (⟨S1195x64, .f32⟩ : BufTy).Contents (Elt F)),
    binary main_v43 main_v51 main_v52 (Host.divf : (⟨S1195x64, .f32⟩ : BufTy).Contents (Elt F) → (⟨S1195x64, .f32⟩ : BufTy).Contents (Elt F) → (⟨S1195x64, .f32⟩ : BufTy).Contents (Elt F)),
    unary main_v52 main_v53 (Host.tanh : (⟨S1195x64, .f32⟩ : BufTy).Contents (Elt F) → (⟨S1195x64, .f32⟩ : BufTy).Contents (Elt F)),
    unary main_v53 main_v54 ((extractStridedSlice S805x64 ![0, 0] · slices_S1195x64_S805x64_0_0) : (⟨S1195x64, .f32⟩ : BufTy).Contents (Elt F) → (⟨S805x64, .f32⟩ : BufTy).Contents (Elt F)),
    unary main_v53 main_v55 ((extractStridedSlice S390x64 ![805, 0] · slices_S1195x64_S390x64_805_0) : (⟨S1195x64, .f32⟩ : BufTy).Contents (Elt F) → (⟨S390x64, .f32⟩ : BufTy).Contents (Elt F)),
    unary main_arg9 main_v56 ((transpose S64x64 [1, 0] · transposes_S64x64_S64x64_1_0) : (⟨S64x64, .f32⟩ : BufTy).Contents (Elt F) → (⟨S64x64, .f32⟩ : BufTy).Contents (Elt F)),
    binary main_v55 main_v56 main_v57 ((fun l r => Host.dotGeneral dot_S390x64_S64x64_S390x64_1_0_0_1_n_n none l r) : (⟨S390x64, .f32⟩ : BufTy).Contents (Elt F) → (⟨S64x64, .f32⟩ : BufTy).Contents (Elt F) → (⟨S390x64, .f32⟩ : BufTy).Contents (Elt F)),
    unary main_arg10 main_v58 (broadcastInDim S1x64 ![1] bcast_S64_S1x64_1 : (⟨S64, .f32⟩ : BufTy).Contents (Elt F) → (⟨S1x64, .f32⟩ : BufTy).Contents (Elt F)),
    unary main_v58 main_v59 (broadcastInDim S390x64 ![0, 1] bcast_S1x64_S390x64_0_1 : (⟨S1x64, .f32⟩ : BufTy).Contents (Elt F) → (⟨S390x64, .f32⟩ : BufTy).Contents (Elt F)),
    binary main_v57 main_v59 main_v60 (addf : (⟨S390x64, .f32⟩ : BufTy).Contents (Elt F) → (⟨S390x64, .f32⟩ : BufTy).Contents (Elt F) → (⟨S390x64, .f32⟩ : BufTy).Contents (Elt F)),
    TRef.nullary main_call0.cst (constant S_ .f32 0x00000000#32),
    TRef.unary main_call0.cst main_call0.v0 (broadcastInDim S390x64 ![] bcast_S_S390x64),
    TRef.binary (.of main_v60) main_call0.v0 main_call0.v1 (cmpf .ogt),
    TRef.nullary main_call0.cst_0 (constant S_ .f32 0x00000000#32),
    TRef.unary main_call0.cst_0 main_call0.v2 (broadcastInDim S390x64 ![] bcast_S_S390x64),
    TRef.binary (.of main_v60) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S390x64 ![] bcast_S_S390x64),
    TRef.ternary main_call0.v3 main_call0.call0.v1 (.of main_v60) main_call0.call0.v2 select,
    TRef.unary main_call0.call0.v2 main_call0.v5 Host.expm1,
    TRef.nullary main_call0.cst_2 (constant S_ .f32 0x3F800000#32),
    TRef.unary main_call0.cst_2 main_call0.v6 (broadcastInDim S390x64 ![] bcast_S_S390x64),
    TRef.binary main_call0.v6 main_call0.v5 main_call0.v7 mulf,
    TRef.ternary main_call0.v1 (.of main_v60) main_call0.v7 main_call0.call1.v0 select,
    unary main_arg11 main_v62 ((transpose S64x64 [1, 0] · transposes_S64x64_S64x64_1_0) : (⟨S64x64, .f32⟩ : BufTy).Contents (Elt F) → (⟨S64x64, .f32⟩ : BufTy).Contents (Elt F)),
    binary main_v61 main_v62 main_v63 ((fun l r => Host.dotGeneral dot_S390x64_S64x64_S390x64_1_0_0_1_n_n none l r) : (⟨S390x64, .f32⟩ : BufTy).Contents (Elt F) → (⟨S64x64, .f32⟩ : BufTy).Contents (Elt F) → (⟨S390x64, .f32⟩ : BufTy).Contents (Elt F)),
    unary main_arg12 main_v64 (broadcastInDim S1x64 ![1] bcast_S64_S1x64_1 : (⟨S64, .f32⟩ : BufTy).Contents (Elt F) → (⟨S1x64, .f32⟩ : BufTy).Contents (Elt F)),
    unary main_v64 main_v65 (broadcastInDim S390x64 ![0, 1] bcast_S1x64_S390x64_0_1 : (⟨S1x64, .f32⟩ : BufTy).Contents (Elt F) → (⟨S390x64, .f32⟩ : BufTy).Contents (Elt F)),
    binary main_v63 main_v65 main_v66 (addf : (⟨S390x64, .f32⟩ : BufTy).Contents (Elt F) → (⟨S390x64, .f32⟩ : BufTy).Contents (Elt F) → (⟨S390x64, .f32⟩ : BufTy).Contents (Elt F)),
    TRef.binary (.of main_v66) (.of main_v66) main_call1.v0 mulf,
    TRef.nullary main_call1.cst (constant S_ .f32 0x00000000#32),
    TRef.binary main_call1.v0 main_call1.cst main_call1.v1 (fun x v => Host.reduceAdd x v reducesTo_S390x64_S390_d1 h_S_),
    TRef.unary main_call1.v1 main_call1.v2 (broadcastInDim S390x1 ![0] bcast_S390_S390x1_0),
    TRef.unary main_call1.v2 main_call1.v3 Host.sqrt,
    unary main_v67 main_v68 (broadcastInDim S390x64 ![0, 1] bcast_S390x1_S390x64_0_1 : (⟨S390x1, .f32⟩ : BufTy).Contents (Elt F) → (⟨S390x64, .f32⟩ : BufTy).Contents (Elt F)),
    binary main_v66 main_v68 main_v69 (Host.divf : (⟨S390x64, .f32⟩ : BufTy).Contents (Elt F) → (⟨S390x64, .f32⟩ : BufTy).Contents (Elt F) → (⟨S390x64, .f32⟩ : BufTy).Contents (Elt F)),
    unary main_arg9 main_v70 ((transpose S64x64 [1, 0] · transposes_S64x64_S64x64_1_0) : (⟨S64x64, .f32⟩ : BufTy).Contents (Elt F) → (⟨S64x64, .f32⟩ : BufTy).Contents (Elt F)),
    binary main_v54 main_v70 main_v71 ((fun l r => Host.dotGeneral dot_S805x64_S64x64_S805x64_1_0_0_1_n_n none l r) : (⟨S805x64, .f32⟩ : BufTy).Contents (Elt F) → (⟨S64x64, .f32⟩ : BufTy).Contents (Elt F) → (⟨S805x64, .f32⟩ : BufTy).Contents (Elt F)),
    unary main_arg10 main_v72 (broadcastInDim S1x64 ![1] bcast_S64_S1x64_1 : (⟨S64, .f32⟩ : BufTy).Contents (Elt F) → (⟨S1x64, .f32⟩ : BufTy).Contents (Elt F)),
    unary main_v72 main_v73 (broadcastInDim S805x64 ![0, 1] bcast_S1x64_S805x64_0_1 : (⟨S1x64, .f32⟩ : BufTy).Contents (Elt F) → (⟨S805x64, .f32⟩ : BufTy).Contents (Elt F)),
    binary main_v71 main_v73 main_v74 (addf : (⟨S805x64, .f32⟩ : BufTy).Contents (Elt F) → (⟨S805x64, .f32⟩ : BufTy).Contents (Elt F) → (⟨S805x64, .f32⟩ : BufTy).Contents (Elt F)),
    TRef.nullary main_call2.cst (constant S_ .f32 0x00000000#32),
    TRef.unary main_call2.cst main_call2.v0 (broadcastInDim S805x64 ![] bcast_S_S805x64),
    TRef.binary (.of main_v74) main_call2.v0 main_call2.v1 (cmpf .ogt),
    TRef.nullary main_call2.cst_0 (constant S_ .f32 0x00000000#32),
    TRef.unary main_call2.cst_0 main_call2.v2 (broadcastInDim S805x64 ![] bcast_S_S805x64),
    TRef.binary (.of main_v74) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S805x64 ![] bcast_S_S805x64),
    TRef.ternary main_call2.v3 main_call2.call0.v1 (.of main_v74) main_call2.call0.v2 select,
    TRef.unary main_call2.call0.v2 main_call2.v5 Host.expm1,
    TRef.nullary main_call2.cst_2 (constant S_ .f32 0x3F800000#32),
    TRef.unary main_call2.cst_2 main_call2.v6 (broadcastInDim S805x64 ![] bcast_S_S805x64),
    TRef.binary main_call2.v6 main_call2.v5 main_call2.v7 mulf,
    TRef.ternary main_call2.v1 (.of main_v74) main_call2.v7 main_call2.call1.v0 select,
    unary main_arg11 main_v76 ((transpose S64x64 [1, 0] · transposes_S64x64_S64x64_1_0) : (⟨S64x64, .f32⟩ : BufTy).Contents (Elt F) → (⟨S64x64, .f32⟩ : BufTy).Contents (Elt F)),
    binary main_v75 main_v76 main_v77 ((fun l r => Host.dotGeneral dot_S805x64_S64x64_S805x64_1_0_0_1_n_n none l r) : (⟨S805x64, .f32⟩ : BufTy).Contents (Elt F) → (⟨S64x64, .f32⟩ : BufTy).Contents (Elt F) → (⟨S805x64, .f32⟩ : BufTy).Contents (Elt F)),
    unary main_arg12 main_v78 (broadcastInDim S1x64 ![1] bcast_S64_S1x64_1 : (⟨S64, .f32⟩ : BufTy).Contents (Elt F) → (⟨S1x64, .f32⟩ : BufTy).Contents (Elt F)),
    unary main_v78 main_v79 (broadcastInDim S805x64 ![0, 1] bcast_S1x64_S805x64_0_1 : (⟨S1x64, .f32⟩ : BufTy).Contents (Elt F) → (⟨S805x64, .f32⟩ : BufTy).Contents (Elt F)),
    binary main_v77 main_v79 main_v80 (addf : (⟨S805x64, .f32⟩ : BufTy).Contents (Elt F) → (⟨S805x64, .f32⟩ : BufTy).Contents (Elt F) → (⟨S805x64, .f32⟩ : BufTy).Contents (Elt F)),
    TRef.binary (.of main_v80) (.of main_v80) main_call3.v0 mulf,
    TRef.nullary main_call3.cst (constant S_ .f32 0x00000000#32),
    TRef.binary main_call3.v0 main_call3.cst main_call3.v1 (fun x v => Host.reduceAdd x v reducesTo_S805x64_S805_d1 h_S_),
    TRef.unary main_call3.v1 main_call3.v2 (broadcastInDim S805x1 ![0] bcast_S805_S805x1_0),
    TRef.unary main_call3.v2 main_call3.v3 Host.sqrt,
    unary main_v81 main_v82 (broadcastInDim S805x64 ![0, 1] bcast_S805x1_S805x64_0_1 : (⟨S805x1, .f32⟩ : BufTy).Contents (Elt F) → (⟨S805x64, .f32⟩ : BufTy).Contents (Elt F)),
    binary main_v80 main_v82 main_v83 (Host.divf : (⟨S805x64, .f32⟩ : BufTy).Contents (Elt F) → (⟨S805x64, .f32⟩ : BufTy).Contents (Elt F) → (⟨S805x64, .f32⟩ : BufTy).Contents (Elt F)),
    binary main_arg3 main_v69 main_v84 ((fun l r => Host.dotGeneral dot_S65536x390_S390x64_S65536x64_1_0_0_1_n_n none l r) : (⟨S65536x390, .f32⟩ : BufTy).Contents (Elt F) → (⟨S390x64, .f32⟩ : BufTy).Contents (Elt F) → (⟨S65536x64, .f32⟩ : BufTy).Contents (Elt F)),
    nullary main_cst_10 (constant S_ .f32 0x00000000#32),
    binary main_arg3 main_cst_10 main_v85 ((fun x v => Host.reduceAdd x v reducesTo_S65536x390_S65536_d1 h_S_) : (⟨S65536x390, .f32⟩ : BufTy).Contents (Elt F) → (⟨S_, .f32⟩ : BufTy).Contents (Elt F) → (⟨S65536, .f32⟩ : BufTy).Contents (Elt F)),
    unary main_v85 main_v86 (broadcastInDim S65536x1 ![0] bcast_S65536_S65536x1_0 : (⟨S65536, .f32⟩ : BufTy).Contents (Elt F) → (⟨S65536x1, .f32⟩ : BufTy).Contents (Elt F)),
    unary main_v86 main_v87 (broadcastInDim S65536x64 ![0, 1] bcast_S65536x1_S65536x64_0_1 : (⟨S65536x1, .f32⟩ : BufTy).Contents (Elt F) → (⟨S65536x64, .f32⟩ : BufTy).Contents (Elt F)),
    binary main_v84 main_v87 main_v88 (Host.divf : (⟨S65536x64, .f32⟩ : BufTy).Contents (Elt F) → (⟨S65536x64, .f32⟩ : BufTy).Contents (Elt F) → (⟨S65536x64, .f32⟩ : BufTy).Contents (Elt F)),
    unary main_arg13 main_v89 ((transpose S64x64 [1, 0] · transposes_S64x64_S64x64_1_0) : (⟨S64x64, .f32⟩ : BufTy).Contents (Elt F) → (⟨S64x64, .f32⟩ : BufTy).Contents (Elt F)),
    binary main_v88 main_v89 main_v90 ((fun l r => Host.dotGeneral dot_S65536x64_S64x64_S65536x64_1_0_0_1_n_n none l r) : (⟨S65536x64, .f32⟩ : BufTy).Contents (Elt F) → (⟨S64x64, .f32⟩ : BufTy).Contents (Elt F) → (⟨S65536x64, .f32⟩ : BufTy).Contents (Elt F)),
    unary main_arg14 main_v91 (broadcastInDim S1x64 ![1] bcast_S64_S1x64_1 : (⟨S64, .f32⟩ : BufTy).Contents (Elt F) → (⟨S1x64, .f32⟩ : BufTy).Contents (Elt F)),
    unary main_v91 main_v92 (broadcastInDim S65536x64 ![0, 1] bcast_S1x64_S65536x64_0_1 : (⟨S1x64, .f32⟩ : BufTy).Contents (Elt F) → (⟨S65536x64, .f32⟩ : BufTy).Contents (Elt F)),
    binary main_v90 main_v92 main_v93 (addf : (⟨S65536x64, .f32⟩ : BufTy).Contents (Elt F) → (⟨S65536x64, .f32⟩ : BufTy).Contents (Elt F) → (⟨S65536x64, .f32⟩ : BufTy).Contents (Elt F)),
    nullary main_cst_11 (constant S_ .f32 0x00000000#32),
    binary main_v93 main_cst_11 main_v94 ((fun x v => Host.reduceAdd x v reducesTo_S65536x64_S64_d0 h_S_) : (⟨S65536x64, .f32⟩ : BufTy).Contents (Elt F) → (⟨S_, .f32⟩ : BufTy).Contents (Elt F) → (⟨S64, .f32⟩ : BufTy).Contents (Elt F)),
    nullary main_cst_12 (constant S_ .f32 0x47800000#32),
    unary main_cst_12 main_v95 (broadcastInDim S64 ![] bcast_S_S64 : (⟨S_, .f32⟩ : BufTy).Contents (Elt F) → (⟨S64, .f32⟩ : BufTy).Contents (Elt F)),
    binary main_v94 main_v95 main_v96 (Host.divf : (⟨S64, .f32⟩ : BufTy).Contents (Elt F) → (⟨S64, .f32⟩ : BufTy).Contents (Elt F) → (⟨S64, .f32⟩ : BufTy).Contents (Elt F)),
    nullary main_c_13 (constantI S_ 32 0#32),
    TRef.nullary main_call4.cst (constant S_ .f32 0x00000000#32),
    TRef.binary (.of main_v93) main_call4.cst main_call4.v0 (fun x v => Host.reduceAdd x v reducesTo_S65536x64_S64_d0 h_S_),
    TRef.unary main_call4.v0 main_call4.v1 (broadcastInDim S1x64 ![1] bcast_S64_S1x64_1),
    TRef.nullary main_call4.cst_0 (constant S_ .f32 0x47800000#32),
    TRef.unary main_call4.cst_0 main_call4.v2 (broadcastInDim S1x64 ![] bcast_S_S1x64),
    TRef.binary main_call4.v1 main_call4.v2 main_call4.v3 Host.divf,
    TRef.unary main_call4.v3 main_call4.v4 (broadcastInDim S65536x64 ![0, 1] bcast_S1x64_S65536x64_0_1),
    TRef.binary (.of main_v93) main_call4.v4 main_call4.v5 subf,
    TRef.binary main_call4.v5 main_call4.v5 main_call4.v6 mulf,
    TRef.unary (.of main_c_13) main_call4.v7 (sitofp .f32),
    TRef.nullary main_call4.cst_1 (constant S_ .f32 0x47800000#32),
    TRef.binary main_call4.cst_1 main_call4.v7 main_call4.v8 subf,
    TRef.nullary main_call4.cst_2 (constant S_ .f32 0x00000000#32),
    TRef.binary main_call4.v6 main_call4.cst_2 main_call4.v9 (fun x v => Host.reduceAdd x v reducesTo_S65536x64_S64_d0 h_S_),
    TRef.unary main_call4.v8 main_call4.v10 (broadcastInDim S64 ![] bcast_S_S64),
    TRef.binary main_call4.v9 main_call4.v10 main_call4.v11 Host.divf,
    TRef.nullary main_call4.cst_3 (constant S_ .f32 0x00000000#32),
    TRef.binary main_call4.v8 main_call4.cst_3 main_call4.v12 (cmpf .ogt),
    TRef.nullary main_call4.cst_4 (constant S_ .f32 0x7FC00000#32),
    TRef.unary main_call4.cst_4 main_call4.call0.v0 id,
    TRef.unary main_call4.call0.v0 main_call4.call0.v1 (broadcastInDim S64 ![] bcast_S_S64),
    TRef.ternary main_call4.v12 main_call4.v11 main_call4.call0.v1 main_call4.call0.v2 (fun p a b => select (broadcastInDim S64 ![] bcast_S_S64 p) a b),
    unary main_v96 main_v98 (broadcastInDim S1x64 ![1] bcast_S64_S1x64_1 : (⟨S64, .f32⟩ : BufTy).Contents (Elt F) → (⟨S1x64, .f32⟩ : BufTy).Contents (Elt F)),
    unary main_v98 main_v99 (broadcastInDim S65536x64 ![0, 1] bcast_S1x64_S65536x64_0_1 : (⟨S1x64, .f32⟩ : BufTy).Contents (Elt F) → (⟨S65536x64, .f32⟩ : BufTy).Contents (Elt F)),
    binary main_v93 main_v99 main_v100 (subf : (⟨S65536x64, .f32⟩ : BufTy).Contents (Elt F) → (⟨S65536x64, .f32⟩ : BufTy).Contents (Elt F) → (⟨S65536x64, .f32⟩ : BufTy).Contents (Elt F)),
    nullary main_cst_14 (constant S_ .f32 0x3727C5AC#32),
    unary main_cst_14 main_v101 (broadcastInDim S64 ![] bcast_S_S64 : (⟨S_, .f32⟩ : BufTy).Contents (Elt F) → (⟨S64, .f32⟩ : BufTy).Contents (Elt F)),
    binary main_v97 main_v101 main_v102 (addf : (⟨S64, .f32⟩ : BufTy).Contents (Elt F) → (⟨S64, .f32⟩ : BufTy).Contents (Elt F) → (⟨S64, .f32⟩ : BufTy).Contents (Elt F)) ]

/-- The operations of window 2 of @main, in order. -/
abbrev ops2 : List (HloOp τ sig (Elt F)) :=
  [ unary main_v102 main_v103 (Host.rsqrt : (⟨S64, .f32⟩ : BufTy).Contents (Elt F) → (⟨S64, .f32⟩ : BufTy).Contents (Elt F)),
    unary main_v103 main_v104 (broadcastInDim S1x64 ![1] bcast_S64_S1x64_1 : (⟨S64, .f32⟩ : BufTy).Contents (Elt F) → (⟨S1x64, .f32⟩ : BufTy).Contents (Elt F)),
    unary main_v104 main_v105 (broadcastInDim S65536x64 ![0, 1] bcast_S1x64_S65536x64_0_1 : (⟨S1x64, .f32⟩ : BufTy).Contents (Elt F) → (⟨S65536x64, .f32⟩ : BufTy).Contents (Elt F)),
    binary main_v100 main_v105 main_v106 (mulf : (⟨S65536x64, .f32⟩ : BufTy).Contents (Elt F) → (⟨S65536x64, .f32⟩ : BufTy).Contents (Elt F) → (⟨S65536x64, .f32⟩ : BufTy).Contents (Elt F)),
    unary main_arg15 main_v107 (broadcastInDim S1x64 ![1] bcast_S64_S1x64_1 : (⟨S64, .f32⟩ : BufTy).Contents (Elt F) → (⟨S1x64, .f32⟩ : BufTy).Contents (Elt F)),
    unary main_v107 main_v108 (broadcastInDim S65536x64 ![0, 1] bcast_S1x64_S65536x64_0_1 : (⟨S1x64, .f32⟩ : BufTy).Contents (Elt F) → (⟨S65536x64, .f32⟩ : BufTy).Contents (Elt F)),
    binary main_v106 main_v108 main_v109 (mulf : (⟨S65536x64, .f32⟩ : BufTy).Contents (Elt F) → (⟨S65536x64, .f32⟩ : BufTy).Contents (Elt F) → (⟨S65536x64, .f32⟩ : BufTy).Contents (Elt F)),
    unary main_arg16 main_v110 (broadcastInDim S1x64 ![1] bcast_S64_S1x64_1 : (⟨S64, .f32⟩ : BufTy).Contents (Elt F) → (⟨S1x64, .f32⟩ : BufTy).Contents (Elt F)),
    unary main_v110 main_v111 (broadcastInDim S65536x64 ![0, 1] bcast_S1x64_S65536x64_0_1 : (⟨S1x64, .f32⟩ : BufTy).Contents (Elt F) → (⟨S65536x64, .f32⟩ : BufTy).Contents (Elt F)),
    binary main_v109 main_v111 main_v112 (addf : (⟨S65536x64, .f32⟩ : BufTy).Contents (Elt F) → (⟨S65536x64, .f32⟩ : BufTy).Contents (Elt F) → (⟨S65536x64, .f32⟩ : BufTy).Contents (Elt F)),
    TRef.nullary main_call5.cst (constant S_ .f32 0x00000000#32),
    TRef.unary main_call5.cst main_call5.v0 (broadcastInDim S65536x64 ![] bcast_S_S65536x64),
    TRef.binary (.of main_v112) main_call5.v0 main_call5.v1 maximumf,
    unary main_v83 main_v114 ((transpose S64x805 [1, 0] · transposes_S805x64_S64x805_1_0) : (⟨S805x64, .f32⟩ : BufTy).Contents (Elt F) → (⟨S64x805, .f32⟩ : BufTy).Contents (Elt F)),
    binary main_v113 main_v114 main_v115 ((fun l r => Host.dotGeneral dot_S65536x64_S64x805_S65536x805_1_0_0_1_n_n none l r) : (⟨S65536x64, .f32⟩ : BufTy).Contents (Elt F) → (⟨S64x805, .f32⟩ : BufTy).Contents (Elt F) → (⟨S65536x805, .f32⟩ : BufTy).Contents (Elt F)) ]

/-- @main's operations, in order. -/
abbrev ops : List (HloOp τ sig (Elt F)) := ops0 ++ ops1 ++ ops2

set_option maxRecDepth 8192 in
set_option maxHeartbeats 4000000 in
theorem main_part0_eq (c : Dev nD) : main_part0 (F := F) c = seq ops0 := by
  simp only [main_part0, fn_elu.body, fn_where.body, fn_where_0.body, fn_norm.body, fn_elu_1.body, fn_where_2.body, fn_where_3.body, fn_norm_4.body, fn_var.body, fn_where_5.body, fn_relu.body, seq, bind_assoc, pure_bind] <;> rfl

set_option maxRecDepth 8192 in
set_option maxHeartbeats 4000000 in
theorem main_part1_eq (c : Dev nD) : main_part1 (F := F) c = seq ops1 := by
  simp only [main_part1, fn_elu.body, fn_where.body, fn_where_0.body, fn_norm.body, fn_elu_1.body, fn_where_2.body, fn_where_3.body, fn_norm_4.body, fn_var.body, fn_where_5.body, fn_relu.body, seq, bind_assoc, pure_bind] <;> rfl

set_option maxRecDepth 8192 in
set_option maxHeartbeats 4000000 in
theorem main_part2_eq (c : Dev nD) : main_part2 (F := F) c = seq ops2 := by
  simp only [main_part2, fn_elu.body, fn_where.body, fn_where_0.body, fn_norm.body, fn_elu_1.body, fn_where_2.body, fn_where_3.body, fn_norm_4.body, fn_var.body, fn_where_5.body, fn_relu.body, seq, bind_assoc, pure_bind] <;> rfl

set_option maxRecDepth 8192 in
theorem main_eq (c : Dev nD) : main (F := F) c = seq ops := by
  simp only [ops, seq_append, ← main_part0_eq c, ← main_part1_eq c, ← main_part2_eq c] <;> rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub ..⟩

set_option maxRecDepth 8192 in
theorem ops1_sub : (ops1 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., unary_bufs_sub .., binary_bufs_sub .., binary_bufs_sub .., nullary_bufs_sub .., binary_bufs_sub .., unary_bufs_sub .., unary_bufs_sub .., unary_bufs_sub .., binary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., binary_bufs_sub .., unary_bufs_sub .., unary_bufs_sub .., binary_bufs_sub .., binary_bufs_sub .., nullary_bufs_sub .., binary_bufs_sub .., unary_bufs_sub .., unary_bufs_sub .., unary_bufs_sub .., binary_bufs_sub .., binary_bufs_sub .., nullary_bufs_sub .., binary_bufs_sub .., unary_bufs_sub .., unary_bufs_sub .., binary_bufs_sub .., unary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub ..⟩

set_option maxRecDepth 8192 in
theorem ops2_sub : (ops2 : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with (h | h) | h
    exacts [List.forall_iff_forall_mem.mp ops0_sub op h, List.forall_iff_forall_mem.mp ops1_sub op h, List.forall_iff_forall_mem.mp ops2_sub op h]

/-- On every device, from any memory with zero counters: every weakly fair execution of @main terminates, and every
    TensorCore buffer ends at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTail.lean ====
/-
  What the reference computes from its batch `P`, the two normalised tables `es`, `eh` and the parameters, as one
  composition of host operations: the rows embedded (`((P·es)/r)·Wmᵀ + bm`), each column's mean and variance (the mean
  of the squared deviations), the columns normalised, scaled, shifted and rectified, and the product with `ehᵀ`.
  The result buffer of the reference's operation table holds exactly this composition of the table's values of
  `es` and `eh`.
-/
import proofs.«143416_j42528766165502_2_alg».proof.Proof.RefOps
import Idealize.ShloMosaic.PureOps.Ideal
import Idealize.ShloMosaic.PureOps.Ideal.Laws

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo

/-- The embedded rows: `((P·es) / rowsum P) · Wmᵀ + bm`. -/
def embedRows (P : FVec Ideal S65536x390 .f32) (es : FVec Ideal S390x64 .f32) (Wm : FVec Ideal S64x64 .f32)
    (bm : FVec Ideal S64 .f32) : FVec Ideal S65536x64 .f32 :=
  addf
    (Host.dotGeneral dot_S65536x64_S64x64_S65536x64_1_0_0_1_n_n none
      (Host.divf (Host.dotGeneral dot_S65536x390_S390x64_S65536x64_1_0_0_1_n_n none P es)
        (broadcastInDim S65536x64 ![0, 1] bcast_S65536x1_S65536x64_0_1
          (broadcastInDim S65536x1 ![0] bcast_S65536_S65536x1_0
            (Host.reduceAdd P (constant S_ .f32 0x00000000#32) reducesTo_S65536x390_S65536_d1 h_S_))))
      (transpose S64x64 [1, 0] Wm transposes_S64x64_S64x64_1_0))
    (broadcastInDim S65536x64 ![0, 1] bcast_S1x64_S65536x64_0_1 (broadcastInDim S1x64 ![1] bcast_S64_S1x64_1 bm))

/-- A column's mean: its sum over the batch divided by 65536. -/
def colMean (e : FVec Ideal S65536x64 .f32) : FVec Ideal S64 .f32 :=
  Host.divf (Host.reduceAdd e (constant S_ .f32 0x00000000#32) reducesTo_S65536x64_S64_d0 h_S_)
    (broadcastInDim S64 ![] bcast_S_S64 (constant S_ .f32 0x47800000#32))

/-- The divisor of the variance: 65536 less the zero correction. -/
def varDivisor : FVec Ideal S_ .f32 :=
  subf (constant S_ .f32 0x47800000#32) (sitofp .f32 (constantI S_ 32 0#32))

/-- The columns' means repeated down the rows, as the variance takes them: each column's sum, laid as a row, divided
    by 65536. -/
def meanRows (e : FVec Ideal S65536x64 .f32) : FVec Ideal S65536x64 .f32 :=
  broadcastInDim S65536x64 ![0, 1] bcast_S1x64_S65536x64_0_1
    (Host.divf (broadcastInDim S1x64 ![1] bcast_S64_S1x64_1
        (Host.reduceAdd e (constant S_ .f32 0x00000000#32) reducesTo_S65536x64_S64_d0 h_S_))
      (broadcastInDim S1x64 ![] bcast_S_S1x64 (constant S_ .f32 0x47800000#32)))

/-- A column's variance: the mean of the squared deviations from the column's mean (where the divisor is positive). -/
def colVar (e : FVec Ideal S65536x64 .f32) : FVec Ideal S64 .f32 :=
  select (broadcastInDim S64 ![] bcast_S_S64 (cmpf .ogt varDivisor (constant S_ .f32 0x00000000#32)))
    (Host.divf
      (Host.reduceAdd (mulf (subf e (meanRows e)) (subf e (meanRows e)))
        (constant S_ .f32 0x00000000#32) reducesTo_S65536x64_S64_d0 h_S_)
      (broadcastInDim S64 ![] bcast_S_S64 varDivisor))
    (broadcastInDim S64 ![] bcast_S_S64 (id (constant S_ .f32 0x7FC00000#32)))

/-- A vector of 64 entries repeated down the 65536 rows. -/
def rows (v : FVec Ideal S64 .f32) : FVec Ideal S65536x64 .f32 :=
  broadcastInDim S65536x64 ![0, 1] bcast_S1x64_S65536x64_0_1 (broadcastInDim S1x64 ![1] bcast_S64_S1x64_1 v)

/-- The columns normalised, scaled by `γ`, shifted by `β`, rectified, and multiplied by `ehᵀ`. -/
def scores (e : FVec Ideal S65536x64 .f32) (mu var γ β : FVec Ideal S64 .f32) (eh : FVec Ideal S805x64 .f32) :
    FVec Ideal S65536x805 .f32 :=
  Host.dotGeneral dot_S65536x64_S64x805_S65536x805_1_0_0_1_n_n none
    (maximumf
      (addf
        (mulf
          (mulf (subf e (rows mu))
            (rows (Host.rsqrt (addf var (broadcastInDim S64 ![] bcast_S_S64 (constant S_ .f32 0x3727C5AC#32))))))
          (rows γ))
        (rows β))
      (broadcastInDim S65536x64 ![] bcast_S_S65536x64 (constant S_ .f32 0x00000000#32)))
    (transpose S64x805 [1, 0] eh transposes_S805x64_S64x805_1_0)

/-- The reference's result as a function of `P`, the two tables and the parameters. -/
def tail (P : FVec Ideal S65536x390 .f32) (es : FVec Ideal S390x64 .f32) (eh : FVec Ideal S805x64 .f32)
    (Wm : FVec Ideal S64x64 .f32) (bm γ β : FVec Ideal S64 .f32) : FVec Ideal S65536x805 .f32 :=
  scores (embedRows P es Wm bm) (colMean (embedRows P es Wm bm)) (colVar (embedRows P es Wm bm)) γ β eh

set_option maxRecDepth 16384 in
set_option maxHeartbeats 80000000 in
/-- The result buffer after the reference's operations holds `tail` of the argument buffers and of the two table
    buffers after the same operations. -/
theorem out_eq (V : Valuation τ sig (Elt Ideal)) :
    after (ops (F := Ideal)) V (main_v115 : DevRef τ sig)
      = tail (V (main_arg3 : DevRef τ sig)) (after (ops (F := Ideal)) V (main_v69 : DevRef τ sig))
          (after (ops (F := Ideal)) V (main_v83 : DevRef τ sig)) (V (main_arg13 : DevRef τ sig)) (V (main_arg14 : DevRef τ sig))
          (V (main_arg15 : DevRef τ sig)) (V (main_arg16 : DevRef τ sig)) := by
  simp only [ops, ops0, ops1, ops2, List.cons_append, List.nil_append]
  after_results_simp
  rfl

end Cert.ReferenceIdeal.RefValue

end
-- ==== Proof.RefRead.lean ====
/-
  The reference's composition read at an entry (b, u): every host operation of it is opened at an index — a matrix
  product as a sum over the contracted axis, a reduction as the initial zero plus the sum over the reduced axis, a
  broadcast as the entry it repeats, the variance's guard decided (its divisor 65536 − 0 is positive) — and what is
  left is the plain result of the specification: the linear map applied last, the statistics over the whole batch.
-/
import proofs.«143416_j42528766165502_2_alg».proof.Proof.RefTail
import proofs.«143416_j42528766165502_2_alg».proof.Proof.Spec
import proofs.«143416_j42528766165502_2_alg».proof.Proof.Views
import proofs.«143416_j42528766165502_2_alg».proof.Proof.LibPlainDot
import proofs.«143416_j42528766165502_2_alg».proof.Proof.LibDenseRows
import proofs.«143416_j42528766165502_2_alg».proof.Proof.LibColumnSum
import Idealize.ShloMosaic.Lib.IdealHost
import Idealize.ShloMosaic.Lib.ValueLayout

noncomputable section

namespace Cert.ReferenceIdeal.RefValue

open Cert.ReferenceIdeal Cert.ReferenceIdeal.Gen Cert.Views
open Idealize.ShloMosaic Idealize.ShloMosaic.ValueIdx

/-- The scalar zero spread over any shape reads zero. -/
theorem zeros_apply {T : Shape} (h : (⟨0, ![]⟩ : Shape).BroadcastsInDim T ![]) (j : T.Idx) :
    broadcastInDim T ![] h (constant (F := Ideal) S_ .f32 0x00000000#32) j = (0 : EReal) := by
  rw [broadcastInDim_scalar_apply, constant_apply, Ideal.ofBits_zero_f32]

/-- A vector repeated down the rows reads, at (b, d), its entry d. -/
theorem rows_apply (v : FVec Ideal S64 .f32) (b : Fin 65536) (d : Fin 64) : rows v (ix2 b d) = v (ix1 d) :=
  DenseRows.hostRows_apply v bcast_S64_S1x64_1 bcast_S1x64_S65536x64_0_1 b d

/-- The sum of row b of the batch. -/
theorem rowSum_apply (P : FVec Ideal S65536x390 .f32) (b : Fin 65536) :
    Host.reduceAdd P (constant (F := Ideal) S_ .f32 0x00000000#32) reducesTo_S65536x390_S65536_d1 h_S_ (ix1 b)
      = ∑ k : Fin 390, P (ix2 b k) := by
  rw [hostReduceAdd_apply, DenseRows.hostRowSum_apply P _ reducesTo_S65536x390_S65536_d1 (by decide) b, constant_apply,
    Ideal.ofBits_zero_f32, zero_add]

/-- The sum of column d over the batch. -/
theorem colSum_apply (e : FVec Ideal S65536x64 .f32) (d : Fin 64) :
    Host.reduceAdd e (constant (F := Ideal) S_ .f32 0x00000000#32) reducesTo_S65536x64_S64_d0 h_S_ (ix1 d)
      = ∑ b : Fin 65536, e (ix2 b d) := by
  rw [hostReduceAdd_apply, ColumnSum.hostColSum_apply e _ reducesTo_S65536x64_S64_d0 (by decide) d, constant_apply,
    Ideal.ofBits_zero_f32, zero_add]

/-- The embedded rows at (b, d): the plain embedding of row b. -/
theorem embedRows_apply (P : FVec Ideal S65536x390 .f32) (es : FVec Ideal S390x64 .f32) (Wm : FVec Ideal S64x64 .f32)
    (bm : FVec Ideal S64 .f32) (b : Fin 65536) (d : Fin 64) :
    embedRows P es Wm bm (ix2 b d) = Spec.embedPlain (mat P b) (mat es) (mat Wm) (vec bm) d := by
  unfold embedRows Spec.embedPlain
  rw [addf_apply, DenseRows.hostRows_apply bm bcast_S64_S1x64_1 bcast_S1x64_S65536x64_0_1 b d]
  refine congrArg (· + bm (ix1 d)) ?_
  refine (PlainDot.dotGeneral_apply (M := 65536) (K := 64) (N := 64) none _ _ b d).trans ?_
  refine Finset.sum_congr rfl fun j _ => ?_
  rw [hostDivf_apply, transpose_ix2_apply Wm transposes_S64x64_S64x64_1_0 j d,
    DenseRows.hostCols_apply _ bcast_S65536_S65536x1_0 bcast_S65536x1_S65536x64_0_1 b j, rowSum_apply]
  refine congrArg (fun x => Ideal.div x _ * _) ?_
  exact PlainDot.dotGeneral_apply (M := 65536) (K := 390) (N := 64) none P es b j

/-- A column's mean at d. -/
theorem colMean_apply (e : FVec Ideal S65536x64 .f32) (d : Fin 64) :
    colMean e (ix1 d) = Spec.meanPlain fun b => e (ix2 b d) := by
  unfold colMean Spec.meanPlain
  rw [hostDivf_apply, colSum_apply, broadcastInDim_scalar_apply, constant_apply]

/-- The variance's divisor is 65536. -/
theorem varDivisor_val : varDivisor ix0 = ((65536 : ℝ) : EReal) := by
  show Ideal.ofBits .f32 0x47800000#32 - (((0#32 : BitVec 32).toInt : ℝ) : EReal) = _
  rw [Spec.ofBits_65536, BitVec.toInt_zero, Int.cast_zero, EReal.coe_zero, sub_zero]

/-- The mean inside the variance, repeated down the rows, at (b, d). -/
theorem innerMean_apply (e : FVec Ideal S65536x64 .f32) (b : Fin 65536) (d : Fin 64) :
    meanRows e (ix2 b d) = Spec.meanPlain fun b => e (ix2 b d) := by
  unfold meanRows Spec.meanPlain
  rw [BroadcastInDimAt.row_mat_apply _ bcast_S1x64_S65536x64_0_1 b d, hostDivf_apply,
    BroadcastInDimAt.vec_row_apply _ bcast_S64_S1x64_1 0 d, colSum_apply, broadcastInDim_scalar_apply, constant_apply]

/-- A column's variance at d: the mean of the squared deviations, the divisor 65536. -/
theorem colVar_apply (e : FVec Ideal S65536x64 .f32) (d : Fin 64) :
    colVar e (ix1 d) = Spec.varPlain ((65536 : ℝ) : EReal) fun b => e (ix2 b d) := by
  unfold colVar Spec.varPlain
  rw [select_apply, broadcastInDim_scalar_apply, cmpf_apply, varDivisor_val, constant_apply, Ideal.ofBits_zero_f32,
    Ideal.cmpf_def]
  have hpos : Ideal.cmp .ogt ((65536 : ℝ) : EReal) 0 = 1#1 := by
    have : (0 : EReal) < ((65536 : ℝ) : EReal) := EReal.coe_pos.mpr (by norm_num)
    simp [Ideal.cmp, this]
  rw [hpos, select_one, hostDivf_apply, colSum_apply, broadcastInDim_scalar_apply, varDivisor_val]
  simp only [mulf_apply, subf_apply, innerMean_apply]

/-- The scores at (b, u). -/
theorem scores_apply (e : FVec Ideal S65536x64 .f32) (mu var γ β : FVec Ideal S64 .f32) (eh : FVec Ideal S805x64 .f32)
    (b : Fin 65536) (u : Fin 805) :
    scores e mu var γ β eh (ix2 b u) = Spec.scoresOf (mat e) (vec mu) (vec var) (vec γ) (vec β) (mat eh) b u := by
  unfold scores Spec.scoresOf
  refine (PlainDot.dotGeneral_apply (M := 65536) (K := 64) (N := 805) none _ _ b u).trans ?_
  refine Finset.sum_congr rfl fun d _ => ?_
  rw [transpose_ix2_apply eh transposes_S805x64_S64x805_1_0 d u, maximumf_apply, zeros_apply, addf_apply, mulf_apply,
    mulf_apply, subf_apply, rows_apply, rows_apply, rows_apply, rows_apply]
  rfl

/-- The reference's result at (b, u) is the plain result of the specification. -/
theorem tail_apply (P : FVec Ideal S65536x390 .f32) (es : FVec Ideal S390x64 .f32) (eh : FVec Ideal S805x64 .f32)
    (Wm : FVec Ideal S64x64 .f32) (bm γ β : FVec Ideal S64 .f32) (b : Fin 65536) (u : Fin 805) :
    tail P es eh Wm bm γ β (ix2 b u) = Spec.outPlain (mat P) (mat es) (mat eh) (mat Wm) (vec bm) (vec γ) (vec β) b u := by
  unfold tail Spec.outPlain
  rw [scores_apply]
  have he : mat (embedRows P es Wm bm) = fun b d => Spec.embedPlain (mat P b) (mat es) (mat Wm) (vec bm) d :=
    funext fun b => funext fun d => embedRows_apply P es Wm bm b d
  have hm : vec (colMean (embedRows P es Wm bm)) = fun d => Spec.meanPlain fun b => Spec.embedPlain (mat P b) (mat es) (mat Wm) (vec bm) d :=
    funext fun d => (colMean_apply _ d).trans (congrArg Spec.meanPlain (funext fun b => embedRows_apply P es Wm bm b d))
  have hv : vec (colVar (embedRows P es Wm bm)) = fun d => Spec.varPlain ((65536 : ℝ) : EReal) fun b => Spec.embedPlain (mat P b) (mat es) (mat Wm) (vec bm) d :=
    funext fun d => (colVar_apply _ d).trans (congrArg (Spec.varPlain _) (funext fun b => embedRows_apply P es Wm bm b d))
  rw [he, hm, hv]

end Cert.ReferenceIdeal.RefValue

end
-- ==== Proof.RefArgsA.lean ====
/-
  No operation of the reference writes an argument buffer: after the whole table each still holds what it held.
-/
import proofs.«143416_j42528766165502_2_alg».proof.Proof.RefOps
import Idealize.ShloMosaic.PureOps.Ideal

set_option maxRecDepth 16384

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo

set_option maxHeartbeats 400000000 in
theorem args_keptA (V : Valuation τ sig (Elt Ideal)) :
    after (ops (F := Ideal)) V (main_arg0 : DevRef τ sig) = V (main_arg0 : DevRef τ sig)
    ∧ after (ops (F := Ideal)) V (main_arg1 : DevRef τ sig) = V (main_arg1 : DevRef τ sig)
    ∧ after (ops (F := Ideal)) V (main_arg2 : DevRef τ sig) = V (main_arg2 : DevRef τ sig)
    ∧ after (ops (F := Ideal)) V (main_arg3 : DevRef τ sig) = V (main_arg3 : DevRef τ sig)
    ∧ after (ops (F := Ideal)) V (main_arg4 : DevRef τ sig) = V (main_arg4 : DevRef τ sig)
    ∧ after (ops (F := Ideal)) V (main_arg5 : DevRef τ sig) = V (main_arg5 : DevRef τ sig) := by
  simp only [ops, ops0, ops1, ops2, List.cons_append, List.nil_append]
  refine ⟨?_, ?_, ?_, ?_, ?_, ?_⟩ <;> (after_results_simp <;> rfl)

end Cert.ReferenceIdeal.RefValue

end
-- ==== Proof.RefArgsB.lean ====
/-
  No operation of the reference writes an argument buffer: after the whole table each still holds what it held.
-/
import proofs.«143416_j42528766165502_2_alg».proof.Proof.RefOps
import Idealize.ShloMosaic.PureOps.Ideal

set_option maxRecDepth 16384

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo

set_option maxHeartbeats 400000000 in
theorem args_keptB (V : Valuation τ sig (Elt Ideal)) :
    after (ops (F := Ideal)) V (main_arg6 : DevRef τ sig) = V (main_arg6 : DevRef τ sig)
    ∧ after (ops (F := Ideal)) V (main_arg7 : DevRef τ sig) = V (main_arg7 : DevRef τ sig)
    ∧ after (ops (F := Ideal)) V (main_arg8 : DevRef τ sig) = V (main_arg8 : DevRef τ sig)
    ∧ after (ops (F := Ideal)) V (main_arg9 : DevRef τ sig) = V (main_arg9 : DevRef τ sig)
    ∧ after (ops (F := Ideal)) V (main_arg10 : DevRef τ sig) = V (main_arg10 : DevRef τ sig)
    ∧ after (ops (F := Ideal)) V (main_arg11 : DevRef τ sig) = V (main_arg11 : DevRef τ sig) := by
  simp only [ops, ops0, ops1, ops2, List.cons_append, List.nil_append]
  refine ⟨?_, ?_, ?_, ?_, ?_, ?_⟩ <;> (after_results_simp <;> rfl)

end Cert.ReferenceIdeal.RefValue

end
-- ==== Proof.RefArgsC.lean ====
/-
  No operation of the reference writes an argument buffer: after the whole table each still holds what it held.
-/
import proofs.«143416_j42528766165502_2_alg».proof.Proof.RefOps
import Idealize.ShloMosaic.PureOps.Ideal

set_option maxRecDepth 16384

noncomputable section

namespace Cert.ReferenceIdeal.RefValue

open Cert.ReferenceIdeal Cert.ReferenceIdeal.Gen Cert.ReferenceIdeal.RefRun
open Idealize.ShloMosaic Idealize.ShloMosaic.TcCoe Idealize.SL.Sem Idealize.ShloMosaic.StableHlo

set_option maxHeartbeats 400000000 in
theorem args_keptC (V : Valuation τ sig (Elt Ideal)) :
    after (ops (F := Ideal)) V (main_arg12 : DevRef τ sig) = V (main_arg12 : DevRef τ sig)
    ∧ after (ops (F := Ideal)) V (main_arg13 : DevRef τ sig) = V (main_arg13 : DevRef τ sig)
    ∧ after (ops (F := Ideal)) V (main_arg14 : DevRef τ sig) = V (main_arg14 : DevRef τ sig)
    ∧ after (ops (F := Ideal)) V (main_arg15 : DevRef τ sig) = V (main_arg15 : DevRef τ sig)
    ∧ after (ops (F := Ideal)) V (main_arg16 : DevRef τ sig) = V (main_arg16 : DevRef τ sig) := by
  simp only [ops, ops0, ops1, ops2, List.cons_append, List.nil_append]
  refine ⟨?_, ?_, ?_, ?_, ?_⟩ <;> (after_results_simp <;> rfl)

end Cert.ReferenceIdeal.RefValue

end
-- ==== Proof.EsPre.lean ====
/-
  The table the precondition bounds, as a chain of compositions of host operations of the arguments: the two graph
  layers, then the rows past the first 805 projected and passed through the exponential linear unit, then projected
  again and each divided by its own norm.
-/
import proofs.«143416_j42528766165502_2_alg».proof.Proof.Gen.Pre_finite_inputs

noncomputable section

namespace Cert.Pre_finite_inputs

open Idealize.ShloMosaic Cert.Pre_finite_inputs.Gen

set_option maxHeartbeats 4000000 in
/-- The first graph layer's output. -/
def layer1Pre {F : FTy → Type} [FloatOps F] (main_arg0 : IVec S2x100000 32) (main_arg4 : FVec F S1195x64 .f32) (main_arg5 : FVec F S64x64 .f32) (main_arg6 : FVec F S64 .f32) : FVec F S1195x64 .f32 :=
  let main_v74 : IVec S1x100000 32 := (extractStridedSlice S1x100000 ![0, 0] · slices_S2x100000_S1x100000_0_0) main_arg0
  let main_v75 : IVec S100000 32 := shapeCast S100000 main_v74 shapeCasts_S1x100000_S100000
  let main_v76 : IVec S1x100000 32 := (extractStridedSlice S1x100000 ![1, 0] · slices_S2x100000_S1x100000_1_0) main_arg0
  let main_v77 : IVec S100000 32 := shapeCast S100000 main_v76 shapeCasts_S1x100000_S100000
  let main_c_29 : IVec S_ 32 := constantI S_ 32 0#32
  let main_v78 : IVec S100000 32 := broadcastInDim S100000 ![] bcast_S_S100000 main_c_29
  let main_v79 : IVec S100000 1 := cmpi .slt main_v75 main_v78
  let main_c_30 : IVec S_ 32 := constantI S_ 32 1195#32
  let main_v80 : IVec S100000 32 := broadcastInDim S100000 ![] bcast_S_S100000 main_c_30
  let main_v81 : IVec S100000 32 := addi main_v75 main_v80
  let main_v82 : IVec S100000 32 := select main_v79 main_v81 main_v75
  let main_v83 : IVec S100000x1 32 := broadcastInDim S100000x1 ![0] bcast_S100000_S100000x1_0 main_v82
  let main_v84 : FVec F S100000x64 .f32 := (fun x i => Host.gather gather_S1195x64_S100000x1_S100000x64_1_0_n_n_0_1_164 x i) main_arg4 main_v83
  let main_v85 : FVec F S64x64 .f32 := (transpose S64x64 [1, 0] · transposes_S64x64_S64x64_1_0) main_arg5
  let main_v86 : FVec F S100000x64 .f32 := (fun l r => Host.dotGeneral dot_S100000x64_S64x64_S100000x64_1_0_0_1_n_n none l r) main_v84 main_v85
  let main_v87 : FVec F S1x64 .f32 := broadcastInDim S1x64 ![1] bcast_S64_S1x64_1 main_arg6
  let main_v88 : FVec F S100000x64 .f32 := broadcastInDim S100000x64 ![0, 1] bcast_S1x64_S100000x64_0_1 main_v87
  let main_v89 : FVec F S100000x64 .f32 := addf main_v86 main_v88
  let main_cst_31 : FVec F S_ .f32 := constant S_ .f32 0x00000000#32
  let main_v90 : FVec F S1195x64 .f32 := broadcastInDim S1195x64 ![] bcast_S_S1195x64 main_cst_31
  let main_v91 : IVec S100000x1 32 := broadcastInDim S100000x1 ![0] bcast_S100000_S100000x1_0 main_v77
  let main_v92 : FVec F S1195x64 .f32 := (fun x i u => Host.scatterAdd scatter_S1195x64_S100000x1_S100000x64_1_0_0_1 x i u) main_v90 main_v91 main_v89
  let main_cst_32 : FVec F S_ .f32 := constant S_ .f32 0x00000000#32
  let main_v93 : FVec F S1195 .f32 := broadcastInDim S1195 ![] bcast_S_S1195 main_cst_32
  let main_v94 : IVec S100000x1 32 := broadcastInDim S100000x1 ![0] bcast_S100000_S100000x1_0 main_v77
  let main_cst_33 : FVec F S_ .f32 := constant S_ .f32 0x3F800000#32
  let main_v95 : FVec F S100000 .f32 := broadcastInDim S100000 ![] bcast_S_S100000 main_cst_33
  let main_v96 : FVec F S1195 .f32 := (fun x i u => Host.scatterAdd scatter_S1195_S100000x1_S100000_n_0_0_1 x i u) main_v93 main_v94 main_v95
  let main_cst_34 : FVec F S_ .f32 := constant S_ .f32 0x3F800000#32
  let main_v97 : FVec F S1195 .f32 := broadcastInDim S1195 ![] bcast_S_S1195 main_cst_34
  let main_v98 : FVec F S1195 .f32 := maximumf main_v96 main_v97
  let main_v99 : FVec F S1195x1 .f32 := broadcastInDim S1195x1 ![0] bcast_S1195_S1195x1_0 main_v98
  let main_v100 : FVec F S1195x64 .f32 := broadcastInDim S1195x64 ![0, 1] bcast_S1195x1_S1195x64_0_1 main_v99
  let main_v101 : FVec F S1195x64 .f32 := Host.divf main_v92 main_v100
  let main_v102 : FVec F S1195x64 .f32 := Host.tanh main_v101
  main_v102

set_option maxHeartbeats 4000000 in
/-- The second graph layer's output, from the first's. -/
def layer2Pre {F : FTy → Type} [FloatOps F] (main_v102 : FVec F S1195x64 .f32) (main_arg0 : IVec S2x100000 32) (main_arg7 : FVec F S64x64 .f32) (main_arg8 : FVec F S64 .f32) : FVec F S1195x64 .f32 :=
  let main_v74 : IVec S1x100000 32 := (extractStridedSlice S1x100000 ![0, 0] · slices_S2x100000_S1x100000_0_0) main_arg0
  let main_v75 : IVec S100000 32 := shapeCast S100000 main_v74 shapeCasts_S1x100000_S100000
  let main_v76 : IVec S1x100000 32 := (extractStridedSlice S1x100000 ![1, 0] · slices_S2x100000_S1x100000_1_0) main_arg0
  let main_v77 : IVec S100000 32 := shapeCast S100000 main_v76 shapeCasts_S1x100000_S100000
  let main_c_35 : IVec S_ 32 := constantI S_ 32 0#32
  let main_v103 : IVec S100000 32 := broadcastInDim S100000 ![] bcast_S_S100000 main_c_35
  let main_v104 : IVec S100000 1 := cmpi .slt main_v75 main_v103
  let main_c_36 : IVec S_ 32 := constantI S_ 32 1195#32
  let main_v105 : IVec S100000 32 := broadcastInDim S100000 ![] bcast_S_S100000 main_c_36
  let main_v106 : IVec S100000 32 := addi main_v75 main_v105
  let main_v107 : IVec S100000 32 := select main_v104 main_v106 main_v75
  let main_v108 : IVec S100000x1 32 := broadcastInDim S100000x1 ![0] bcast_S100000_S100000x1_0 main_v107
  let main_v109 : FVec F S100000x64 .f32 := (fun x i => Host.gather gather_S1195x64_S100000x1_S100000x64_1_0_n_n_0_1_164 x i) main_v102 main_v108
  let main_v110 : FVec F S64x64 .f32 := (transpose S64x64 [1, 0] · transposes_S64x64_S64x64_1_0) main_arg7
  let main_v111 : FVec F S100000x64 .f32 := (fun l r => Host.dotGeneral dot_S100000x64_S64x64_S100000x64_1_0_0_1_n_n none l r) main_v109 main_v110
  let main_v112 : FVec F S1x64 .f32 := broadcastInDim S1x64 ![1] bcast_S64_S1x64_1 main_arg8
  let main_v113 : FVec F S100000x64 .f32 := broadcastInDim S100000x64 ![0, 1] bcast_S1x64_S100000x64_0_1 main_v112
  let main_v114 : FVec F S100000x64 .f32 := addf main_v111 main_v113
  let main_cst_37 : FVec F S_ .f32 := constant S_ .f32 0x00000000#32
  let main_v115 : FVec F S1195x64 .f32 := broadcastInDim S1195x64 ![] bcast_S_S1195x64 main_cst_37
  let main_v116 : IVec S100000x1 32 := broadcastInDim S100000x1 ![0] bcast_S100000_S100000x1_0 main_v77
  let main_v117 : FVec F S1195x64 .f32 := (fun x i u => Host.scatterAdd scatter_S1195x64_S100000x1_S100000x64_1_0_0_1 x i u) main_v115 main_v116 main_v114
  let main_cst_38 : FVec F S_ .f32 := constant S_ .f32 0x00000000#32
  let main_v118 : FVec F S1195 .f32 := broadcastInDim S1195 ![] bcast_S_S1195 main_cst_38
  let main_v119 : IVec S100000x1 32 := broadcastInDim S100000x1 ![0] bcast_S100000_S100000x1_0 main_v77
  let main_cst_39 : FVec F S_ .f32 := constant S_ .f32 0x3F800000#32
  let main_v120 : FVec F S100000 .f32 := broadcastInDim S100000 ![] bcast_S_S100000 main_cst_39
  let main_v121 : FVec F S1195 .f32 := (fun x i u => Host.scatterAdd scatter_S1195_S100000x1_S100000_n_0_0_1 x i u) main_v118 main_v119 main_v120
  let main_cst_40 : FVec F S_ .f32 := constant S_ .f32 0x3F800000#32
  let main_v122 : FVec F S1195 .f32 := broadcastInDim S1195 ![] bcast_S_S1195 main_cst_40
  let main_v123 : FVec F S1195 .f32 := maximumf main_v121 main_v122
  let main_v124 : FVec F S1195x1 .f32 := broadcastInDim S1195x1 ![0] bcast_S1195_S1195x1_0 main_v123
  let main_v125 : FVec F S1195x64 .f32 := broadcastInDim S1195x64 ![0, 1] bcast_S1195x1_S1195x64_0_1 main_v124
  let main_v126 : FVec F S1195x64 .f32 := Host.divf main_v117 main_v125
  let main_v127 : FVec F S1195x64 .f32 := Host.tanh main_v126
  main_v127

set_option maxHeartbeats 4000000 in
/-- The rows past the first 805 of the second layer's output, projected. -/
def hiddenInPre {F : FTy → Type} [FloatOps F] (main_v127 : FVec F S1195x64 .f32) (main_arg9 : FVec F S64x64 .f32) (main_arg10 : FVec F S64 .f32) : FVec F S390x64 .f32 :=
  let main_v128 : FVec F S390x64 .f32 := (extractStridedSlice S390x64 ![805, 0] · slices_S1195x64_S390x64_805_0) main_v127
  let main_v129 : FVec F S64x64 .f32 := (transpose S64x64 [1, 0] · transposes_S64x64_S64x64_1_0) main_arg9
  let main_v130 : FVec F S390x64 .f32 := (fun l r => Host.dotGeneral dot_S390x64_S64x64_S390x64_1_0_0_1_n_n none l r) main_v128 main_v129
  let main_v131 : FVec F S1x64 .f32 := broadcastInDim S1x64 ![1] bcast_S64_S1x64_1 main_arg10
  let main_v132 : FVec F S390x64 .f32 := broadcastInDim S390x64 ![0, 1] bcast_S1x64_S390x64_0_1 main_v131
  let main_v133 : FVec F S390x64 .f32 := addf main_v130 main_v132
  main_v133

set_option maxHeartbeats 4000000 in
/-- The exponential linear unit. -/
def eluPre {F : FTy → Type} [FloatOps F] (main_v133 : FVec F S390x64 .f32) : FVec F S390x64 .f32 :=
  let main_cst_41 : FVec F S_ .f32 := constant S_ .f32 0x00000000#32
  let main_v134 : FVec F S390x64 .f32 := broadcastInDim S390x64 ![] bcast_S_S390x64 main_cst_41
  let main_v135 : IVec S390x64 1 := cmpf .ogt main_v133 main_v134
  let main_cst_42 : FVec F S_ .f32 := constant S_ .f32 0x00000000#32
  let main_v136 : FVec F S390x64 .f32 := broadcastInDim S390x64 ![] bcast_S_S390x64 main_cst_42
  let main_v137 : IVec S390x64 1 := cmpf .ogt main_v133 main_v136
  let main_cst_43 : FVec F S_ .f32 := constant S_ .f32 0x00000000#32
  let main_v138 : FVec F S390x64 .f32 := broadcastInDim S390x64 ![] bcast_S_S390x64 main_cst_43
  let main_v139 : FVec F S390x64 .f32 := select main_v137 main_v138 main_v133
  let main_cst_44 : FVec F S_ .f32 := constant S_ .f32 0x3F800000#32
  let main_v140 : FVec F S390x64 .f32 := broadcastInDim S390x64 ![] bcast_S_S390x64 main_cst_44
  let main_v141 : FVec F S390x64 .f32 := Host.expm1 main_v139
  let main_v142 : FVec F S390x64 .f32 := mulf main_v140 main_v141
  let main_v143 : FVec F S390x64 .f32 := select main_v135 main_v133 main_v142
  main_v143

set_option maxHeartbeats 4000000 in
/-- The second projection. -/
def projPre {F : FTy → Type} [FloatOps F] (main_v143 : FVec F S390x64 .f32) (main_arg11 : FVec F S64x64 .f32) (main_arg12 : FVec F S64 .f32) : FVec F S390x64 .f32 :=
  let main_v144 : FVec F S64x64 .f32 := (transpose S64x64 [1, 0] · transposes_S64x64_S64x64_1_0) main_arg11
  let main_v145 : FVec F S390x64 .f32 := (fun l r => Host.dotGeneral dot_S390x64_S64x64_S390x64_1_0_0_1_n_n none l r) main_v143 main_v144
  let main_v146 : FVec F S1x64 .f32 := broadcastInDim S1x64 ![1] bcast_S64_S1x64_1 main_arg12
  let main_v147 : FVec F S390x64 .f32 := broadcastInDim S390x64 ![0, 1] bcast_S1x64_S390x64_0_1 main_v146
  let main_v148 : FVec F S390x64 .f32 := addf main_v145 main_v147
  main_v148

set_option maxHeartbeats 4000000 in
/-- Each row's norm, as a column. -/
def normPre {F : FTy → Type} [FloatOps F] (main_v148 : FVec F S390x64 .f32) : FVec F S390x1 .f32 :=
  let main_v149 : FVec F S390x64 .f32 := mulf main_v148 main_v148
  let main_cst_45 : FVec F S_ .f32 := constant S_ .f32 0x00000000#32
  let main_v150 : FVec F S390 .f32 := (fun x v => Host.reduceAdd x v reducesTo_S390x64_S390_d1 h_S_) main_v149 main_cst_45
  let main_v151 : FVec F S390x1 .f32 := broadcastInDim S390x1 ![0] bcast_S390_S390x1_0 main_v150
  let main_v152 : FVec F S390x1 .f32 := Host.sqrt main_v151
  main_v152

set_option maxHeartbeats 4000000 in
/-- Each row divided by its norm. -/
def divPre {F : FTy → Type} [FloatOps F] (main_v148 : FVec F S390x64 .f32) (main_v152 : FVec F S390x1 .f32) : FVec F S390x64 .f32 :=
  let main_v153 : FVec F S390x64 .f32 := broadcastInDim S390x64 ![0, 1] bcast_S390x1_S390x64_0_1 main_v152
  let main_v154 : FVec F S390x64 .f32 := Host.divf main_v148 main_v153
  main_v154

/-- The normalised table, as the precondition computes it. -/
def esPre {F : FTy → Type} [FloatOps F] (main_arg0 : IVec S2x100000 32) (main_arg4 : FVec F S1195x64 .f32) (main_arg5 : FVec F S64x64 .f32) (main_arg6 : FVec F S64 .f32) (main_arg7 : FVec F S64x64 .f32) (main_arg8 : FVec F S64 .f32) (main_arg9 : FVec F S64x64 .f32) (main_arg10 : FVec F S64 .f32) (main_arg11 : FVec F S64x64 .f32) (main_arg12 : FVec F S64 .f32) : FVec F S390x64 .f32 :=
  divPre (projPre (eluPre (hiddenInPre (layer2Pre (layer1Pre main_arg0 main_arg4 main_arg5 main_arg6) main_arg0 main_arg7 main_arg8) main_arg9 main_arg10)) main_arg11 main_arg12) (normPre (projPre (eluPre (hiddenInPre (layer2Pre (layer1Pre main_arg0 main_arg4 main_arg5 main_arg6) main_arg0 main_arg7 main_arg8) main_arg9 main_arg10)) main_arg11 main_arg12))

end Cert.Pre_finite_inputs

end
-- ==== Proof.PreDecode.lean ====
/-
  What the precondition says, decoded.  The predicate is a conjunction of sixteen bits, each an "every entry" over an
  array: every entry of a float argument has absolute value below +∞ — so is a real number —; every row of the batch
  has a sum different from zero; and every entry of the normalised table has absolute value below +∞.
-/
import proofs.«143416_j42528766165502_2_alg».proof.Proof.EsPre
import Idealize.ShloMosaic.Lib.ReduceAll
import Idealize.ShloMosaic.Lib.Affine
import Idealize.ShloMosaic.PureOps.Ideal
import Idealize.ShloMosaic.PureOps.Ideal.Laws
import Idealize.ShloMosaic.Lib.ValueIdx
import Idealize.ShloMosaic.Lib.IdealHost
import proofs.«143416_j42528766165502_2_alg».proof.Proof.LibDenseRows

set_option maxRecDepth 16384

noncomputable section

namespace Cert.Pre_finite_inputs.Decode

open Cert.Pre_finite_inputs Cert.Pre_finite_inputs.Gen
open Idealize.ShloMosaic Idealize.ShloMosaic.ValueIdx

instance : Subsingleton S_.Idx := ⟨fun a b => funext fun d => d.elim0⟩

/-- An extended real whose absolute value is below the bit pattern of +∞ is a real number. -/
theorem real_of_abs_lt (x : EReal)
    (h : FloatOps.cmpf (F := Ideal) (φ := .f32) .olt (FloatOps.hostAbsf (F := Ideal) (φ := .f32) x) (Ideal.ofBits .f32 0x7F800000#32) = 1#1) :
    ∃ r : ℝ, x = r := by
  have hinf : Ideal.ofBits .f32 0x7F800000#32 = (⊤ : EReal) := by simp [Ideal.ofBits, Ideal.ieee]
  rw [Ideal.cmpf_def, hinf] at h
  induction x using EReal.rec with
  | bot => exact absurd h (by simp [Ideal.cmp, FloatOps.hostAbsf])
  | coe r => exact ⟨r, rfl⟩
  | top => exact absurd h (by simp [Ideal.cmp, FloatOps.hostAbsf])

/-- "Every entry has absolute value below +∞", as the predicate spells it, says every entry is a real number. -/
theorem all_real {s : Shape} {axes : List (Fin s.rank)} (x : FVec Ideal s .f32) (hb : (⟨0, ![]⟩ : Shape).BroadcastsInDim s ![])
    (hr : s.ReducesTo axes S_)
    (h : Host.reduce IntOp.andi (cmpf .olt (Host.absf x) (broadcastInDim s ![] hb (constant (F := Ideal) S_ .f32 0x7F800000#32)))
      (constantI S_ 1 1#1) hr h_S_ ix0 = 1#1) (i : s.Idx) : ∃ r : ℝ, x i = r := by
  have e := Host.reduce_andi_all _ _ hr h_S_ ix0 h i
  rw [cmpf_apply, broadcastInDim_scalar_apply, constant_apply] at e
  exact real_of_abs_lt (x i) e

/-- "Every row sum differs from zero", as the predicate spells it. -/
theorem rows_ne_zero (P : FVec Ideal S65536x390 .f32)
    (h : Host.reduce IntOp.andi
      (cmpf .une (Host.reduceAdd P (constant (F := Ideal) S_ .f32 0x00000000#32) reducesTo_S65536x390_S65536_d1 h_S_)
        (broadcastInDim S65536 ![] bcast_S_S65536 (constant (F := Ideal) S_ .f32 0x00000000#32)))
      (constantI S_ 1 1#1) reducesTo_S65536_S_d0 h_S_ ix0 = 1#1) (b : Fin 65536) :
    (∑ k : Fin 390, P (ix2 b k)) ≠ 0 := by
  have e := Host.reduce_andi_all _ _ reducesTo_S65536_S_d0 h_S_ ix0 h (ix1 b)
  rw [cmpf_apply, broadcastInDim_scalar_apply, constant_apply, Ideal.ofBits_zero_f32, hostReduceAdd_apply,
    DenseRows.hostRowSum_apply P _ reducesTo_S65536x390_S65536_d1 (by decide) b, constant_apply, Ideal.ofBits_zero_f32,
    zero_add, Ideal.cmpf_def] at e
  intro h0
  rw [h0] at e
  exact absurd e (by simp [Ideal.cmp])

set_option maxHeartbeats 4000000 in
/-- The precondition, decoded: the batch, the last linear map and its bias hold real numbers, every row of the batch
    has a nonzero sum, and the normalised table holds real numbers. -/
theorem decode (a0 : IVec S2x100000 32) (a1 a2 : IVec S2x50000 32) (a3 : FVec Ideal S65536x390 .f32)
    (a4 : FVec Ideal S1195x64 .f32) (a5 : FVec Ideal S64x64 .f32) (a6 : FVec Ideal S64 .f32) (a7 : FVec Ideal S64x64 .f32)
    (a8 : FVec Ideal S64 .f32) (a9 : FVec Ideal S64x64 .f32) (a10 : FVec Ideal S64 .f32) (a11 : FVec Ideal S64x64 .f32)
    (a12 : FVec Ideal S64 .f32) (a13 : FVec Ideal S64x64 .f32) (a14 a15 a16 : FVec Ideal S64 .f32)
    (h : fn (F := Ideal) a0 a1 a2 a3 a4 a5 a6 a7 a8 a9 a10 a11 a12 a13 a14 a15 a16 = fun _ => 1#1) :
    (∀ i, ∃ r : ℝ, a3 i = r) ∧ (∀ i, ∃ r : ℝ, a13 i = r) ∧ (∀ i, ∃ r : ℝ, a14 i = r)
    ∧ (∀ b : Fin 65536, (∑ k : Fin 390, a3 (ix2 b k)) ≠ 0)
    ∧ (∀ i, ∃ r : ℝ, esPre (F := Ideal) a0 a4 a5 a6 a7 a8 a9 a10 a11 a12 i = r) := by
  have h0 := congrFun h ix0
  dsimp only [fn, fn_part1, fn_part2, fn_part3, fn_part4, fn_part5, fn_part6, fn_part7, fn_part8] at h0
  obtain ⟨h1, hES⟩ := IntOp.andi_eq_one.mp h0
  obtain ⟨h2, hrow⟩ := IntOp.andi_eq_one.mp h1
  obtain ⟨h3, -⟩ := IntOp.andi_eq_one.mp h2
  obtain ⟨h4, -⟩ := IntOp.andi_eq_one.mp h3
  obtain ⟨h5, hbm⟩ := IntOp.andi_eq_one.mp h4
  obtain ⟨h6, hWm⟩ := IntOp.andi_eq_one.mp h5
  obtain ⟨h7, -⟩ := IntOp.andi_eq_one.mp h6
  obtain ⟨h8, -⟩ := IntOp.andi_eq_one.mp h7
  obtain ⟨h9, -⟩ := IntOp.andi_eq_one.mp h8
  obtain ⟨h10, -⟩ := IntOp.andi_eq_one.mp h9
  obtain ⟨h11, -⟩ := IntOp.andi_eq_one.mp h10
  obtain ⟨h12, -⟩ := IntOp.andi_eq_one.mp h11
  obtain ⟨h13, -⟩ := IntOp.andi_eq_one.mp h12
  obtain ⟨h14, -⟩ := IntOp.andi_eq_one.mp h13
  obtain ⟨hP, -⟩ := IntOp.andi_eq_one.mp h14
  exact ⟨all_real a3 _ _ hP, all_real a13 _ _ hWm, all_real a14 _ _ hbm, rows_ne_zero a3 hrow,
    all_real (esPre (F := Ideal) a0 a4 a5 a6 a7 a8 a9 a10 a11 a12) _ _ hES⟩

end Cert.Pre_finite_inputs.Decode

end
-- ==== Proof.MatchTables.lean ====
/-
  The two normalised tables are one function of the arguments in both programs: the kernel program's host operations
  before its first region and the reference's operations up to the second table are the same compositions — the two
  graph layers (gather, linear map, accumulating scatter, count, division, tanh), the projections, the exponential
  linear unit, the division of each row by its own norm — so from memories that agree on the arguments the table
  buffers hold the same arrays.
-/
import proofs.«143416_j42528766165502_2_alg».proof.Proof.RefOps
import proofs.«143416_j42528766165502_2_alg».proof.Proof.Gen.KernelIdeal.Frame
import Idealize.ShloMosaic.PureOps.Ideal

set_option maxRecDepth 16384

noncomputable section

namespace Cert.Match

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

set_option maxHeartbeats 400000000 in
/-- The first table: the kernel program's buffer and the reference's hold one array. -/
theorem es_match (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.KernelIdeal.Gen.W9 m ρ c (Proc.devRef .tc Cert.KernelIdeal.main_v69)
      = after (Cert.ReferenceIdeal.RefRun.ops (F := Ideal)) (launchContents m' c) (Proc.devRef .tc Cert.ReferenceIdeal.main_v69) := by
  have e0 : launchContents m' c (Proc.devRef .tc Cert.ReferenceIdeal.main_arg0) = Cert.KernelIdeal.Gen.W0 m ρ c (Proc.devRef .tc Cert.KernelIdeal.main_arg0) := h0
  have e4 : launchContents m' c (Proc.devRef .tc Cert.ReferenceIdeal.main_arg4) = Cert.KernelIdeal.Gen.W0 m ρ c (Proc.devRef .tc Cert.KernelIdeal.main_arg4) := h4
  have e5 : launchContents m' c (Proc.devRef .tc Cert.ReferenceIdeal.main_arg5) = Cert.KernelIdeal.Gen.W0 m ρ c (Proc.devRef .tc Cert.KernelIdeal.main_arg5) := h5
  have e6 : launchContents m' c (Proc.devRef .tc Cert.ReferenceIdeal.main_arg6) = Cert.KernelIdeal.Gen.W0 m ρ c (Proc.devRef .tc Cert.KernelIdeal.main_arg6) := h6
  have e7 : launchContents m' c (Proc.devRef .tc Cert.ReferenceIdeal.main_arg7) = Cert.KernelIdeal.Gen.W0 m ρ c (Proc.devRef .tc Cert.KernelIdeal.main_arg7) := h7
  have e8 : launchContents m' c (Proc.devRef .tc Cert.ReferenceIdeal.main_arg8) = Cert.KernelIdeal.Gen.W0 m ρ c (Proc.devRef .tc Cert.KernelIdeal.main_arg8) := h8
  have e9 : launchContents m' c (Proc.devRef .tc Cert.ReferenceIdeal.main_arg9) = Cert.KernelIdeal.Gen.W0 m ρ c (Proc.devRef .tc Cert.KernelIdeal.main_arg9) := h9
  have e10 : launchContents m' c (Proc.devRef .tc Cert.ReferenceIdeal.main_arg10) = Cert.KernelIdeal.Gen.W0 m ρ c (Proc.devRef .tc Cert.KernelIdeal.main_arg10) := h10
  have e11 : launchContents m' c (Proc.devRef .tc Cert.ReferenceIdeal.main_arg11) = Cert.KernelIdeal.Gen.W0 m ρ c (Proc.devRef .tc Cert.KernelIdeal.main_arg11) := h11
  have e12 : launchContents m' c (Proc.devRef .tc Cert.ReferenceIdeal.main_arg12) = Cert.KernelIdeal.Gen.W0 m ρ c (Proc.devRef .tc Cert.KernelIdeal.main_arg12) := h12
  show after Cert.KernelIdeal.Gen.hostOps0_8 (after Cert.KernelIdeal.Gen.hostOps0_7 (after Cert.KernelIdeal.Gen.hostOps0_6
    (after Cert.KernelIdeal.Gen.hostOps0_5 (after Cert.KernelIdeal.Gen.hostOps0_4 (after Cert.KernelIdeal.Gen.hostOps0_3
    (after Cert.KernelIdeal.Gen.hostOps0_2 (after Cert.KernelIdeal.Gen.hostOps0_1 (after Cert.KernelIdeal.Gen.hostOps0
    (Cert.KernelIdeal.Gen.W0 m ρ c))))))))) _ = _
  simp only [Cert.ReferenceIdeal.RefRun.ops, Cert.ReferenceIdeal.RefRun.ops0, Cert.ReferenceIdeal.RefRun.ops1,
    Cert.ReferenceIdeal.RefRun.ops2, List.cons_append, List.nil_append]
  after_results_simp
  simp only [e0, e4, e5, e6, e7, e8, e9, e10, e11, e12]
  rfl

set_option maxHeartbeats 400000000 in
/-- The second table, likewise. -/
theorem eh_match (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (h12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.KernelIdeal.Gen.W9 m ρ c (Proc.devRef .tc Cert.KernelIdeal.main_v83)
      = after (Cert.ReferenceIdeal.RefRun.ops (F := Ideal)) (launchContents m' c) (Proc.devRef .tc Cert.ReferenceIdeal.main_v83) := by
  have e0 : launchContents m' c (Proc.devRef .tc Cert.ReferenceIdeal.main_arg0) = Cert.KernelIdeal.Gen.W0 m ρ c (Proc.devRef .tc Cert.KernelIdeal.main_arg0) := h0
  have e4 : launchContents m' c (Proc.devRef .tc Cert.ReferenceIdeal.main_arg4) = Cert.KernelIdeal.Gen.W0 m ρ c (Proc.devRef .tc Cert.KernelIdeal.main_arg4) := h4
  have e5 : launchContents m' c (Proc.devRef .tc Cert.ReferenceIdeal.main_arg5) = Cert.KernelIdeal.Gen.W0 m ρ c (Proc.devRef .tc Cert.KernelIdeal.main_arg5) := h5
  have e6 : launchContents m' c (Proc.devRef .tc Cert.ReferenceIdeal.main_arg6) = Cert.KernelIdeal.Gen.W0 m ρ c (Proc.devRef .tc Cert.KernelIdeal.main_arg6) := h6
  have e7 : launchContents m' c (Proc.devRef .tc Cert.ReferenceIdeal.main_arg7) = Cert.KernelIdeal.Gen.W0 m ρ c (Proc.devRef .tc Cert.KernelIdeal.main_arg7) := h7
  have e8 : launchContents m' c (Proc.devRef .tc Cert.ReferenceIdeal.main_arg8) = Cert.KernelIdeal.Gen.W0 m ρ c (Proc.devRef .tc Cert.KernelIdeal.main_arg8) := h8
  have e9 : launchContents m' c (Proc.devRef .tc Cert.ReferenceIdeal.main_arg9) = Cert.KernelIdeal.Gen.W0 m ρ c (Proc.devRef .tc Cert.KernelIdeal.main_arg9) := h9
  have e10 : launchContents m' c (Proc.devRef .tc Cert.ReferenceIdeal.main_arg10) = Cert.KernelIdeal.Gen.W0 m ρ c (Proc.devRef .tc Cert.KernelIdeal.main_arg10) := h10
  have e11 : launchContents m' c (Proc.devRef .tc Cert.ReferenceIdeal.main_arg11) = Cert.KernelIdeal.Gen.W0 m ρ c (Proc.devRef .tc Cert.KernelIdeal.main_arg11) := h11
  have e12 : launchContents m' c (Proc.devRef .tc Cert.ReferenceIdeal.main_arg12) = Cert.KernelIdeal.Gen.W0 m ρ c (Proc.devRef .tc Cert.KernelIdeal.main_arg12) := h12
  show after Cert.KernelIdeal.Gen.hostOps0_8 (after Cert.KernelIdeal.Gen.hostOps0_7 (after Cert.KernelIdeal.Gen.hostOps0_6
    (after Cert.KernelIdeal.Gen.hostOps0_5 (after Cert.KernelIdeal.Gen.hostOps0_4 (after Cert.KernelIdeal.Gen.hostOps0_3
    (after Cert.KernelIdeal.Gen.hostOps0_2 (after Cert.KernelIdeal.Gen.hostOps0_1 (after Cert.KernelIdeal.Gen.hostOps0
    (Cert.KernelIdeal.Gen.W0 m ρ c))))))))) _ = _
  simp only [Cert.ReferenceIdeal.RefRun.ops, Cert.ReferenceIdeal.RefRun.ops0, Cert.ReferenceIdeal.RefRun.ops1,
    Cert.ReferenceIdeal.RefRun.ops2, List.cons_append, List.nil_append]
  after_results_simp
  simp only [e0, e4, e5, e6, e7, e8, e9, e10, e11, e12]
  rfl

end Cert.Match

end
-- ==== Proof.MatchPre.lean ====
/-
  The precondition's normalised table is the kernel program's first table: stage by stage — the first graph layer, the
  second, the projection, the exponential linear unit, the second projection, the rows' norms, the division — the host
  operations before the first region compute, from the same arguments, the compositions the precondition is made of,
  and no later operation before the region writes a stage's buffer.
-/
import proofs.«143416_j42528766165502_2_alg».proof.Proof.EsPre
import proofs.«143416_j42528766165502_2_alg».proof.Proof.Gen.KernelIdeal.Frame
import Idealize.ShloMosaic.PureOps.Ideal

set_option maxRecDepth 16384

noncomputable section

namespace Cert.Match

open Idealize.ShloMosaic Idealize.ShloMosaic.TcCoe Idealize.SL.Sem Idealize.ShloMosaic.StableHlo
open Cert.KernelIdeal Cert.KernelIdeal.Gen

set_option maxHeartbeats 40000000 in
/-- The first stretch of host operations: the two graph layers and the projection, and the arguments it leaves. -/
theorem stage0 (W : Valuation τ sig (Elt Ideal)) :
    after hostOps0 W (Proc.devRef .tc main_v28) = Cert.Pre_finite_inputs.layer1Pre (F := Ideal) (W (Proc.devRef .tc main_arg0)) (W (Proc.devRef .tc main_arg4)) (W (Proc.devRef .tc main_arg5)) (W (Proc.devRef .tc main_arg6))
    ∧ after hostOps0 W (Proc.devRef .tc main_v53) = Cert.Pre_finite_inputs.layer2Pre (F := Ideal) (after hostOps0 W (Proc.devRef .tc main_v28)) (W (Proc.devRef .tc main_arg0)) (W (Proc.devRef .tc main_arg7)) (W (Proc.devRef .tc main_arg8))
    ∧ after hostOps0 W (Proc.devRef .tc main_v60) = Cert.Pre_finite_inputs.hiddenInPre (F := Ideal) (after hostOps0 W (Proc.devRef .tc main_v53)) (W (Proc.devRef .tc main_arg9)) (W (Proc.devRef .tc main_arg10))
    ∧ after hostOps0 W (Proc.devRef .tc main_arg11) = W (Proc.devRef .tc main_arg11)
    ∧ after hostOps0 W (Proc.devRef .tc main_arg12) = W (Proc.devRef .tc main_arg12) := by
  refine ⟨?_, ?_, ?_, ?_, ?_⟩ <;> (after_results_simp <;> rfl)

set_option maxHeartbeats 40000000 in
/-- The later stretches: the exponential linear unit, the second projection, the norms, the division. -/
theorem stages (W : Valuation τ sig (Elt Ideal)) :
    after hostOps0_1 W (Proc.devRef .tc main_v61) = Cert.Pre_finite_inputs.eluPre (F := Ideal) (W (Proc.devRef .tc main_v60))
    ∧ after hostOps0_1 W (Proc.devRef .tc main_arg11) = W (Proc.devRef .tc main_arg11)
    ∧ after hostOps0_1 W (Proc.devRef .tc main_arg12) = W (Proc.devRef .tc main_arg12)
    ∧ after hostOps0_2 W (Proc.devRef .tc main_v66) = Cert.Pre_finite_inputs.projPre (F := Ideal) (W (Proc.devRef .tc main_v61)) (W (Proc.devRef .tc main_arg11)) (W (Proc.devRef .tc main_arg12))
    ∧ after hostOps0_3 W (Proc.devRef .tc main_v67) = Cert.Pre_finite_inputs.normPre (F := Ideal) (W (Proc.devRef .tc main_v66))
    ∧ after hostOps0_3 W (Proc.devRef .tc main_v66) = W (Proc.devRef .tc main_v66)
    ∧ after hostOps0_4 W (Proc.devRef .tc main_v69) = Cert.Pre_finite_inputs.divPre (F := Ideal) (W (Proc.devRef .tc main_v66)) (W (Proc.devRef .tc main_v67))
    ∧ after hostOps0_5 W (Proc.devRef .tc main_v69) = W (Proc.devRef .tc main_v69)
    ∧ after hostOps0_6 W (Proc.devRef .tc main_v69) = W (Proc.devRef .tc main_v69)
    ∧ after hostOps0_7 W (Proc.devRef .tc main_v69) = W (Proc.devRef .tc main_v69)
    ∧ after hostOps0_8 W (Proc.devRef .tc main_v69) = W (Proc.devRef .tc main_v69) := by
  refine ⟨?_, ?_, ?_, ?_, ?_, ?_, ?_, ?_, ?_, ?_, ?_⟩ <;> (after_results_simp <;> rfl)

variable (m : (ℓ : Loc nD τ sig) → Buf (Elt Ideal) ℓ) (ρ : Dev nD → PrngReg)

/-- The precondition's table is the kernel program's first table. -/
theorem es_pre (c : Dev nD) :
    Cert.Pre_finite_inputs.esPre (F := Ideal)
        (m ((c.tc : Thread nD τ).loc main_arg0))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9))
        (m ((c.tc : Thread nD τ).loc main_arg10))
        (m ((c.tc : Thread nD τ).loc main_arg11))
        (m ((c.tc : Thread nD τ).loc main_arg12))
      = W9 m ρ c (Proc.devRef .tc main_v69) := by
  obtain ⟨l1, l2, l3, k11, k12⟩ := stage0 (W0 m ρ c)
  obtain ⟨e1, e11, e12, -⟩ := stages (W1 m ρ c)
  obtain ⟨-, -, -, p2, -⟩ := stages (W2 m ρ c)
  obtain ⟨-, -, -, -, n3, z3, -⟩ := stages (W3 m ρ c)
  obtain ⟨-, -, -, -, -, -, d4, -⟩ := stages (W4 m ρ c)
  obtain ⟨-, -, -, -, -, -, -, s5, -⟩ := stages (W5 m ρ c)
  obtain ⟨-, -, -, -, -, -, -, -, s6, -⟩ := stages (W6 m ρ c)
  obtain ⟨-, -, -, -, -, -, -, -, -, s7, -⟩ := stages (W7 m ρ c)
  obtain ⟨-, -, -, -, -, -, -, -, -, -, s8⟩ := stages (W8 m ρ c)
  have s8' : W9 m ρ c (Proc.devRef .tc main_v69) = W8 m ρ c (Proc.devRef .tc main_v69) := s8
  have s7' : W8 m ρ c (Proc.devRef .tc main_v69) = W7 m ρ c (Proc.devRef .tc main_v69) := s7
  have s6' : W7 m ρ c (Proc.devRef .tc main_v69) = W6 m ρ c (Proc.devRef .tc main_v69) := s6
  have s5' : W6 m ρ c (Proc.devRef .tc main_v69) = W5 m ρ c (Proc.devRef .tc main_v69) := s5
  have d4' : W5 m ρ c (Proc.devRef .tc main_v69) = Cert.Pre_finite_inputs.divPre (F := Ideal) (W4 m ρ c (Proc.devRef .tc main_v66)) (W4 m ρ c (Proc.devRef .tc main_v67)) := d4
  have n3' : W4 m ρ c (Proc.devRef .tc main_v67) = Cert.Pre_finite_inputs.normPre (F := Ideal) (W3 m ρ c (Proc.devRef .tc main_v66)) := n3
  have z3' : W4 m ρ c (Proc.devRef .tc main_v66) = W3 m ρ c (Proc.devRef .tc main_v66) := z3
  have p2' : W3 m ρ c (Proc.devRef .tc main_v66) = Cert.Pre_finite_inputs.projPre (F := Ideal) (W2 m ρ c (Proc.devRef .tc main_v61)) (W2 m ρ c (Proc.devRef .tc main_arg11)) (W2 m ρ c (Proc.devRef .tc main_arg12)) := p2
  have e1' : W2 m ρ c (Proc.devRef .tc main_v61) = Cert.Pre_finite_inputs.eluPre (F := Ideal) (W1 m ρ c (Proc.devRef .tc main_v60)) := e1
  have e11' : W2 m ρ c (Proc.devRef .tc main_arg11) = W1 m ρ c (Proc.devRef .tc main_arg11) := e11
  have e12' : W2 m ρ c (Proc.devRef .tc main_arg12) = W1 m ρ c (Proc.devRef .tc main_arg12) := e12
  have l3' : W1 m ρ c (Proc.devRef .tc main_v60) = Cert.Pre_finite_inputs.hiddenInPre (F := Ideal) (W1 m ρ c (Proc.devRef .tc main_v53)) (W0 m ρ c (Proc.devRef .tc main_arg9)) (W0 m ρ c (Proc.devRef .tc main_arg10)) := l3
  have l2' : W1 m ρ c (Proc.devRef .tc main_v53) = Cert.Pre_finite_inputs.layer2Pre (F := Ideal) (W1 m ρ c (Proc.devRef .tc main_v28)) (W0 m ρ c (Proc.devRef .tc main_arg0)) (W0 m ρ c (Proc.devRef .tc main_arg7)) (W0 m ρ c (Proc.devRef .tc main_arg8)) := l2
  have l1' : W1 m ρ c (Proc.devRef .tc main_v28) = Cert.Pre_finite_inputs.layer1Pre (F := Ideal) (W0 m ρ c (Proc.devRef .tc main_arg0)) (W0 m ρ c (Proc.devRef .tc main_arg4)) (W0 m ρ c (Proc.devRef .tc main_arg5)) (W0 m ρ c (Proc.devRef .tc main_arg6)) := l1
  have k11' : W1 m ρ c (Proc.devRef .tc main_arg11) = W0 m ρ c (Proc.devRef .tc main_arg11) := k11
  have k12' : W1 m ρ c (Proc.devRef .tc main_arg12) = W0 m ρ c (Proc.devRef .tc main_arg12) := k12
  rw [s8', s7', s6', s5', d4', n3', z3', p2', e1', e11', e12', l3', l2', l1', k11', k12']
  rfl

end Cert.Match

end
-- ==== Proof.lean ====
/-
  The certificate: the kernel program (the graph embedding on the host, a first tiled pass that embeds the batch and
  sums each tile's columns, a second tiled pass that normalises, rectifies and multiplies by the second table) against
  its plain reference.

  The three runs come from the generated frames (the two kernel programs) and from the reference's operation table.
  Nothing was rewritten by the idealisation, so that claim is trivial.  For the equality of results: the kernel
  program's result array is, entry by entry, the folded result of the specification over the batch, the two tables and
  the parameters; the reference's is the plain result over the same arrays — the two tables being one composition of
  the arguments in both programs —; and the two results agree when the batch, the first table, the last linear map and
  its bias hold real numbers and every row of the batch has a nonzero sum, which is what the precondition says.
-/
import proofs.«143416_j42528766165502_2_alg».proof.Defs
import proofs.«143416_j42528766165502_2_alg».proof.Proof.Gen.Kernel
import proofs.«143416_j42528766165502_2_alg».proof.Proof.Gen.Kernel.Frame
import proofs.«143416_j42528766165502_2_alg».proof.Proof.Gen.KernelIdeal
import proofs.«143416_j42528766165502_2_alg».proof.Proof.Gen.KernelIdeal.Frame
import proofs.«143416_j42528766165502_2_alg».proof.Proof.Gen.ReferenceIdeal
import proofs.«143416_j42528766165502_2_alg».proof.Proof.Gen.Pre_finite_inputs
import proofs.«143416_j42528766165502_2_alg».proof.Proof.KerRun
import proofs.«143416_j42528766165502_2_alg».proof.Proof.KerChain
import proofs.«143416_j42528766165502_2_alg».proof.Proof.RefRead
import proofs.«143416_j42528766165502_2_alg».proof.Proof.RefArgsA
import proofs.«143416_j42528766165502_2_alg».proof.Proof.RefArgsB
import proofs.«143416_j42528766165502_2_alg».proof.Proof.RefArgsC
import proofs.«143416_j42528766165502_2_alg».proof.Proof.PreDecode
import proofs.«143416_j42528766165502_2_alg».proof.Proof.MatchTables
import proofs.«143416_j42528766165502_2_alg».proof.Proof.MatchPre
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem Idealize.ShloMosaic.StableHlo
open Cert.Views

theorem frame_kernel : Cert.frame_Kernel := fun m ρ _ => Cert.Kernel.Gen.frame m ρ

theorem frame_kernelIdeal : Cert.frame_KernelIdeal := fun m ρ _ => Cert.KernelIdeal.Gen.frame m ρ

/-- The reference runs and writes no argument: its operation table's run, each argument read back. -/
theorem frame_reference : Cert.frame_ReferenceIdeal := fun m ρ _ =>
  (θ_run Cert.ReferenceIdeal.defs _ _).mono (fun r h c => by
      obtain ⟨a0, a1, a2, a3, a4, a5⟩ := Cert.ReferenceIdeal.RefValue.args_keptA (launchContents m c)
      obtain ⟨a6, a7, a8, a9, a10, a11⟩ := Cert.ReferenceIdeal.RefValue.args_keptB (launchContents m c)
      obtain ⟨a12, a13, a14, a15, a16⟩ := Cert.ReferenceIdeal.RefValue.args_keptC (launchContents m c)
      exact ⟨(h c Cert.ReferenceIdeal.main_arg0).trans a0, (h c Cert.ReferenceIdeal.main_arg1).trans a1, (h c Cert.ReferenceIdeal.main_arg2).trans a2, (h c Cert.ReferenceIdeal.main_arg3).trans a3, (h c Cert.ReferenceIdeal.main_arg4).trans a4, (h c Cert.ReferenceIdeal.main_arg5).trans a5, (h c Cert.ReferenceIdeal.main_arg6).trans a6, (h c Cert.ReferenceIdeal.main_arg7).trans a7, (h c Cert.ReferenceIdeal.main_arg8).trans a8, (h c Cert.ReferenceIdeal.main_arg9).trans a9, (h c Cert.ReferenceIdeal.main_arg10).trans a10, (h c Cert.ReferenceIdeal.main_arg11).trans a11, (h c Cert.ReferenceIdeal.main_arg12).trans a12, (h c Cert.ReferenceIdeal.main_arg13).trans a13, (h c Cert.ReferenceIdeal.main_arg14).trans a14, (h c Cert.ReferenceIdeal.main_arg15).trans a15, (h c Cert.ReferenceIdeal.main_arg16).trans a16⟩)
    (Cert.ReferenceIdeal.RefRun.run_main (F := Ideal) m ρ)

theorem preserves : Cert.preserves_Kernel_KernelIdeal := trivial

/-- From memories that agree on the arguments and satisfy the precondition, both idealised programs run and end with
    the same result array. -/
theorem algebraic : Cert.algebraic_KernelIdeal_ReferenceIdeal := by
  intro m ρ m' ρ' hpre hagree
  refine ⟨fun c => (Cert.KernelIdeal.Gen.dat1 (Cert.KernelIdeal.Gen.V11 m ρ) c).arrAt 6 Cert.KernelIdeal.cfg1.N, Cert.KernelIdeal.KerRun.run_result m ρ, ?_⟩
  refine (θ_run Cert.ReferenceIdeal.defs _ _).mono (fun r h c => ?_) (Cert.ReferenceIdeal.RefRun.run_main (F := Ideal) m' ρ')
  obtain ⟨g0, g1, g2, g3, g4, g5, g6, g7, g8, g9, g10, g11, g12, g13, g14, g15, g16⟩ := hagree c
  obtain ⟨a0, a1, a2, a3, a4, a5⟩ := Cert.ReferenceIdeal.RefValue.args_keptA (launchContents m' c)
  obtain ⟨a6, a7, a8, a9, a10, a11⟩ := Cert.ReferenceIdeal.RefValue.args_keptB (launchContents m' c)
  obtain ⟨a12, a13, a14, a15, a16⟩ := Cert.ReferenceIdeal.RefValue.args_keptC (launchContents m' c)
  refine ⟨(h c Cert.ReferenceIdeal.main_v115).trans ?_, (h c Cert.ReferenceIdeal.main_arg0).trans a0, (h c Cert.ReferenceIdeal.main_arg1).trans a1, (h c Cert.ReferenceIdeal.main_arg2).trans a2, (h c Cert.ReferenceIdeal.main_arg3).trans a3, (h c Cert.ReferenceIdeal.main_arg4).trans a4, (h c Cert.ReferenceIdeal.main_arg5).trans a5, (h c Cert.ReferenceIdeal.main_arg6).trans a6, (h c Cert.ReferenceIdeal.main_arg7).trans a7, (h c Cert.ReferenceIdeal.main_arg8).trans a8, (h c Cert.ReferenceIdeal.main_arg9).trans a9, (h c Cert.ReferenceIdeal.main_arg10).trans a10, (h c Cert.ReferenceIdeal.main_arg11).trans a11, (h c Cert.ReferenceIdeal.main_arg12).trans a12, (h c Cert.ReferenceIdeal.main_arg13).trans a13, (h c Cert.ReferenceIdeal.main_arg14).trans a14, (h c Cert.ReferenceIdeal.main_arg15).trans a15, (h c Cert.ReferenceIdeal.main_arg16).trans a16⟩
  -- the precondition, decoded at this device
  obtain ⟨hP, hWm, hbm, hrow, hes⟩ := Cert.Pre_finite_inputs.Decode.decode _ _ _ _ _ _ _ _ _ _ _ _ _ _ _ _ _ (hpre c)
  rw [Cert.Match.es_pre m ρ c] at hes
  -- the reference's result, entry by entry
  rw [Cert.ReferenceIdeal.RefValue.out_eq]
  funext i
  obtain ⟨b, u, rfl⟩ : ∃ (b : Fin 65536) (u : Fin 805), i = ix2 b u := ⟨i 0, i 1, eq_ix2 (n0 := 65536) (n1 := 805) i⟩
  show Cert.ReferenceIdeal.RefValue.tail _ _ _ _ _ _ _ (ix2 b u) = (Cert.KernelIdeal.Gen.dat1 (Cert.KernelIdeal.Gen.V11 m ρ) c).arrAt 6 Cert.KernelIdeal.cfg1.N (ix2 b u)
  rw [Cert.ReferenceIdeal.RefValue.tail_apply, Cert.KernelIdeal.KerValue.result_apply m ρ c b u,
    ← Cert.Match.es_match m ρ m' c g0 g4 g5 g6 g7 g8 g9 g10 g11 g12, ← Cert.Match.eh_match m ρ m' c g0 g4 g5 g6 g7 g8 g9 g10 g11 g12]
  have e3 : launchContents m' c (Proc.devRef .tc Cert.ReferenceIdeal.main_arg3) = m ((c.tc : Thread Cert.KernelIdeal.nD Cert.KernelIdeal.τ).loc Cert.KernelIdeal.main_arg3) := g3
  have e13 : launchContents m' c (Proc.devRef .tc Cert.ReferenceIdeal.main_arg13) = m ((c.tc : Thread Cert.KernelIdeal.nD Cert.KernelIdeal.τ).loc Cert.KernelIdeal.main_arg13) := g13
  have e14 : launchContents m' c (Proc.devRef .tc Cert.ReferenceIdeal.main_arg14) = m ((c.tc : Thread Cert.KernelIdeal.nD Cert.KernelIdeal.τ).loc Cert.KernelIdeal.main_arg14) := g14
  have e15 : launchContents m' c (Proc.devRef .tc Cert.ReferenceIdeal.main_arg15) = m ((c.tc : Thread Cert.KernelIdeal.nD Cert.KernelIdeal.τ).loc Cert.KernelIdeal.main_arg15) := g15
  have e16 : launchContents m' c (Proc.devRef .tc Cert.ReferenceIdeal.main_arg16) = m ((c.tc : Thread Cert.KernelIdeal.nD Cert.KernelIdeal.τ).loc Cert.KernelIdeal.main_arg16) := g16
  rw [e3, e13, e14, e15, e16]
  exact (congrFun (congrFun (Cert.Spec.outFolded_eq_outPlain _ _ _ _ _ _ _
    (fun b k => hP (ix2 b k)) (fun k j => hes (ix2 k j)) (fun d j => hWm (ix2 d j)) (fun d => hbm (ix1 d)) hrow) b) u).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
